-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S524288x1 : Shape := ⟨2, ![524288, 1]⟩
abbrev S8192x6 : Shape := ⟨2, ![8192, 6]⟩
abbrev S8192x1 : Shape := ⟨2, ![8192, 1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S524288x1 : S_.BroadcastsInDim S524288x1 (![] : Fin 0 → Fin S524288x1.rank)
  reducesTo_S524288x1_S_d0_1 : S524288x1.ReducesTo [0, 1] S_
  bcast_S_S8192x6 : S_.BroadcastsInDim S8192x6 (![] : Fin 0 → Fin S8192x6.rank)
  reducesTo_S8192x6_S_d0_1 : S8192x6.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part3 {F : FTy → Type} [FloatOps F] (main_v48 : IVec S_ 1) (main_v49 : FVec F S8192x1 .f32) (main_v50 : FVec F S8192x1 .f32) : IVec S_ 1 :=
  let main_v51 : IVec S8192x1 1 := cmpf .olt main_v49 main_v50
  let main_c_19 : IVec S_ 1 := constantI S_ 1 1#1
  let main_v52 : IVec S_ 1 := (fun x v => Host.reduce IntOp.andi x v reducesTo_S8192x1_S_d0_1 h_S_) main_v51 main_c_19
  let main_v53 : IVec S_ 1 := andi main_v48 main_v52
  main_v53

def fn_part2 {F : FTy → Type} [FloatOps F] (main_arg7 : FVec F S524288x1 .f32) (main_arg8 : FVec F S8192x6 .f32) (main_arg9 : FVec F S524288x1 .f32) (main_arg10 : FVec F S8192x1 .f32) (main_v33 : IVec S_ 1) : IVec S_ 1 :=
  let main_v34 : FVec F S524288x1 .f32 := Host.absf main_arg7
  let main_cst_12 : FVec F S_ .f32 := constant S_ .f32 0x7F800000#32
  let main_v35 : FVec F S524288x1 .f32 := broadcastInDim S524288x1 ![] bcast_S_S524288x1 main_cst_12
  let main_v36 : IVec S524288x1 1 := cmpf .olt main_v34 main_v35
  let main_c_13 : IVec S_ 1 := constantI S_ 1 1#1
  let main_v37 : IVec S_ 1 := (fun x v => Host.reduce IntOp.andi x v reducesTo_S524288x1_S_d0_1 h_S_) main_v36 main_c_13
  let main_v38 : IVec S_ 1 := andi main_v33 main_v37
  let main_v39 : FVec F S8192x6 .f32 := Host.absf main_arg8
  let main_cst_14 : FVec F S_ .f32 := constant S_ .f32 0x7F800000#32
  let main_v40 : FVec F S8192x6 .f32 := broadcastInDim S8192x6 ![] bcast_S_S8192x6 main_cst_14
  let main_v41 : IVec S8192x6 1 := cmpf .olt main_v39 main_v40
  let main_c_15 : IVec S_ 1 := constantI S_ 1 1#1
  let main_v42 : IVec S_ 1 := (fun x v => Host.reduce IntOp.andi x v reducesTo_S8192x6_S_d0_1 h_S_) main_v41 main_c_15
  let main_v43 : IVec S_ 1 := andi main_v38 main_v42
  let main_v44 : FVec F S524288x1 .f32 := Host.absf main_arg9
  let main_cst_16 : FVec F S_ .f32 := constant S_ .f32 0x7F800000#32
  let main_v45 : FVec F S524288x1 .f32 := broadcastInDim S524288x1 ![] bcast_S_S524288x1 main_cst_16
  let main_v46 : IVec S524288x1 1 := cmpf .olt main_v44 main_v45
  let main_c_17 : IVec S_ 1 := constantI S_ 1 1#1
  let main_v47 : IVec S_ 1 := (fun x v => Host.reduce IntOp.andi x v reducesTo_S524288x1_S_d0_1 h_S_) main_v46 main_c_17
  let main_v48 : IVec S_ 1 := andi main_v43 main_v47
  let main_v49 : FVec F S8192x1 .f32 := Host.absf main_arg10
  let main_cst_18 : FVec F S_ .f32 := constant S_ .f32 0x7F800000#32
  let main_v50 : FVec F S8192x1 .f32 := broadcastInDim S8192x1 ![] bcast_S_S8192x1 main_cst_18
  fn_part3 (F := F) main_v48 main_v49 main_v50

def fn_part1 {F : FTy → Type} [FloatOps F] (main_arg4 : FVec F S64 .f32) (main_arg5 : FVec F S64x1 .f32) (main_arg6 : FVec F S1 .f32) (main_arg7 : FVec F S524288x1 .f32) (main_arg8 : FVec F S8192x6 .f32) (main_arg9 : FVec F S524288x1 .f32) (main_arg10 : FVec F S8192x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x64 .f32) (main_arg1 : FVec F S128x64 .f32) (main_arg2 : FVec F S64 .f32) (main_arg3 : FVec F S64x64 .f32) (main_arg4 : FVec F S64 .f32) (main_arg5 : FVec F S64x1 .f32) (main_arg6 : FVec F S1 .f32) (main_arg7 : FVec F S524288x1 .f32) (main_arg8 : FVec F S8192x6 .f32) (main_arg9 : FVec F S524288x1 .f32) (main_arg10 : FVec F S8192x1 .f32) (main_arg11 : IVec S128x64 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S8192x64 : Shape := ⟨2, ![8192, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S524288x1 : Shape := ⟨2, ![524288, 1]⟩
abbrev S8192x6 : Shape := ⟨2, ![8192, 6]⟩
abbrev S8192x1 : Shape := ⟨2, ![8192, 1]⟩
abbrev S16x512x64 : Shape := ⟨3, ![16, 512, 64]⟩
abbrev S16x8x64x64 : Shape := ⟨4, ![16, 8, 64, 64]⟩
abbrev S16x1x1 : Shape := ⟨3, ![16, 1, 1]⟩
abbrev S1x512x64 : Shape := ⟨3, ![1, 512, 64]⟩
abbrev S1x8x64x64 : Shape := ⟨4, ![1, 8, 64, 64]⟩
abbrev S1x1x1 : Shape := ⟨3, ![1, 1, 1]⟩
abbrev S512x64 : Shape := ⟨2, ![512, 64]⟩
abbrev S8x64x64 : Shape := ⟨3, ![8, 64, 64]⟩
abbrev S8x64x1x64 : Shape := ⟨4, ![8, 64, 1, 64]⟩
abbrev S8x1x64x64 : Shape := ⟨4, ![8, 1, 64, 64]⟩
abbrev S8x64x64x64 : Shape := ⟨4, ![8, 64, 64, 64]⟩
abbrev S1x1x1x64 : Shape := ⟨4, ![1, 1, 1, 64]⟩
abbrev S32768x64 : Shape := ⟨2, ![32768, 64]⟩
abbrev S1x64 : Shape := ⟨2, ![1, 64]⟩
abbrev S1x1x1x1 : Shape := ⟨4, ![1, 1, 1, 1]⟩
abbrev S_ : Shape := ⟨0, ![]⟩
abbrev S8192 : Shape := ⟨1, ![8192]⟩
abbrev S8192x1x1 : Shape := ⟨3, ![8192, 1, 1]⟩
abbrev S2 : Shape := ⟨1, ![2]⟩

abbrev nBuf : Space → Nat
  | .hbm => 77
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S524288x1, .f32⟩
  | .hbm, ⟨8, _⟩ => ⟨S8192x6, .f32⟩
  | .hbm, ⟨9, _⟩ => ⟨S524288x1, .f32⟩
  | .hbm, ⟨10, _⟩ => ⟨S8192x1, .f32⟩
  | .hbm, ⟨11, _⟩ => ⟨S128x64, .i32⟩
  | .hbm, ⟨12, _⟩ => ⟨S16x512x64, .f32⟩
  | .hbm, ⟨13, _⟩ => ⟨S16x8x64x64, .f32⟩
  | .hbm, ⟨14, _⟩ => ⟨S16x8x64x64, .f32⟩
  | .hbm, ⟨15, _⟩ => ⟨S64x64, .f32⟩
  | .hbm, ⟨16, _⟩ => ⟨S64x64, .bf16⟩
  | .hbm, ⟨17, _⟩ => ⟨S64x64, .f32⟩
  | .hbm, ⟨18, _⟩ => ⟨S64x64, .bf16⟩
  | .hbm, ⟨19, _⟩ => ⟨S64x64, .bf16⟩
  | .hbm, ⟨20, _⟩ => ⟨S64, .f32⟩
  | .hbm, ⟨21, _⟩ => ⟨S16x1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x6, .f32⟩
  | .hbm, ⟨34, _⟩ => ⟨S8192x6, .f32⟩
  | .hbm, ⟨35, _⟩ => ⟨S8192x6, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S8192x6, .f32⟩
  | .hbm, ⟨41, _⟩ => ⟨S8192x6, .f32⟩
  | .hbm, ⟨42, _⟩ => ⟨S8192, .i32⟩
  | .hbm, ⟨43, _⟩ => ⟨S8192x1, .i32⟩
  | .hbm, ⟨44, _⟩ => ⟨S_, .i32⟩
  | .hbm, ⟨45, _⟩ => ⟨S8192x1, .i32⟩
  | .hbm, ⟨46, _⟩ => ⟨S8192x1, .i1⟩
  | .hbm, ⟨47, _⟩ => ⟨S_, .i32⟩
  | .hbm, ⟨48, _⟩ => ⟨S8192x1, .i32⟩
  | .hbm, ⟨49, _⟩ => ⟨S8192x1, .i32⟩
  | .hbm, ⟨50, _⟩ => ⟨S8192x1, .i32⟩
  | .hbm, ⟨51, _⟩ => ⟨S8192x1x1, .i32⟩
  | .hbm, ⟨52, _⟩ => ⟨S1, .i32⟩
  | .hbm, ⟨53, _⟩ => ⟨S_, .i32⟩
  | .hbm, ⟨54, _⟩ => ⟨S8192x1x1, .i32⟩
  | .hbm, ⟨55, _⟩ => ⟨S8192x1x1, .i1⟩
  | .hbm, ⟨56, _⟩ => ⟨S1x1x1, .i32⟩
  | .hbm, ⟨57, _⟩ => ⟨S8192x1x1, .i32⟩
  | .hbm, ⟨58, _⟩ => ⟨S8192x1x1, .i1⟩
  | .hbm, ⟨59, _⟩ => ⟨S8192x1x1, .i1⟩
  | .hbm, ⟨60, _⟩ => ⟨S_, .i1⟩
  | .hbm, ⟨61, _⟩ => ⟨S8192x1, .i1⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1, .f32⟩
  | .hbm, ⟨75, _⟩ => ⟨S1, .f32⟩
  | .hbm, ⟨76, _⟩ => ⟨S2, .f32⟩
  | .local _ .vmem, ⟨0, _⟩ => ⟨S1x512x64, .f32⟩
  | .local _ .vmem, ⟨1, _⟩ => ⟨S1x512x64, .f32⟩
  | .local _ .vmem, ⟨2, _⟩ => ⟨S1x8x64x64, .f32⟩
  | .local _ .vmem, ⟨3, _⟩ => ⟨S1x8x64x64, .f32⟩
  | .local _ .vmem, ⟨4, _⟩ => ⟨S1x8x64x64, .f32⟩
  | .local _ .vmem, ⟨5, _⟩ => ⟨S1x8x64x64, .f32⟩
  | .local _ .vmem, ⟨6, _⟩ => ⟨S64x64, .bf16⟩
  | .local _ .vmem, ⟨7, _⟩ => ⟨S64x64, .bf16⟩
  | .local _ .vmem, ⟨8, _⟩ => ⟨S64, .f32⟩
  | .local _ .vmem, ⟨9, _⟩ => ⟨S64x64, .bf16⟩
  | .local _ .vmem, ⟨10, _⟩ => ⟨S64, .f32⟩
  | .local _ .vmem, ⟨11, _⟩ => ⟨S64, .f32⟩
  | .local _ .vmem, ⟨12, _⟩ => ⟨S1, .f32⟩
  | .local _ .vmem, ⟨13, _⟩ => ⟨S1x1x1, .f32⟩
  | .local _ .vmem, ⟨14, _⟩ => ⟨S1x1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_1 : Ref sig .tc := ⟨.hbm, 70, rfl⟩
abbrev main_v21 : Ref sig .tc := ⟨.hbm, 71, rfl⟩
abbrev main_cst_2 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S8192x64_S16x512x64 : S8192x64.ShapeCasts S16x512x64
  shapeCasts_S524288x1_S16x8x64x64 : S524288x1.ShapeCasts S16x8x64x64
  slices_S128x64_S64x64_0_0 : S128x64.Slices ![0, 0] S64x64
  bitsLt_bf16_f32 : FTy.bits .bf16 < FTy.bits .f32
  slices_S128x64_S64x64_64_0 : S128x64.Slices ![64, 0] S64x64
  shapeCasts_S64x1_S64 : S64x1.ShapeCasts S64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S512x64_S8x64x64 : S512x64.ShapeCasts S8x64x64
  shapeCasts_S8x64x64_S8x64x1x64 : S8x64x64.ShapeCasts S8x64x1x64
  shapeCasts_S8x64x64_S8x1x64x64 : S8x64x64.ShapeCasts S8x1x64x64
  broadcasts_S8x64x1x64_S8x64x64x64 : S8x64x1x64.Broadcasts S8x64x64x64
  broadcasts_S8x1x64x64_S8x64x64x64 : S8x1x64x64.Broadcasts S8x64x64x64
  inb_S64_S64_0 : ∀ a, (![0] : Fin 1 → Nat) a + S64.size a ≤ S64.size a
  h_S64 : 0 < S64.numel
  shapeCasts_S64_S1x1x1x64 : S64.ShapeCasts S1x1x1x64
  broadcasts_S1x1x1x64_S8x64x64x64 : S1x1x1x64.Broadcasts S8x64x64x64
  shapeCasts_S8x64x64x64_S32768x64 : S8x64x64x64.ShapeCasts S32768x64
  shapeCasts_S64_S1x64 : S64.ShapeCasts S1x64
  broadcasts_S1x64_S32768x64 : S1x64.Broadcasts S32768x64
  shapeCasts_S32768x64_S8x64x64x64 : S32768x64.ShapeCasts S8x64x64x64
  shapeCasts_S64_S64 : S64.ShapeCasts S64
  reduces_S8x64x64x64_S8x64x64 : S8x64x64x64.Reduces [3] S8x64x64
  inb_S1_S1_0 : ∀ a, (![0] : Fin 1 → Nat) a + S1.size a ≤ S1.size a
  h_S1 : 0 < S1.numel
  inpos_S1_p0 : ∀ a, (![0] : Fin 1 → Nat) a < S1.size a
  inb_S1x8x64x64_S1x8x64x64_0_0_0_0 : ∀ a, (![0, 0, 0, 0] : Fin 4 → Nat) a + S1x8x64x64.size a ≤ S1x8x64x64.size a
  h_S1x8x64x64 : 0 < S1x8x64x64.numel
  shapeCasts_S1x8x64x64_S8x64x64 : S1x8x64x64.ShapeCasts S8x64x64
  shapeCasts_S8x64x64_S1x8x64x64 : S8x64x64.ShapeCasts S1x8x64x64
  reduces_S1x8x64x64_S1 : S1x8x64x64.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  reducesTo_S8192x6_S8192_d1 : S8192x6.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x6_0_1 : S8192x1.BroadcastsInDim S8192x6 (![0, 1] : Fin 2 → Fin S8192x6.rank)
  shapeCasts_S128x64_S8192 : S128x64.ShapeCasts S8192
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  bcast_S_S1 : S_.BroadcastsInDim S1 (![] : Fin 0 → Fin S1.rank)
  concatenates_S1_S1_S2_d0 : Shape.Concatenates [S1, S1] S2 0
  dot_S512x64_S64x64_S512x64_1_0_0_1_n_n_wf : DotDims.WF S512x64 S64x64 S512x64 [1] [0] [0] [1] [] []
  dot_S32768x64_S64x64_S32768x64_1_0_0_1_n_n_wf : DotDims.WF S32768x64 S64x64 S32768x64 [1] [0] [0] [1] [] []
  gather_S8192x6_S8192x1x1_S8192x1_n_1_0_0_1_2_11_wf : GatherDims.WF S8192x6 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x512x64.size a
  hwx0_0 : ∀ i : grid0.Coords, EltTy.bits .f32 = 32 ∨ (Rect.block (s := S16x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64x64.size a ≤ S16x8x64x64.size a
  hwx0_1 : ∀ i : grid0.Coords, EltTy.bits .f32 = 32 ∨ (Rect.block (s := S16x8x64x64) S1x8x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x64.size a ≤ S16x8x64x64.size a
  hwx0_2 : ∀ i : grid0.Coords, EltTy.bits .f32 = 32 ∨ (Rect.block (s := S16x8x64x64) S1x8x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S16x1x1.size a
  hwx0_10 : ∀ i : grid0.Coords, EltTy.bits .f32 = 32 ∨ (Rect.block (s := S16x1x1) S1x1x1.size (cc0_transform_10 i) (hinb0_10 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def gather_S8192x6_S8192x1x1_S8192x1_n_1_0_0_1_2_11 : GatherDims S8192x6 S8192x1x1 S8192x1 where
  offsetDims := []
  collapsedSliceDims := [1]
  operandBatchingDims := [0]
  startIndicesBatchingDims := [0]
  startIndexMap := [1]
  indexVectorDim := 2
  sliceSizes := ![1, 1]
  wf := gather_S8192x6_S8192x1x1_S8192x1_n_1_0_0_1_2_11_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x1x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x64 : Shape := ⟨2, ![8192, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S524288x1 : Shape := ⟨2, ![524288, 1]⟩
abbrev S8192x6 : Shape := ⟨2, ![8192, 6]⟩
abbrev S8192x1 : Shape := ⟨2, ![8192, 1]⟩
abbrev S524288 : Shape := ⟨1, ![524288]⟩
abbrev S_ : Shape := ⟨0, ![]⟩
abbrev S524288x64 : Shape := ⟨2, ![524288, 64]⟩
abbrev S524288x128 : Shape := ⟨2, ![524288, 128]⟩
abbrev S1x64 : Shape := ⟨2, ![1, 64]⟩
abbrev S1x1 : Shape := ⟨2, ![1, 1]⟩
abbrev S8192 : Shape := ⟨1, ![8192]⟩
abbrev S8192x1x1 : Shape := ⟨3, ![8192, 1, 1]⟩
abbrev S1x1x1 : Shape := ⟨3, ![1, 1, 1]⟩
abbrev S2 : Shape := ⟨1, ![2]⟩

abbrev nBuf : Space → Nat
  | .hbm => 223
  | .vmem => 0
  | .smem => 0
  | _ => 0

abbrev hbmTy0_0 (i : Nat) : BufTy := match i % 128 with
  | 0 => ⟨S8192x64, .f32⟩
  | 1 => ⟨S128x64, .f32⟩
  | 2 => ⟨S64, .f32⟩
  | 3 => ⟨S64x64, .f32⟩
  | 4 => ⟨S64, .f32⟩
  | 5 => ⟨S64x1, .f32⟩
  | 6 => ⟨S1, .f32⟩
  | 7 => ⟨S524288x1, .f32⟩
  | 8 => ⟨S8192x6, .f32⟩
  | 9 => ⟨S524288x1, .f32⟩
  | 10 => ⟨S8192x1, .f32⟩
  | 11 => ⟨S128x64, .i32⟩
  | 12 => ⟨S524288, .i32⟩
  | 13 => ⟨S_, .i32⟩
  | 14 => ⟨S_, .i32⟩
  | 15 => ⟨S524288, .i32⟩
  | 16 => ⟨S524288, .i32⟩
  | 17 => ⟨S524288, .i32⟩
  | 18 => ⟨S_, .i32⟩
  | 19 => ⟨S524288, .i32⟩
  | 20 => ⟨S524288, .i1⟩
  | 21 => ⟨S524288, .i32⟩
  | 22 => ⟨S524288, .i32⟩
  | 23 => ⟨S_, .i32⟩
  | 24 => ⟨S524288, .i32⟩
  | 25 => ⟨S524288, .i1⟩
  | 26 => ⟨S524288, .i1⟩
  | 27 => ⟨S_, .i32⟩
  | 28 => ⟨S524288, .i32⟩
  | 29 => ⟨S524288, .i32⟩
  | 30 => ⟨S524288, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S524288, .i32⟩
  | 38 => ⟨S524288, .i32⟩
  | 39 => ⟨S_, .i32⟩
  | 40 => ⟨S524288, .i32⟩
  | 41 => ⟨S524288, .i1⟩
  | 42 => ⟨S_, .i32⟩
  | 43 => ⟨S524288, .i32⟩
  | 44 => ⟨S524288, .i1⟩
  | 45 => ⟨S_, .i32⟩
  | 46 => ⟨S_, .i1⟩
  | 47 => ⟨S524288, .i1⟩
  | 48 => ⟨S524288, .i1⟩
  | 49 => ⟨S524288, .i1⟩
  | 50 => ⟨S524288, .i32⟩
  | 51 => ⟨S524288, .i32⟩
  | 52 => ⟨S524288, .i32⟩
  | 53 => ⟨S_, .i32⟩
  | 54 => ⟨S524288, .i32⟩
  | 55 => ⟨S524288, .i32⟩
  | 56 => ⟨S_, .i32⟩
  | 57 => ⟨S_, .i32⟩
  | 58 => ⟨S524288, .i32⟩
  | 59 => ⟨S524288, .i32⟩
  | 60 => ⟨S524288, .i32⟩
  | 61 => ⟨S_, .i32⟩
  | 62 => ⟨S524288, .i32⟩
  | 63 => ⟨S524288, .i1⟩
  | 64 => ⟨S524288, .i32⟩
  | 65 => ⟨S524288, .i32⟩
  | 66 => ⟨S_, .i32⟩
  | 67 => ⟨S524288, .i32⟩
  | 68 => ⟨S524288, .i1⟩
  | 69 => ⟨S524288, .i1⟩
  | 70 => ⟨S_, .i32⟩
  | 71 => ⟨S524288, .i32⟩
  | 72 => ⟨S524288, .i32⟩
  | 73 => ⟨S524288, .i32⟩
  | 74 => ⟨S524288, .i32⟩
  | 75 => ⟨S_, .i32⟩
  | 76 => ⟨S524288, .i32⟩
  | 77 => ⟨S524288, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S524288, .i32⟩
  | 85 => ⟨S524288, .i32⟩
  | 86 => ⟨S_, .i32⟩
  | 87 => ⟨S524288, .i32⟩
  | 88 => ⟨S524288, .i1⟩
  | 89 => ⟨S_, .i32⟩
  | 90 => ⟨S524288, .i32⟩
  | 91 => ⟨S524288, .i1⟩
  | 92 => ⟨S_, .i32⟩
  | 93 => ⟨S_, .i1⟩
  | 94 => ⟨S524288, .i1⟩
  | 95 => ⟨S524288, .i1⟩
  | 96 => ⟨S524288, .i1⟩
  | 97 => ⟨S524288, .i32⟩
  | 98 => ⟨S524288, .i32⟩
  | 99 => ⟨S524288, .i32⟩
  | 100 => ⟨S524288, .i32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288x64, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288x64, .f32⟩
  | 119 => ⟨S524288x128, .f32⟩
  | 120 => ⟨S524288x64, .f32⟩
  | 121 => ⟨S1x64, .f32⟩
  | 122 => ⟨S524288x64, .f32⟩
  | 123 => ⟨S524288x64, .f32⟩
  | 124 => ⟨S524288x64, .f32⟩
  | 125 => ⟨S524288x64, .f32⟩
  | 126 => ⟨S_, .f32⟩
  | 127 => ⟨S524288x64, .f32⟩
  | _ => ⟨S8192x64, .f32⟩

abbrev hbmTy0_1 (i : Nat) : BufTy := match i % 128 with
  | 0 => ⟨S524288x64, .f32⟩
  | 1 => ⟨S_, .f32⟩
  | 2 => ⟨S524288x64, .f32⟩
  | 3 => ⟨S524288x64, .f32⟩
  | 4 => ⟨S524288x64, .f32⟩
  | 5 => ⟨S524288x64, .f32⟩
  | 6 => ⟨S1x64, .f32⟩
  | 7 => ⟨S524288x64, .f32⟩
  | 8 => ⟨S524288x64, .f32⟩
  | 9 => ⟨S524288x64, .f32⟩
  | 10 => ⟨S524288x64, .f32⟩
  | 11 => ⟨S_, .f32⟩
  | 12 => ⟨S524288x64, .f32⟩
  | 13 => ⟨S524288x64, .f32⟩
  | 14 => ⟨S_, .f32⟩
  | 15 => ⟨S524288x64, .f32⟩
  | 16 => ⟨S524288x64, .f32⟩
  | 17 => ⟨S524288x64, .f32⟩
  | 18 => ⟨S524288x1, .f32⟩
  | 19 => ⟨S1x1, .f32⟩
  | 20 => ⟨S524288x1, .f32⟩
  | 21 => ⟨S524288x1, .f32⟩
  | 22 => ⟨S_, .f32⟩
  | 23 => ⟨S524288x1, .f32⟩
  | 24 => ⟨S524288x1, .f32⟩
  | 25 => ⟨S524288x1, .f32⟩
  | 26 => ⟨S524288x1, .f32⟩
  | 27 => ⟨S524288x1, .i1⟩
  | 28 => ⟨S524288x1, .f32⟩
  | 29 => ⟨S524288x1, .f32⟩
  | 30 => ⟨S524288x1, .f32⟩
  | 31 => ⟨S524288x1, .f32⟩
  | 32 => ⟨S524288x1, .f32⟩
  | 33 => ⟨S524288x1, .f32⟩
  | 34 => ⟨S524288x1, .f32⟩
  | 35 => ⟨S524288x1, .f32⟩
  | 36 => ⟨S524288x1, .f32⟩
  | 37 => ⟨S524288x1, .f32⟩
  | 38 => ⟨S524288x1, .f32⟩
  | 39 => ⟨S524288x1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S8192, .f32⟩
  | 47 => ⟨S_, .f32⟩
  | 48 => ⟨S8192, .f32⟩
  | 49 => ⟨S8192, .f32⟩
  | 50 => ⟨S8192x1, .f32⟩
  | 51 => ⟨S8192x6, .f32⟩
  | 52 => ⟨S8192x6, .f32⟩
  | 53 => ⟨S8192x6, .f32⟩
  | 54 => ⟨S_, .f32⟩
  | 55 => ⟨S8192, .f32⟩
  | 56 => ⟨S8192x1, .f32⟩
  | 57 => ⟨S8192x1, .f32⟩
  | 58 => ⟨S8192x6, .f32⟩
  | 59 => ⟨S8192x6, .f32⟩
  | 60 => ⟨S8192, .i32⟩
  | 61 => ⟨S8192x1, .i32⟩
  | 62 => ⟨S_, .i32⟩
  | 63 => ⟨S8192x1, .i32⟩
  | 64 => ⟨S8192x1, .i1⟩
  | 65 => ⟨S_, .i32⟩
  | 66 => ⟨S8192x1, .i32⟩
  | 67 => ⟨S8192x1, .i32⟩
  | 68 => ⟨S8192x1, .i32⟩
  | 69 => ⟨S8192x1x1, .i32⟩
  | 70 => ⟨S1, .i32⟩
  | 71 => ⟨S_, .i32⟩
  | 72 => ⟨S8192x1x1, .i32⟩
  | 73 => ⟨S8192x1x1, .i1⟩
  | 74 => ⟨S1x1x1, .i32⟩
  | 75 => ⟨S8192x1x1, .i32⟩
  | 76 => ⟨S8192x1x1, .i1⟩
  | 77 => ⟨S8192x1x1, .i1⟩
  | 78 => ⟨S_, .i1⟩
  | 79 => ⟨S8192x1, .i1⟩
  | 80 => ⟨S8192x1, .f32⟩
  | 81 => ⟨S_, .f32⟩
  | 82 => ⟨S8192x1, .f32⟩
  | 83 => ⟨S8192x1, .f32⟩
  | 84 => ⟨S8192, .f32⟩
  | 85 => ⟨S8192, .f32⟩
  | 86 => ⟨S8192, .f32⟩
  | 87 => ⟨S8192, .f32⟩
  | 88 => ⟨S_, .f32⟩
  | 89 => ⟨S_, .f32⟩
  | 90 => ⟨S_, .f32⟩
  | 91 => ⟨S_, .f32⟩
  | 92 => ⟨S1, .f32⟩
  | 93 => ⟨S1, .f32⟩
  | 94 => ⟨S2, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v2 : Ref sig .tc := ⟨.hbm, 52, rfl⟩
abbrev main_c_1 : Ref sig .tc := ⟨.hbm, 53, rfl⟩
abbrev main_v3 : Ref sig .tc := ⟨.hbm, 54, rfl⟩
abbrev main_v4 : Ref sig .tc := ⟨.hbm, 55, rfl⟩
abbrev main_c_2 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v5 : Ref sig .tc := ⟨.hbm, 73, rfl⟩
abbrev main_v6 : Ref sig .tc := ⟨.hbm, 74, rfl⟩
abbrev main_c_3 : Ref sig .tc := ⟨.hbm, 75, rfl⟩
abbrev main_v7 : Ref sig .tc := ⟨.hbm, 76, rfl⟩
abbrev main_v8 : Ref sig .tc := ⟨.hbm, 77, rfl⟩
abbrev main_c_4 : Ref sig .tc := ⟨.hbm, 78, rfl⟩
abbrev main_call3_v0 : Ref sig .tc := ⟨.hbm, 79, rfl⟩
abbrev main_call3_c : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_v5 : Ref sig .tc := ⟨.hbm, 87, rfl⟩
abbrev main_call3_v6 : Ref sig .tc := ⟨.hbm, 88, rfl⟩
abbrev main_call3_c_2 : Ref sig .tc := ⟨.hbm, 89, rfl⟩
abbrev main_call3_v7 : Ref sig .tc := ⟨.hbm, 90, rfl⟩
abbrev main_call3_v8 : Ref sig .tc := ⟨.hbm, 91, rfl⟩
abbrev main_call3_c_3 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_v9 : Ref sig .tc := ⟨.hbm, 99, rfl⟩
abbrev main_v10 : Ref sig .tc := ⟨.hbm, 100, rfl⟩
abbrev main_c_5 : Ref sig .tc := ⟨.hbm, 101, rfl⟩
abbrev main_v11 : Ref sig .tc := ⟨.hbm, 102, rfl⟩
abbrev main_v12 : Ref sig .tc := ⟨.hbm, 103, rfl⟩
abbrev main_c_6 : Ref sig .tc := ⟨.hbm, 104, rfl⟩
abbrev main_v13 : Ref sig .tc := ⟨.hbm, 105, rfl⟩
abbrev main_v14 : Ref sig .tc := ⟨.hbm, 106, rfl⟩
abbrev main_v15 : Ref sig .tc := ⟨.hbm, 107, rfl⟩
abbrev main_v16 : Ref sig .tc := ⟨.hbm, 108, rfl⟩
abbrev main_v17 : Ref sig .tc := ⟨.hbm, 109, rfl⟩
abbrev main_c_7 : Ref sig .tc := ⟨.hbm, 110, rfl⟩
abbrev main_v18 : Ref sig .tc := ⟨.hbm, 111, rfl⟩
abbrev main_v19 : Ref sig .tc := ⟨.hbm, 112, rfl⟩
abbrev main_c_8 : Ref sig .tc := ⟨.hbm, 113, rfl⟩
abbrev main_v20 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_v27 : Ref sig .tc := ⟨.hbm, 121, rfl⟩
abbrev main_v28 : Ref sig .tc := ⟨.hbm, 122, rfl⟩
abbrev main_v29 : Ref sig .tc := ⟨.hbm, 123, rfl⟩
abbrev main_call4_v0 : Ref sig .tc := ⟨.hbm, 124, rfl⟩
abbrev main_call4_v1 : Ref sig .tc := ⟨.hbm, 125, rfl⟩
abbrev main_call4_cst : Ref sig .tc := ⟨.hbm, 126, rfl⟩
abbrev main_call4_v2 : Ref sig .tc := ⟨.hbm, 127, rfl⟩
abbrev main_call4_v3 : Ref sig .tc := ⟨.hbm, 128, rfl⟩
abbrev main_call4_cst_0 : Ref sig .tc := ⟨.hbm, 129, rfl⟩
abbrev main_call4_v4 : Ref sig .tc := ⟨.hbm, 130, rfl⟩
abbrev main_call4_v5 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_call6_cst : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_call6_v3 : Ref sig .tc := ⟨.hbm, 154, rfl⟩
abbrev main_call6_v4 : Ref sig .tc := ⟨.hbm, 155, rfl⟩
abbrev main_call6_v5 : Ref sig .tc := ⟨.hbm, 156, rfl⟩
abbrev main_call6_v6 : Ref sig .tc := ⟨.hbm, 157, rfl⟩
abbrev main_call6_v7 : Ref sig .tc := ⟨.hbm, 158, rfl⟩
abbrev main_call6_v8 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst : Ref sig .tc := ⟨.hbm, 168, rfl⟩
abbrev main_v45 : Ref sig .tc := ⟨.hbm, 169, rfl⟩
abbrev main_cst_9 : Ref sig .tc := ⟨.hbm, 170, rfl⟩
abbrev main_v46 : Ref sig .tc := ⟨.hbm, 171, rfl⟩
abbrev main_v47 : Ref sig .tc := ⟨.hbm, 172, rfl⟩
abbrev main_call7_cst : Ref sig .tc := ⟨.hbm, 173, rfl⟩
abbrev main_call7_v0 : Ref sig .tc := ⟨.hbm, 174, rfl⟩
abbrev main_call7_cst_0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_call7_v5 : Ref sig .tc := ⟨.hbm, 180, rfl⟩
abbrev main_call7_v6 : Ref sig .tc := ⟨.hbm, 181, rfl⟩
abbrev main_call7_cst_1 : Ref sig .tc := ⟨.hbm, 182, rfl⟩
abbrev main_call7_v7 : Ref sig .tc := ⟨.hbm, 183, rfl⟩
abbrev main_call7_v8 : Ref sig .tc := ⟨.hbm, 184, rfl⟩
abbrev main_call7_v9 : Ref sig .tc := ⟨.hbm, 185, rfl⟩
abbrev main_call7_v10 : Ref sig .tc := ⟨.hbm, 186, rfl⟩
abbrev main_v48 : Ref sig .tc := ⟨.hbm, 187, rfl⟩
abbrev main_v49 : Ref sig .tc := ⟨.hbm, 188, rfl⟩
abbrev main_v50 : Ref sig .tc := ⟨.hbm, 189, rfl⟩
abbrev main_call8_c : Ref sig .tc := ⟨.hbm, 190, rfl⟩
abbrev main_call8_v0 : Ref sig .tc := ⟨.hbm, 191, rfl⟩
abbrev main_call8_v1 : Ref sig .tc := ⟨.hbm, 192, rfl⟩
abbrev main_call8_c_0 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_call8_v5 : Ref sig .tc := ⟨.hbm, 197, rfl⟩
abbrev main_call8_c_1 : Ref sig .tc := ⟨.hbm, 198, rfl⟩
abbrev main_call8_c_2 : Ref sig .tc := ⟨.hbm, 199, rfl⟩
abbrev main_call8_v6 : Ref sig .tc := ⟨.hbm, 200, rfl⟩
abbrev main_call8_v7 : Ref sig .tc := ⟨.hbm, 201, rfl⟩
abbrev main_call8_v8 : Ref sig .tc := ⟨.hbm, 202, rfl⟩
abbrev main_call8_v9 : Ref sig .tc := ⟨.hbm, 203, rfl⟩
abbrev main_call8_v10 : Ref sig .tc := ⟨.hbm, 204, rfl⟩
abbrev main_call8_v11 : Ref sig .tc := ⟨.hbm, 205, rfl⟩
abbrev main_call8_c_3 : Ref sig .tc := ⟨.hbm, 206, rfl⟩
abbrev main_call8_v12 : Ref sig .tc := ⟨.hbm, 207, rfl⟩
abbrev main_call8_v13 : Ref sig .tc := ⟨.hbm, 208, rfl⟩
abbrev main_call8_cst : Ref sig .tc := ⟨.hbm, 209, rfl⟩
abbrev main_call8_v14 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_cst_10 : Ref sig .tc := ⟨.hbm, 216, rfl⟩
abbrev main_v56 : Ref sig .tc := ⟨.hbm, 217, rfl⟩
abbrev main_cst_11 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  reducesTo_S524288x1_S_d0_1 : S524288x1.ReducesTo [0, 1] S_
  h_S_ : 0 < S_.numel
  reducesTo_S8192x6_S8192_d1 : S8192x6.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x6_0_1 : S8192x1.BroadcastsInDim S8192x6 (![0, 1] : Fin 2 → Fin S8192x6.rank)
  shapeCasts_S128x64_S8192 : S128x64.ShapeCasts S8192
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  bcast_S_S1 : S_.BroadcastsInDim S1 (![] : Fin 0 → Fin S1.rank)
  concatenates_S1_S1_S2_d0 : Shape.Concatenates [S1, S1] S2 0
  gather_S8192x64_S524288x1_S524288x64_1_0_n_n_0_1_164_wf : GatherDims.WF S8192x64 S524288x1 S524288x64 [1] [0] [] [0] [] 1 ![1, 64]
  dot_S524288x128_S128x64_S524288x64_1_0_0_1_n_n_wf : DotDims.WF S524288x128 S128x64 S524288x64 [1] [0] [0] [1] [] []
  dot_S524288x64_S64x64_S524288x64_1_0_0_1_n_n_wf : DotDims.WF S524288x64 S64x64 S524288x64 [1] [0] [0] [1] [] []
  dot_S524288x64_S64x1_S524288x1_1_0_0_1_n_n_wf : DotDims.WF S524288x64 S64x1 S524288x1 [1] [0] [0] [1] [] []
  gather_S8192x6_S8192x1x1_S8192x1_n_1_0_0_1_2_11_wf : GatherDims.WF S8192x6 S8192x1x1 S8192x1 [] [1] [0] [1] [0] 2 ![1, 1]

variable [Facts₀]

def gather_S8192x64_S524288x1_S524288x64_1_0_n_n_0_1_164 : GatherDims S8192x64 S524288x1 S524288x64 where
  offsetDims := [1]
  collapsedSliceDims := [0]
  operandBatchingDims := []
  startIndicesBatchingDims := []
  startIndexMap := [0]
  indexVectorDim := 1
  sliceSizes := ![1, 64]
  wf := gather_S8192x64_S524288x1_S524288x64_1_0_n_n_0_1_164_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf
def gather_S8192x6_S8192x1x1_S8192x1_n_1_0_0_1_2_11 : GatherDims S8192x6 S8192x1x1 S8192x1 where
  offsetDims := []
  collapsedSliceDims := [1]
  operandBatchingDims := [0]
  startIndicesBatchingDims := [0]
  startIndexMap := [1]
  indexVectorDim := 2
  sliceSizes := ![1, 1]
  wf := gather_S8192x6_S8192x1x1_S8192x1_n_1_0_0_1_2_11_wf

class Facts : Prop extends Facts₀ where

variable [Facts]
-- ==== Proof.KBlocks.lean ====
/-
  What the fused region leaves in the array of partial sums.  The region runs sixteen grid points; point t reads rows
  512·t … 512·t + 511 of the node features (eight graphs of 64 nodes), the matching 8 × 64 × 64 targets and masks, and
  the whole weight arrays, and writes ONE number: entry (t, 0, 0) of the [16, 1, 1] array.  So after the region that
  array holds, at (t, 0, 0), what the body makes of the input blocks of point t.
-/
import proofs.«124486_j14688788152450_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KBlocks

open Cert.KernelIdeal Cert.KernelIdeal.Gen

variable {F : FTy → Type} [FloatOps F]
variable (m : (ℓ : Loc nD τ sig) → Buf (Elt F) ℓ) (ρ : Dev nD → PrngReg)

/-- The grid point that writes entry i of the partial sums: its first coordinate. -/
def pointOf (i : S16x1x1.Idx) : Fin cfg0.N := ⟨(i 0).val, by rw [show cfg0.N = 16 from N_0]; exact (i 0).isLt⟩

/-- The one index of a [1, 1, 1] block. -/
abbrev o3 : S1x1x1.Idx := ValueIdx.ix3 (0 : Fin 1) (0 : Fin 1) (0 : Fin 1)

theorem eq_o3 (j : S1x1x1.Idx) : j = o3 := by
  funext a
  apply Fin.ext
  have h := (j a).isLt
  match a with
  | ⟨0, _⟩ => have h0 : (j 0).val < 1 := h; show (j 0).val = 0; omega
  | ⟨1, _⟩ => have h0 : (j 1).val < 1 := h; show (j 1).val = 0; omega
  | ⟨2, _⟩ => have h0 : (j 2).val < 1 := h; show (j 2).val = 0; omega

/-- The partial sums after the region: entry i is the body's result on the input blocks of the point that writes i. -/
def partials (c : Dev nD) : Buf (Elt F) ((c : Thread nD τ).loc main_v9) := fun i =>
  out0_10 (iblk m c 0 (pointOf i)) (iblk m c 1 (pointOf i)) (iblk m c 2 (pointOf i)) (iblk m c 3 (pointOf i))
    (iblk m c 4 (pointOf i)) (iblk m c 5 (pointOf i)) (iblk m c 6 (pointOf i)) (iblk m c 7 (pointOf i))
    (iblk m c 8 (pointOf i)) (iblk m c 9 (pointOf i)) o3

/-- The output window's index map, decided over the grid: point t writes block (t, 0, 0). -/
theorem out_index : ∀ t : Fin cfg0.N, win0_10.index t (0 : Fin 3) = t.val ∧ win0_10.index t (1 : Fin 3) = 0
    ∧ win0_10.index t (2 : Fin 3) = 0 :=
  (by decide +kernel : ∀ t : Fin grid0.N, _)

/-- What point t writes back is block t of `partials`. -/
theorem flushed_eq (c : Dev nD) (t : Fin cfg0.N) :
    (dats m 0 c).flushed 10 t = ((cfg0.win 10).blk t).view.read (Elt F) (partials m c) := by
  show (cfg0.win 10).cut (grid0.coords t) ((dats m 0 c).after 10 t) = _
  rw [after0_10]
  obtain ⟨e0, e1, e2⟩ := out_index t
  funext j
  have hp : pointOf (((cfg0.win 10).blk t).view.emb j) = t := by
    apply Fin.ext
    show win0_10.index t (0 : Fin 3) * 1 + 1 * (j 0).val = t.val
    have hj : (j 0).val < 1 := (j 0).isLt
    omega
  show out0_10 _ _ _ _ _ _ _ _ _ _ j = partials m c (((cfg0.win 10).blk t).view.emb j)
  unfold partials
  rw [hp, eq_o3 j]

/-- Every entry lies in the block of the point that writes it. -/
theorem covered (c : Dev nD) (i : S16x1x1.Idx) :
    ∃ t : Fin cfg0.N, (cfg0.win 10).flush t = true ∧ i ∈ ((cfg0.win 10).blk t).view.set := by
  refine ⟨pointOf i, flush0_10 _, ?_⟩
  obtain ⟨e0, e1, e2⟩ := out_index (pointOf i)
  show i ∈ ((View.whole main_v9).slice (win0_10.rect (pointOf i))).set
  rw [View.set_slice_whole, Rect.mem_set_unit]
  intro a
  have h1 : (i 1).val < 1 := (i 1).isLt
  have h2 : (i 2).val < 1 := (i 2).isLt
  match a with
  | ⟨0, _⟩ => show win0_10.index (pointOf i) (0 : Fin 3) * 1 ≤ (i 0).val ∧ (i 0).val < win0_10.index (pointOf i) (0 : Fin 3) * 1 + 1
              rw [e0]; show (i 0).val * 1 ≤ (i 0).val ∧ (i 0).val < (i 0).val * 1 + 1; omega
  | ⟨1, _⟩ => show win0_10.index (pointOf i) (1 : Fin 3) * 1 ≤ (i 1).val ∧ (i 1).val < win0_10.index (pointOf i) (1 : Fin 3) * 1 + 1
              rw [e1]; omega
  | ⟨2, _⟩ => show win0_10.index (pointOf i) (2 : Fin 3) * 1 ≤ (i 2).val ∧ (i 2).val < win0_10.index (pointOf i) (2 : Fin 3) * 1 + 1
              rw [e2]; omega

/-- The array of partial sums after the region. -/
theorem final_partials (c : Dev nD) : (dats m 0 c).arrAt 10 cfg0.N = partials m c :=
  (dats m 0 c).arrAt_eq_of_cover 10 (partials m c) (fun t _ => flushed_eq m c t) (covered c)

end Cert.KernelIdeal.KBlocks

end
-- ==== Proof.KTail.lean ====
/-
  The kernel program's host operations after the fused region, as pure functions: the sixteen per-block partial sums
  are added up, divided by the number of edges 524288 and rooted (the edge loss); beside it the masked cross-entropy
  of `x_hat` (log-softmax, one entry picked per row by `categories`, negated, masked, summed, over 128).
-/
import proofs.«124486_j14688788152450_2_alg».proof.Proof.Gen.KernelIdeal.Frame
import Idealize.ShloMosaic.Lib.StableHlo.Run
import Idealize.ShloMosaic.Lib.Pipeline.Frame

noncomputable section

namespace Cert.KernelIdeal.KTail

open Cert.KernelIdeal Cert.KernelIdeal.Gen Idealize.ShloMosaic Idealize.ShloMosaic.TcCoe Idealize.SL.Sem Idealize.ShloMosaic.StableHlo

variable {F : FTy → Type} [FloatOps F]

/-- The root of the blocks' total over 524288. -/
def rootMean (p : FVec F S16x1x1 .f32) : FVec F S_ .f32 :=
  Host.sqrt (Host.divf (Host.reduceAdd p (constant S_ .f32 0x00000000#32) reducesTo_S16x1x1_S_d0_1_2 h_S_)
    (constant S_ .f32 0x49000000#32))

/-- Row-wise log-softmax of the 8192 × 6 scores. -/
def logSoftmax (x : FVec F S8192x6 .f32) : FVec F S8192x6 .f32 :=
  subf (subf x (broadcastInDim S8192x6 ![0, 1] bcast_S8192x1_S8192x6_0_1 (broadcastInDim S8192x1 ![0] bcast_S8192_S8192x1_0
      (maximumf (broadcastInDim S8192 ![] bcast_S_S8192 (constant S_ .f32 0xFF800000#32))
        (Host.reduce FloatOps.maximumf x (constant S_ .f32 0xFF800000#32) reducesTo_S8192x6_S8192_d1 h_S_)))))
    (broadcastInDim S8192x6 ![0, 1] bcast_S8192x1_S8192x6_0_1 (Host.log (broadcastInDim S8192x1 ![0] bcast_S8192_S8192x1_0
      (Host.reduceAdd (Host.exp (subf x (broadcastInDim S8192x6 ![0, 1] bcast_S8192x1_S8192x6_0_1 (broadcastInDim S8192x1 ![0] bcast_S8192_S8192x1_0
          (maximumf (broadcastInDim S8192 ![] bcast_S_S8192 (constant S_ .f32 0xFF800000#32))
            (Host.reduce FloatOps.maximumf x (constant S_ .f32 0xFF800000#32) reducesTo_S8192x6_S8192_d1 h_S_))))))
        (constant S_ .f32 0x00000000#32) reducesTo_S8192x6_S8192_d1 h_S_))))

/-- A column of class numbers read numpy's way (negative: from the end), as the index array of the gather. -/
def classIx (ix : IVec S8192x1 32) : IVec S8192x1x1 32 :=
  shapeCast S8192x1x1 (select (cmpi .slt ix (broadcastInDim S8192x1 ![] bcast_S_S8192x1 (constantI S_ 32 0#32)))
    (addi ix (broadcastInDim S8192x1 ![] bcast_S_S8192x1 (constantI S_ 32 6#32))) ix) shapeCasts_S8192x1_S8192x1x1

/-- One entry per row at the row's class number; the fill word where the number is out of range. -/
def takeAlong (lp : FVec F S8192x6 .f32) (ix : IVec S8192x1 32) : FVec F S8192x1 .f32 :=
  select (Host.reduce IntOp.andi
      (andi (cmpi .sge (classIx ix) (broadcastInDim S8192x1x1 ![] bcast_S_S8192x1x1 (constantI S_ 32 0#32)))
            (cmpi .sle (classIx ix) (broadcastInDim S8192x1x1 ![0, 1, 2] bcast_S1x1x1_S8192x1x1_0_1_2
              (broadcastInDim S1x1x1 ![2] bcast_S1_S1x1x1_2 (constantI S1 32 5#32)))))
      (constantI S_ 1 1#1) reducesTo_S8192x1x1_S8192x1_d2 h_S_)
    (Host.gather gather_S8192x6_S8192x1x1_S8192x1_n_1_0_0_1_2_11 lp (classIx ix))
    (broadcastInDim S8192x1 ![] bcast_S_S8192x1 (constant S_ .f32 0x7FC00000#32))

/-- The masked cross-entropy: minus the picked log-probabilities, times the node mask, summed, over 128. -/
def recLoss (xhat : FVec F S8192x6 .f32) (nodeMask : FVec F S8192x1 .f32) (cats : IVec S128x64 32) : FVec F S_ .f32 :=
  Host.divf (Host.reduceAdd
      (mulf (Host.negf (shapeCast S8192 (takeAlong (logSoftmax xhat)
          (broadcastInDim S8192x1 ![0] bcast_S8192_S8192x1_0 (shapeCast S8192 cats shapeCasts_S128x64_S8192))) shapeCasts_S8192x1_S8192))
        (shapeCast S8192 nodeMask shapeCasts_S8192x1_S8192))
      (constant S_ .f32 0x00000000#32) reducesTo_S8192_S_d0 h_S_)
    (constant S_ .f32 0x43000000#32)

/-- The two losses side by side. -/
def twoLosses (a b : FVec F S_ .f32) : FVec F S2 .f32 :=
  concatenate S2 0 [⟨S1, broadcastInDim S1 ![] bcast_S_S1 a⟩, ⟨S1, broadcastInDim S1 ![] bcast_S_S1 b⟩] concatenates_S1_S1_S2_d0

/-- The program's result from the blocks' partial sums and the three arrays of the second loss. -/
def kernelOut (p : FVec F S16x1x1 .f32) (xhat : FVec F S8192x6 .f32) (nodeMask : FVec F S8192x1 .f32) (cats : IVec S128x64 32) :
    FVec F S2 .f32 :=
  twoLosses (rootMean p) (recLoss xhat nodeMask cats)

/-! ## Stretch by stretch: what each buffer read later holds after each run of host operations -/

section Stretches

attribute [local irreducible] Host.reduce Host.reduceAdd Host.gather concatenate shapeCast

/-- After the first stretch the edge loss is the root of the mean of the partial sums. -/
theorem s1_v12 (V : Valuation τ sig (Elt F)) :
    StableHlo.after hostOps1 V (Proc.devRef .tc main_v12) = rootMean (V (Proc.devRef .tc main_v9)) := by
  simp only [hostOps1]
  after_results
  rfl
theorem s1_arg8 (V : Valuation τ sig (Elt F)) :
    StableHlo.after hostOps1 V (Proc.devRef .tc main_arg8) = V (Proc.devRef .tc main_arg8) := by
  simp only [hostOps1]
  after_results
theorem s1_arg10 (V : Valuation τ sig (Elt F)) :
    StableHlo.after hostOps1 V (Proc.devRef .tc main_arg10) = V (Proc.devRef .tc main_arg10) := by
  simp only [hostOps1]
  after_results
theorem s1_arg11 (V : Valuation τ sig (Elt F)) :
    StableHlo.after hostOps1 V (Proc.devRef .tc main_arg11) = V (Proc.devRef .tc main_arg11) := by
  simp only [hostOps1]
  after_results

set_option maxHeartbeats 4000000 in
/-- After the second stretch: the log-softmax of the scores. -/
theorem s2_v13 (V : Valuation τ sig (Elt F)) :
    StableHlo.after hostOps1_1 V (Proc.devRef .tc main_v13) = logSoftmax (V (Proc.devRef .tc main_arg8)) := by
  simp only [hostOps1_1]
  dsimp only [TRef.nullary, TRef.unary, TRef.binary, TRef.ternary, TRef.reshape]
  after_results
  rfl
theorem s2_v12 (V : Valuation τ sig (Elt F)) :
    StableHlo.after hostOps1_1 V (Proc.devRef .tc main_v12) = V (Proc.devRef .tc main_v12) := by
  simp only [hostOps1_1]
  dsimp only [TRef.nullary, TRef.unary, TRef.binary, TRef.ternary, TRef.reshape]
  after_results
theorem s2_arg10 (V : Valuation τ sig (Elt F)) :
    StableHlo.after hostOps1_1 V (Proc.devRef .tc main_arg10) = V (Proc.devRef .tc main_arg10) := by
  simp only [hostOps1_1]
  dsimp only [TRef.nullary, TRef.unary, TRef.binary, TRef.ternary, TRef.reshape]
  after_results
theorem s2_arg11 (V : Valuation τ sig (Elt F)) :
    StableHlo.after hostOps1_1 V (Proc.devRef .tc main_arg11) = V (Proc.devRef .tc main_arg11) := by
  simp only [hostOps1_1]
  dsimp only [TRef.nullary, TRef.unary, TRef.binary, TRef.ternary, TRef.reshape]
  after_results

/-- After the third stretch: the class numbers as a column. -/
theorem s3_v15 (V : Valuation τ sig (Elt F)) :
    StableHlo.after hostOps1_2 V (Proc.devRef .tc main_v15)
      = broadcastInDim S8192x1 ![0] bcast_S8192_S8192x1_0 (shapeCast S8192 (V (Proc.devRef .tc main_arg11)) shapeCasts_S128x64_S8192) := by
  simp only [hostOps1_2]
  after_results
  rfl
theorem s3_v13 (V : Valuation τ sig (Elt F)) :
    StableHlo.after hostOps1_2 V (Proc.devRef .tc main_v13) = V (Proc.devRef .tc main_v13) := by
  simp only [hostOps1_2]
  after_results
theorem s3_v12 (V : Valuation τ sig (Elt F)) :
    StableHlo.after hostOps1_2 V (Proc.devRef .tc main_v12) = V (Proc.devRef .tc main_v12) := by
  simp only [hostOps1_2]
  after_results
theorem s3_arg10 (V : Valuation τ sig (Elt F)) :
    StableHlo.after hostOps1_2 V (Proc.devRef .tc main_arg10) = V (Proc.devRef .tc main_arg10) := by
  simp only [hostOps1_2]
  after_results

set_option maxHeartbeats 4000000 in
/-- After the fourth stretch: one log-probability per row. -/
theorem s4_v16 (V : Valuation τ sig (Elt F)) :
    StableHlo.after hostOps1_3 V (Proc.devRef .tc main_v16)
      = takeAlong (V (Proc.devRef .tc main_v13)) (V (Proc.devRef .tc main_v15)) := by
  simp only [hostOps1_3]
  dsimp only [TRef.nullary, TRef.unary, TRef.binary, TRef.ternary, TRef.reshape]
  after_results
  rfl
theorem s4_v12 (V : Valuation τ sig (Elt F)) :
    StableHlo.after hostOps1_3 V (Proc.devRef .tc main_v12) = V (Proc.devRef .tc main_v12) := by
  simp only [hostOps1_3]
  dsimp only [TRef.nullary, TRef.unary, TRef.binary, TRef.ternary, TRef.reshape]
  after_results
theorem s4_arg10 (V : Valuation τ sig (Elt F)) :
    StableHlo.after hostOps1_3 V (Proc.devRef .tc main_arg10) = V (Proc.devRef .tc main_arg10) := by
  simp only [hostOps1_3]
  dsimp only [TRef.nullary, TRef.unary, TRef.binary, TRef.ternary, TRef.reshape]
  after_results

/-- After the last stretch: the two losses side by side. -/
theorem s5_v25 (V : Valuation τ sig (Elt F)) :
    StableHlo.after hostOps1_4 V (Proc.devRef .tc main_v25)
      = twoLosses (V (Proc.devRef .tc main_v12))
          (Host.divf (Host.reduceAdd
              (mulf (Host.negf (shapeCast S8192 (V (Proc.devRef .tc main_v16)) shapeCasts_S8192x1_S8192))
                (shapeCast S8192 (V (Proc.devRef .tc main_arg10)) shapeCasts_S8192x1_S8192))
              (constant S_ .f32 0x00000000#32) reducesTo_S8192_S_d0 h_S_)
            (constant S_ .f32 0x43000000#32)) := by
  simp only [hostOps1_4]
  after_results
  rfl

end Stretches

/-- The operations after the region, run from any contents W, leave the result buffer at `kernelOut` of W's partial
    sums and of the three argument arrays the second loss reads. -/
theorem tail_eq (W : Valuation τ sig (Elt F)) :
    StableHlo.after (List.flatten [hostOps1, hostOps1_1, hostOps1_2, hostOps1_3, hostOps1_4]) W (Proc.devRef .tc main_v25)
      = kernelOut (W (Proc.devRef .tc main_v9)) (W (Proc.devRef .tc main_arg8)) (W (Proc.devRef .tc main_arg10)) (W (Proc.devRef .tc main_arg11)) := by
  rw [List.flatten_cons, List.flatten_cons, List.flatten_cons, List.flatten_cons, List.flatten_cons, List.flatten_nil, List.append_nil,
    StableHlo.after_append, StableHlo.after_append, StableHlo.after_append, StableHlo.after_append]
  rw [s5_v25, s4_v12, s4_v16, s4_arg10, s3_v12, s3_v13, s3_v15, s3_arg10, s2_v12, s2_v13, s2_arg10, s2_arg11, s1_v12, s1_arg8, s1_arg10, s1_arg11]
  rfl

end Cert.KernelIdeal.KTail

end
-- ==== Proof.KRun.lean ====
/-
  The kernel program's run with its result named.  The fused region leaves the sixteen partial sums in their array; the
  host operations after it read that array and three of the argument arrays, which no operation writes.  So every
  execution ends with the result buffer at `kernelOut` of the partial sums and those arguments, all arguments unchanged.
-/
import proofs.«124486_j14688788152450_2_alg».proof.Proof.Gen.KernelIdeal.Frame
import proofs.«124486_j14688788152450_2_alg».proof.Proof.KBlocks
import proofs.«124486_j14688788152450_2_alg».proof.Proof.KTail
import Idealize.ShloMosaic.Lib.Pipeline.Value

noncomputable section

open Idealize.ShloMosaic Idealize.ShloMosaic.TcCoe Idealize.SL.Sem
open Idealize.ShloMosaic.Pipeline (Dat)

namespace Cert.KernelIdeal.KRun

open Cert.KernelIdeal Cert.KernelIdeal.Gen

variable {F : FTy → Type} [FloatOps F]
variable (m : (ℓ : Loc nD τ sig) → Buf (Elt F) ℓ) (ρ : Dev nD → PrngReg)

/-- What the operations after the region leave in the result buffer. -/
theorem tail_value (c : Dev nD) :
    Pipeline.afterTail₀ cfgs (dats m) 0 (V0 m) [hostOps1, hostOps1_1, hostOps1_2, hostOps1_3, hostOps1_4] c main_v25
      = KTail.kernelOut (KBlocks.partials m c) (m ((c : Thread nD τ).loc main_arg8)) (m ((c : Thread nD τ).loc main_arg10))
          (m ((c : Thread nD τ).loc main_arg11)) := by
  unfold Pipeline.afterTail₀
  rw [KTail.tail_eq]
  have e9 : Pipeline.withArrays (cfgs 0).spec c (V0 m c) (fun w => (dats m 0 c).arrAt w (cfgs 0).N) (Proc.devRef .tc main_v9)
      = KBlocks.partials m c :=
    (Pipeline.withArrays_arr spec0 launch0.win.arr_inj c _ _ 10).trans (KBlocks.final_partials m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans
      (V_main_arg8 m c)
  have e10 : Pipeline.withArrays (cfgs 0).spec c (V0 m c) (fun w => (dats m 0 c).arrAt w (cfgs 0).N) (Proc.devRef .tc main_arg10)
      = m ((c : Thread nD τ).loc main_arg10) :=
    (Pipeline.withArrays_of_ne _ c (V0 m c) _ main_arg10 (by exact (by decide : ∀ w, Pipeline.arrRef spec0 w ≠ main_arg10))).trans
      (V_main_arg10 m c)
  have e11 : Pipeline.withArrays (cfgs 0).spec c (V0 m c) (fun w => (dats m 0 c).arrAt w (cfgs 0).N) (Proc.devRef .tc main_arg11)
      = m ((c : Thread nD τ).loc main_arg11) :=
    (Pipeline.withArrays_of_ne _ c (V0 m c) _ main_arg11 (by exact (by decide : ∀ w, Pipeline.arrRef spec0 w ≠ main_arg11))).trans
      (V_main_arg11 m c)
  rw [e9, e8, e10, e11]

/-- Every weakly fair execution ends with the result at `kernelOut` of the partial sums, the arguments unchanged. -/
theorem run : θ_run defs (onTc (τ := τ) (main (F := F))) ⟨m, fun _ => 0, ρ⟩ (fun r => ∀ c : Dev nD,
      r.2.mem ((c.tc : Thread nD τ).loc main_v25)
        = KTail.kernelOut (KBlocks.partials m c) (m ((c : Thread nD τ).loc main_arg8)) (m ((c : Thread nD τ).loc main_arg10))
            (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v25 (Pipeline.mem_restRefs_of main_v25 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 5).trans ((((dats m 0 c).arrAt_in 5 rfl _).trans ((A_eq m c 5).trans (V_main_arg2 m c)))),
      (((h c).2 main_arg3 (Pipeline.mem_restRefs_of main_arg3 (by decide) (by decide))).trans (W_main_arg3 m (dats m) c)),
      ((h c).1 7).trans ((((dats m 0 c).arrAt_in 7 rfl _).trans ((A_eq m c 7).trans (V_main_arg4 m c)))),
      (((h c).2 main_arg5 (Pipeline.mem_restRefs_of main_arg5 (by decide) (by decide))).trans (W_main_arg5 m (dats m) c)),
      ((h c).1 9).trans ((((dats m 0 c).arrAt_in 9 rfl _).trans ((A_eq m c 9).trans (V_main_arg6 m c)))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.KRun

end
-- ==== Proof.KInputs.lean ====
/-
  The fused region's input blocks in terms of the program's argument arrays, at the ideal instance.  Before the region
  the node features [8192, 64] are viewed as [16, 512, 64], the targets and masks [524288, 1] as [16, 8, 64, 64], the
  first-layer matrix [128, 64] is cut into its top and bottom 64 rows, and the last-layer matrix [64, 1] is viewed as a
  vector; grid point t takes slab t of the first three and the whole of every other array.  A change of float format
  is the identity on the extended reals.
-/
import proofs.«124486_j14688788152450_2_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KInputs

open Cert.KernelIdeal Cert.KernelIdeal.Gen Idealize.ShloMosaic.StableHlo

variable (m : (ℓ : Loc nD τ sig) → Buf (Elt Ideal) ℓ)

/-! ## The arrays the region finds -/

theorem V_v0 (c : Dev nD) : (V m c main_v0 : S16x512x64.Idx → EReal)
    = shapeCast S16x512x64 (m ((c : Thread nD τ).loc main_arg0)) shapeCasts_S8192x64_S16x512x64 := by
  show StableHlo.after hostOps0 (fun b => m (c, b)) (Proc.devRef .tc main_v0) = _
  after_results
  try rfl

theorem V_v1 (c : Dev nD) : (V m c main_v1 : S16x8x64x64.Idx → EReal)
    = shapeCast S16x8x64x64 (m ((c : Thread nD τ).loc main_arg7)) shapeCasts_S524288x1_S16x8x64x64 := by
  show StableHlo.after hostOps0 (fun b => m (c, b)) (Proc.devRef .tc main_v1) = _
  after_results
  try rfl

theorem V_v2 (c : Dev nD) : (V m c main_v2 : S16x8x64x64.Idx → EReal)
    = shapeCast S16x8x64x64 (m ((c : Thread nD τ).loc main_arg9)) shapeCasts_S524288x1_S16x8x64x64 := by
  show StableHlo.after hostOps0 (fun b => m (c, b)) (Proc.devRef .tc main_v2) = _
  after_results
  try rfl

theorem V_v4 (c : Dev nD) : (V m c main_v4 : S64x64.Idx → EReal)
    = truncf (F := Ideal) .bf16 (extractStridedSlice S64x64 ![0, 0] (m ((c : Thread nD τ).loc main_arg1)) slices_S128x64_S64x64_0_0) bitsLt_bf16_f32 := by
  show StableHlo.after hostOps0 (fun b => m (c, b)) (Proc.devRef .tc main_v4) = _
  after_results
  try rfl

theorem V_v6 (c : Dev nD) : (V m c main_v6 : S64x64.Idx → EReal)
    = truncf (F := Ideal) .bf16 (extractStridedSlice S64x64 ![64, 0] (m ((c : Thread nD τ).loc main_arg1)) slices_S128x64_S64x64_64_0) bitsLt_bf16_f32 := by
  show StableHlo.after hostOps0 (fun b => m (c, b)) (Proc.devRef .tc main_v6) = _
  after_results
  try rfl

theorem V_v7 (c : Dev nD) : (V m c main_v7 : S64x64.Idx → EReal)
    = truncf (F := Ideal) .bf16 (m ((c : Thread nD τ).loc main_arg3)) bitsLt_bf16_f32 := by
  show StableHlo.after hostOps0 (fun b => m (c, b)) (Proc.devRef .tc main_v7) = _
  after_results
  try rfl

theorem V_v8 (c : Dev nD) : (V m c main_v8 : S64.Idx → EReal)
    = shapeCast S64 (m ((c : Thread nD τ).loc main_arg5)) shapeCasts_S64x1_S64 := by
  show StableHlo.after hostOps0 (fun b => m (c, b)) (Proc.devRef .tc main_v8) = _
  after_results
  try rfl

/-! ## The windows' index maps, decided over the grid -/

theorem in_index : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ win0_8.index t (0 : Fin 1) = 0
    ∧ win0_9.index t (0 : Fin 1) = 0 :=
  (by decide +kernel : ∀ t : Fin grid0.N, _)

/-! ## Each block at an index -/

/-- Row r of point t's slab of node features is row 512·t + r of `h`. -/
theorem feat_apply (c : Dev nD) (t : Fin cfg0.N) (r : Fin 512) (k : Fin 64) (q : Fin 8192) (hq : q.val = 512 * t.val + r.val) :
    (iblk m c 0 t : S1x512x64.Idx → EReal) (ix3 (0 : Fin 1) r k)
      = (m ((c : Thread nD τ).loc main_arg0) : S8192x64.Idx → EReal) (ix2 q k) := by
  obtain ⟨⟨e0, e1, e2⟩, -⟩ := in_index t
  unfold iblk
  rw [View.read_apply]
  show V m c main_v0 _ = _
  rw [V_v0]
  refine shapeCast_apply _ _ _ _ ?_
  show (S8192x64.rowMajor (ix2 q k)).val = (S16x512x64.rowMajor (((cfg0.win 0).blk t).view.emb (ix3 (0 : Fin 1) r k))).val
  rw [Shape.rowMajor_val_two, Shape.rowMajor_val_three]
  show q.val * 64 + k.val = ((win0_0.index t (0 : Fin 3) * 1 + 1 * 0) * 512 + (win0_0.index t (1 : Fin 3) * 512 + 1 * r.val)) * 64
      + (win0_0.index t (2 : Fin 3) * 64 + 1 * k.val)
  rw [e0, e1, e2, hq]
  omega

/-- Entry (g, i, j) of point t's slab of targets is entry ((8t + g)·64 + i)·64 + j of `target_edge`. -/
theorem tgt_apply (c : Dev nD) (t : Fin cfg0.N) (g : Fin 8) (i j : Fin 64) (n : Fin 524288)
    (hn : n.val = ((8 * t.val + g.val) * 64 + i.val) * 64 + j.val) :
    (iblk m c 1 t : S1x8x64x64.Idx → EReal) (ix4 (0 : Fin 1) g i j)
      = (m ((c : Thread nD τ).loc main_arg7) : S524288x1.Idx → EReal) (ix2 n (0 : Fin 1)) := by
  obtain ⟨-, ⟨e0, e1, e2, e3⟩, -⟩ := in_index t
  unfold iblk
  rw [View.read_apply]
  show V m c main_v1 _ = _
  rw [V_v1]
  refine shapeCast_apply _ _ _ _ ?_
  show (S524288x1.rowMajor (ix2 n (0 : Fin 1))).val = (S16x8x64x64.rowMajor (((cfg0.win 1).blk t).view.emb (ix4 (0 : Fin 1) g i j))).val
  rw [Shape.rowMajor_val_two, Shape.rowMajor_val_four]
  show n.val * 1 + 0 = (((win0_1.index t (0 : Fin 4) * 1 + 1 * 0) * 8 + (win0_1.index t (1 : Fin 4) * 8 + 1 * g.val)) * 64
      + (win0_1.index t (2 : Fin 4) * 64 + 1 * i.val)) * 64 + (win0_1.index t (3 : Fin 4) * 64 + 1 * j.val)
  rw [e0, e1, e2, e3, hn]
  omega

/-- The same for the masks. -/
theorem mask_apply (c : Dev nD) (t : Fin cfg0.N) (g : Fin 8) (i j : Fin 64) (n : Fin 524288)
    (hn : n.val = ((8 * t.val + g.val) * 64 + i.val) * 64 + j.val) :
    (iblk m c 2 t : S1x8x64x64.Idx → EReal) (ix4 (0 : Fin 1) g i j)
      = (m ((c : Thread nD τ).loc main_arg9) : S524288x1.Idx → EReal) (ix2 n (0 : Fin 1)) := by
  obtain ⟨-, -, ⟨e0, e1, e2, e3⟩, -⟩ := in_index t
  unfold iblk
  rw [View.read_apply]
  show V m c main_v2 _ = _
  rw [V_v2]
  refine shapeCast_apply _ _ _ _ ?_
  show (S524288x1.rowMajor (ix2 n (0 : Fin 1))).val = (S16x8x64x64.rowMajor (((cfg0.win 2).blk t).view.emb (ix4 (0 : Fin 1) g i j))).val
  rw [Shape.rowMajor_val_two, Shape.rowMajor_val_four]
  show n.val * 1 + 0 = (((win0_2.index t (0 : Fin 4) * 1 + 1 * 0) * 8 + (win0_2.index t (1 : Fin 4) * 8 + 1 * g.val)) * 64
      + (win0_2.index t (2 : Fin 4) * 64 + 1 * i.val)) * 64 + (win0_2.index t (3 : Fin 4) * 64 + 1 * j.val)
  rw [e0, e1, e2, e3, hn]
  omega

/-- The top half of the first-layer matrix. -/
theorem wtop_apply (c : Dev nD) (t : Fin cfg0.N) (k c' : Fin 64) (q : Fin 128) (hq : q.val = k.val) :
    (iblk m c 3 t : S64x64.Idx → EReal) (ix2 k c')
      = (m ((c : Thread nD τ).loc main_arg1) : S128x64.Idx → EReal) (ix2 q c') := by
  obtain ⟨-, -, -, ⟨e0, e1⟩, -⟩ := in_index t
  unfold iblk
  rw [View.read_apply]
  show V m c main_v4 _ = _
  rw [V_v4, truncf_apply]
  refine extractStridedSlice_apply _ _ _ _ _ fun a => ?_
  match a with
  | ⟨0, _⟩ => show q.val = 0 + (win0_3.index t (0 : Fin 2) * 64 + 1 * k.val); rw [e0, hq]; omega
  | ⟨1, _⟩ => show c'.val = 0 + (win0_3.index t (1 : Fin 2) * 64 + 1 * c'.val); rw [e1]; omega

/-- The bottom half of the first-layer matrix. -/
theorem wbot_apply (c : Dev nD) (t : Fin cfg0.N) (k c' : Fin 64) (q : Fin 128) (hq : q.val = 64 + k.val) :
    (iblk m c 4 t : S64x64.Idx → EReal) (ix2 k c')
      = (m ((c : Thread nD τ).loc main_arg1) : S128x64.Idx → EReal) (ix2 q c') := by
  obtain ⟨-, -, -, -, ⟨e0, e1⟩, -⟩ := in_index t
  unfold iblk
  rw [View.read_apply]
  show V m c main_v6 _ = _
  rw [V_v6, truncf_apply]
  refine extractStridedSlice_apply _ _ _ _ _ fun a => ?_
  match a with
  | ⟨0, _⟩ => show q.val = 64 + (win0_4.index t (0 : Fin 2) * 64 + 1 * k.val); rw [e0, hq]; omega
  | ⟨1, _⟩ => show c'.val = 0 + (win0_4.index t (1 : Fin 2) * 64 + 1 * c'.val); rw [e1]; omega

/-- The first bias. -/
theorem b1_apply (c : Dev nD) (t : Fin cfg0.N) (k : Fin 64) :
    (iblk m c 5 t : S64.Idx → EReal) (ix1 k) = (m ((c : Thread nD τ).loc main_arg2) : S64.Idx → EReal) (ix1 k) := by
  obtain ⟨-, -, -, -, -, e0, -⟩ := in_index t
  unfold iblk
  rw [View.read_apply]
  show V m c main_arg2 _ = _
  rw [V_main_arg2]
  congr 1
  funext a
  apply Fin.ext
  match a with
  | ⟨0, _⟩ => show win0_5.index t (0 : Fin 1) * 64 + 1 * k.val = k.val; rw [e0]; omega

/-- The second-layer matrix. -/
theorem w2_apply (c : Dev nD) (t : Fin cfg0.N) (k c' : Fin 64) :
    (iblk m c 6 t : S64x64.Idx → EReal) (ix2 k c')
      = (m ((c : Thread nD τ).loc main_arg3) : S64x64.Idx → EReal) (ix2 k c') := by
  obtain ⟨-, -, -, -, -, -, ⟨e0, e1⟩, -⟩ := in_index t
  unfold iblk
  rw [View.read_apply]
  show V m c main_v7 _ = _
  rw [V_v7, truncf_apply]
  congr 1
  funext a
  apply Fin.ext
  match a with
  | ⟨0, _⟩ => show win0_6.index t (0 : Fin 2) * 64 + 1 * k.val = k.val; rw [e0]; omega
  | ⟨1, _⟩ => show win0_6.index t (1 : Fin 2) * 64 + 1 * c'.val = c'.val; rw [e1]; omega

/-- The second bias. -/
theorem b2_apply (c : Dev nD) (t : Fin cfg0.N) (k : Fin 64) :
    (iblk m c 7 t : S64.Idx → EReal) (ix1 k) = (m ((c : Thread nD τ).loc main_arg4) : S64.Idx → EReal) (ix1 k) := by
  obtain ⟨-, -, -, -, -, -, -, e0, -⟩ := in_index t
  unfold iblk
  rw [View.read_apply]
  show V m c main_arg4 _ = _
  rw [V_main_arg4]
  congr 1
  funext a
  apply Fin.ext
  match a with
  | ⟨0, _⟩ => show win0_7.index t (0 : Fin 1) * 64 + 1 * k.val = k.val; rw [e0]; omega

/-- The last layer's weights, a column read as a vector. -/
theorem w3_apply (c : Dev nD) (t : Fin cfg0.N) (k : Fin 64) :
    (iblk m c 8 t : S64.Idx → EReal) (ix1 k) = (m ((c : Thread nD τ).loc main_arg5) : S64x1.Idx → EReal) (ix2 k (0 : Fin 1)) := by
  obtain ⟨-, -, -, -, -, -, -, -, e0, -⟩ := in_index t
  unfold iblk
  rw [View.read_apply]
  show V m c main_v8 _ = _
  rw [V_v8]
  refine shapeCast_apply _ _ _ _ ?_
  show (S64x1.rowMajor (ix2 k (0 : Fin 1))).val = (S64.rowMajor (((cfg0.win 8).blk t).view.emb (ix1 k))).val
  rw [Shape.rowMajor_val_two, Shape.rowMajor_val_one]
  show k.val * 1 + 0 = win0_8.index t (0 : Fin 1) * 64 + 1 * k.val
  rw [e0]
  omega

/-- The last bias. -/
theorem b3_apply (c : Dev nD) (t : Fin cfg0.N) :
    (iblk m c 9 t : S1.Idx → EReal) (ix1 (0 : Fin 1)) = (m ((c : Thread nD τ).loc main_arg6) : S1.Idx → EReal) (ix1 (0 : Fin 1)) := by
  obtain ⟨-, -, -, -, -, -, -, -, -, e0⟩ := in_index t
  unfold iblk
  rw [View.read_apply]
  show V m c main_arg6 _ = _
  rw [V_main_arg6]
  congr 1
  funext a
  apply Fin.ext
  match a with
  | ⟨0, _⟩ => show win0_9.index t (0 : Fin 1) * 1 + 1 * 0 = 0; rw [e0]

end Cert.KernelIdeal.KInputs

end
-- ==== Proof.EdgeSpec.lean ====
/-
  One edge's squared error, on the extended reals, as a function of the two node feature rows, the layers' weights
  and the edge's target and mask.  With hr, hs the feature rows of the edge's first and second node,

    z₁ c = silu (∑ₖ hr k · Wt k c + ∑ₖ hs k · Wb k c + b₁ c)      (Wt, Wb: the top and bottom 64 rows of the 128 × 64 first-layer matrix)
    z₂ c = silu (∑ₖ z₁ k · W₂ k c + b₂ c)
    p    = softplus (∑ₖ z₂ k · w₃ k + b₃)
    err  = (p · μ − t · μ)²

  where silu x = x · (1 / (1 + exp (−x))) and softplus x = max x 0 + log (1 + exp (−|x|)).
-/
import Idealize.ShloMosaic.PureOps.Ideal

noncomputable section

namespace Cert.EdgeSpec

open Idealize.ShloMosaic

/-- x · σ(x), σ the logistic function 1 / (1 + exp (−x)). -/
def silu (z : EReal) : EReal := z * Ideal.logistic z

/-- log (1 + exp x), in the overflow-free form max x 0 + log (1 + exp (−|x|)), |x| = max x (−x). -/
def softplus (z : EReal) : EReal := max z 0 + Ideal.log1p (Ideal.exp (-(max z (-z))))

/-- The first layer at hidden unit c. -/
def layer1 (hr hs : Fin 64 → EReal) (Wt Wb : Fin 64 → Fin 64 → EReal) (b1 : Fin 64 → EReal) (c : Fin 64) : EReal :=
  silu (((∑ k : Fin 64, hr k * Wt k c) + (∑ k : Fin 64, hs k * Wb k c)) + b1 c)

/-- The second layer at hidden unit c. -/
def layer2 (z : Fin 64 → EReal) (W2 : Fin 64 → Fin 64 → EReal) (b2 : Fin 64 → EReal) (c : Fin 64) : EReal :=
  silu ((∑ k : Fin 64, z k * W2 k c) + b2 c)

/-- The predicted edge weight. -/
def score (z : Fin 64 → EReal) (w3 : Fin 64 → EReal) (b3 : EReal) : EReal :=
  softplus ((∑ k : Fin 64, z k * w3 k) + b3)

/-- The squared masked error of a prediction p against a target t under the mask μ. -/
def sqErr (p t μ : EReal) : EReal := (p * μ - t * μ) * (p * μ - t * μ)

/-- One edge's squared masked error. -/
def edgeSq (hr hs : Fin 64 → EReal) (Wt Wb : Fin 64 → Fin 64 → EReal) (b1 : Fin 64 → EReal)
    (W2 : Fin 64 → Fin 64 → EReal) (b2 : Fin 64 → EReal) (w3 : Fin 64 → EReal) (b3 t μ : EReal) : EReal :=
  sqErr (score (layer2 (layer1 hr hs Wt Wb b1) W2 b2) w3 b3) t μ

end Cert.EdgeSpec

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«124486_j14688788152450_2_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.LibTotals.lean ====
/-
  Totals are insensitive to layout, at the ideal instance.

  Two general facts about the sum of ALL entries of a vector over the extended reals (or any commutative
  additive monoid):

    * a shape cast only re-indexes the entries (row-major position is kept), so the total is unchanged;
    * an additive reduction over any set of axes leaves, at each reduced index, the sum of the entries that
      reduce to it; the reduced indices partition the source indices, so the total of the reduced vector is the
      total of the source.

  With them a chain "reduce the lanes, cast, reduce the sublanes, cast, reduce the batch" collapses to the one
  total of its source without naming a single coordinate.

  And a rank-3 index set is the product of its three coordinate ranges, so a total over it is a triple sum over
  the coordinates (the rank-2 form is the library's).
-/
import Idealize.ShloMosaic.PureOps.Ideal.Laws
import Idealize.ShloMosaic.Lib.ValueIdx

open scoped BigOperators

namespace Idealize.ShloMosaic.LibTotals

open Idealize.ShloMosaic

/-- The total of a shape cast is the total of its operand: the cast reads the operand through a bijection of the
    two index sets. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- The total of an additive `vector.multi_reduction`, read at the ideal instance, is the total of its source:
    each reduced entry is the sum over the fibre of source indices that drop to it, and the fibres partition
    the source. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.LibTotals
-- ==== Proof.KPayload.lean ====
/-
  The edge-loss body's result for one block of eight graphs, read as a sum over the block's edges.

  A block holds 512 node rows of 64 features: graph g owns rows 64 g .. 64 g + 63.  The body multiplies the rows by
  the top and by the bottom half of the first-layer matrix, hr = X · Wt and hc = X · Wb, and for the edge (i, j) of
  graph g forms

      z₁ c = silu (hr (64 g + i) c + hc (64 g + j) c + b₁ c),
      z₂ c = silu (∑ₖ z₁ k · W₂ k c + b₂ c),
      p    = softplus (∑ₖ z₂ k · w₃ k + b₃),
      err  = (p · μ − t · μ)²

  with μ the edge's mask and t its target, and stores the sum of err over the 8 · 64 · 64 edges of the block.  The
  reshapes between [512, 64], [8, 64, 64], [8, 64, 1, 64], [8, 1, 64, 64], [8, 64, 64, 64] and [32768, 64] only
  re-number rows: row-major position is kept, so entry (g, i, j, c) of the four-axis form is row (64 g + i) 64 + j
  of the two-axis form; the broadcasts copy along the unit axes.  The softplus is spelled with a guard that compares
  a number with itself for "ordered and different", which never holds on the extended reals, so the guarded branch is
  never taken.  Reading every operation at explicit coordinates gives one edge's term as EdgeSpec.edgeSq of the two
  node rows, and the total over all axes of the squared errors is the triple sum over (g, i, j).
-/
import proofs.«124486_j14688788152450_2_alg».proof.Proof.Gen.KernelIdeal.Frame
import proofs.«124486_j14688788152450_2_alg».proof.Proof.EdgeSpec
import proofs.«124486_j14688788152450_2_alg».proof.Proof.LibMatmulRows
import proofs.«124486_j14688788152450_2_alg».proof.Proof.LibTotals
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPayload

open Cert.KernelIdeal Cert.KernelIdeal.Gen Idealize.ShloMosaic Idealize.ShloMosaic.ValueIdx
open scoped BigOperators

/-! ## Re-numbering rows and copying along unit axes, at explicit coordinates -/

section Layout

variable {α : Type}

/-- [512, 64] viewed as [8, 64, 64]: entry (g, i, k) is row 64 g + i at k. -/
theorem split3 (x : S512x64.Idx → α) (h : S512x64.ShapeCasts S8x64x64) (g : Fin 8) (i k : Fin 64) :
    shapeCast S8x64x64 x h (ix3 g i k) = x (ix2 (⟨g.val * 64 + i.val, by omega⟩ : Fin 512) k) :=
  shapeCast_apply x h _ _ (by
    rw [Shape.rowMajor_val_two, Shape.rowMajor_val_three]
    rfl)

/-- [8, 64, 64] with a unit axis inserted third: entry (g, i, u, k) is (g, i, k). -/
theorem unitThird (x : S8x64x64.Idx → α) (h : S8x64x64.ShapeCasts S8x64x1x64) (g : Fin 8) (i : Fin 64) (u : Fin 1)
    (k : Fin 64) : shapeCast S8x64x1x64 x h (ix4 g i u k) = x (ix3 g i k) :=
  shapeCast_apply x h _ _ (by
    have hu : u.val = 0 := by omega
    rw [Shape.rowMajor_val_three, Shape.rowMajor_val_four]
    show (g.val * 64 + i.val) * 64 + k.val = ((g.val * 64 + i.val) * 1 + u.val) * 64 + k.val
    omega)

/-- [8, 64, 64] with a unit axis inserted second: entry (g, u, j, k) is (g, j, k). -/
theorem unitSecond (x : S8x64x64.Idx → α) (h : S8x64x64.ShapeCasts S8x1x64x64) (g : Fin 8) (u : Fin 1) (j : Fin 64)
    (k : Fin 64) : shapeCast S8x1x64x64 x h (ix4 g u j k) = x (ix3 g j k) :=
  shapeCast_apply x h _ _ (by
    have hu : u.val = 0 := by omega
    rw [Shape.rowMajor_val_three, Shape.rowMajor_val_four]
    show (g.val * 64 + j.val) * 64 + k.val = ((g.val * 1 + u.val) * 64 + j.val) * 64 + k.val
    omega)

/-- [8, 64, 1, 64] copied along its unit axis. -/
theorem copyThird (x : S8x64x1x64.Idx → α) (h : S8x64x1x64.Broadcasts S8x64x64x64) (g : Fin 8) (i j k : Fin 64) :
    broadcastTo S8x64x64x64 x h (ix4 g i j k) = x (ix4 g i (0 : Fin 1) k) :=
  broadcastTo_apply x h _ _ (fun ax => by
    match ax with
    | ⟨0, _⟩ => rfl
    | ⟨1, _⟩ => rfl
    | ⟨2, _⟩ => rfl
    | ⟨3, _⟩ => rfl)

/-- [8, 1, 64, 64] copied along its unit axis. -/
theorem copySecond (x : S8x1x64x64.Idx → α) (h : S8x1x64x64.Broadcasts S8x64x64x64) (g : Fin 8) (i j k : Fin 64) :
    broadcastTo S8x64x64x64 x h (ix4 g i j k) = x (ix4 g (0 : Fin 1) j k) :=
  broadcastTo_apply x h _ _ (fun ax => by
    match ax with
    | ⟨0, _⟩ => rfl
    | ⟨1, _⟩ => rfl
    | ⟨2, _⟩ => rfl
    | ⟨3, _⟩ => rfl)

/-- A 64-vector viewed as [1, 1, 1, 64]. -/
theorem vecAsLast (x : S64.Idx → α) (h : S64.ShapeCasts S1x1x1x64) (u v w : Fin 1) (k : Fin 64) :
    shapeCast S1x1x1x64 x h (ix4 u v w k) = x (ix1 k) :=
  shapeCast_apply x h _ _ (by
    have hu : u.val = 0 := by omega
    have hv : v.val = 0 := by omega
    have hw : w.val = 0 := by omega
    rw [Shape.rowMajor_val_one, Shape.rowMajor_val_four]
    show k.val = ((u.val * 1 + v.val) * 1 + w.val) * 64 + k.val
    omega)

/-- [1, 1, 1, 64] copied over the three leading axes. -/
theorem copyLast (x : S1x1x1x64.Idx → α) (h : S1x1x1x64.Broadcasts S8x64x64x64) (g : Fin 8) (i j k : Fin 64) :
    broadcastTo S8x64x64x64 x h (ix4 g i j k) = x (ix4 (0 : Fin 1) (0 : Fin 1) (0 : Fin 1) k) :=
  broadcastTo_apply x h _ _ (fun ax => by
    match ax with
    | ⟨0, _⟩ => rfl
    | ⟨1, _⟩ => rfl
    | ⟨2, _⟩ => rfl
    | ⟨3, _⟩ => rfl)

/-- [8, 64, 64, 64] viewed as [32768, 64]: row (64 g + i) 64 + j at k is entry (g, i, j, k). -/
theorem merge4 (x : S8x64x64x64.Idx → α) (h : S8x64x64x64.ShapeCasts S32768x64) (g : Fin 8) (i j k : Fin 64) :
    shapeCast S32768x64 x h (ix2 (⟨(g.val * 64 + i.val) * 64 + j.val, by omega⟩ : Fin 32768) k) = x (ix4 g i j k) :=
  shapeCast_apply x h _ _ (by
    rw [Shape.rowMajor_val_two, Shape.rowMajor_val_four]
    rfl)

/-- [32768, 64] viewed as [8, 64, 64, 64]: entry (g, i, j, k) is row (64 g + i) 64 + j at k. -/
theorem split4 (x : S32768x64.Idx → α) (h : S32768x64.ShapeCasts S8x64x64x64) (g : Fin 8) (i j k : Fin 64) :
    shapeCast S8x64x64x64 x h (ix4 g i j k) = x (ix2 (⟨(g.val * 64 + i.val) * 64 + j.val, by omega⟩ : Fin 32768) k) :=
  shapeCast_apply x h _ _ (by
    rw [Shape.rowMajor_val_two, Shape.rowMajor_val_four]
    rfl)

end Layout

/-! ## The sum along the last of four axes -/

/-- The index over (g, i, j) with last coordinate k. -/
theorem lift_last4 (h : S8x64x64x64.Reduces [3] S8x64x64) (g : Fin 8) (i j k : Fin 64) :
    h.lift (ix3 g i j) k = ix4 g i j k :=
  funext fun x => Fin.ext (by
    show h.liftVal (ix3 g i j) k.val x = (ix4 g i j k x).val
    unfold Shape.Reduces.liftVal
    match x with
    | ⟨0, _⟩ => rfl
    | ⟨1, _⟩ => rfl
    | ⟨2, _⟩ => rfl
    | ⟨3, _⟩ => rfl)

/-- A sum along the last axis, at (g, i, j). -/
theorem lastSum4 (src : FVec Ideal S8x64x64x64 .f32) (acc : BitVec (FTy.bits .f32))
    (h : S8x64x64x64.Reduces [3] S8x64x64) (hφ : FKind.Formats .f32) (hacc : acc = FKind.add.neutral .f32 hφ)
    (g : Fin 8) (i j : Fin 64) :
    multiReduction .add [3] S8x64x64 src acc h hφ hacc (ix3 g i j) = ∑ k : Fin 64, src (ix4 g i j k) :=
  (Ideal.multiReduction_add_single src acc h hφ hacc (ix3 g i j)).trans
    (Finset.sum_congr rfl fun k _ => congrArg src (lift_last4 h g i j k))

/-! ## The activation, pointwise -/

/-- x · σ(x) of a vector, at an index where the vector reads z. -/
theorem silu_at {s : Shape} (v : FVec Ideal s .f32) (y : s.Idx) (z : EReal) (hz : v y = z) :
    mulf v (logistic v) y = EdgeSpec.silu z := by
  subst hz; rfl

/-- Rounding to the narrower format changes nothing on the extended reals. -/
theorem trunc_at {s : Shape} (v : FVec Ideal s .f32) (h : FTy.bits .bf16 < FTy.bits .f32) (y : s.Idx) :
    (truncf .bf16 v h : FVec Ideal s .bf16) y = v y := rfl

/-! ## The node rows times a half of the first-layer matrix -/

/-- Row r of X · W at c: the contraction over the 64 features. -/
theorem rowsTimes (x0 : FVec Ideal S1x512x64 .f32) (w : FVec Ideal S64x64 .bf16) (r : Fin 512) (c : Fin 64) :
    matmul dot_S512x64_S64x64_S512x64_1_0_0_1_n_n none
        (truncf .bf16 (shapeCast S512x64 x0 shapeCasts_S1x512x64_S512x64) bitsLt_bf16_f32)
        (shapeCast S64x64 w shapeCasts_S64x64_S64x64) (constant (F := Ideal) S512x64 .f32 0x00000000#32) (ix2 r c)
      = ∑ k : Fin 64, x0 (ix3 (0 : Fin 1) r k) * w (ix2 k c) := by
  refine (Cert.MatmulRows.matmul_zero_ix2 dot_S512x64_S64x64_S512x64_1_0_0_1_n_n rfl rfl rfl rfl rfl rfl none _ _ r c).trans ?_
  refine Finset.sum_congr rfl fun k _ => ?_
  refine congrArg₂ (· * ·) ?_ ?_
  · exact (trunc_at _ _ _).trans (shapeCast_1ab_ab_apply x0 _ r k)
  · exact congrFun (shapeCast_self w _) (ix2 k c)

/-! ## The two hidden layers and the output contraction at one edge -/

/-- The body's last-axis sum at the edge (i, j) of graph g: the second hidden layer of the edge's two node rows,
    contracted with the output weights. -/
theorem pay2_apply (x0 : Vec Ideal S1x512x64 .f32) (x3 x4 : Vec Ideal S64x64 .bf16) (x5 : Vec Ideal S64 .f32)
    (x6 : Vec Ideal S64x64 .bf16) (x7 x8 : Vec Ideal S64 .f32) (g : Fin 8) (i j : Fin 64) :
    k0_pay2 (F := Ideal) x0 x3 x4 x5 x6 x7 x8 (ix3 g i j)
      = ∑ k : Fin 64,
          EdgeSpec.layer2
            (EdgeSpec.layer1 (fun k : Fin 64 => x0 (ix3 (0 : Fin 1) ⟨g.val * 64 + i.val, by omega⟩ k))
              (fun k : Fin 64 => x0 (ix3 (0 : Fin 1) ⟨g.val * 64 + j.val, by omega⟩ k))
              (fun k c => x3 (ix2 k c)) (fun k c => x4 (ix2 k c)) (fun c => x5 (ix1 c)))
            (fun k c => x6 (ix2 k c)) (fun c => x7 (ix1 c)) k * x8 (ix1 k) := by
  unfold k0_pay2
  refine (lastSum4 _ _ _ _ _ g i j).trans ?_
  refine Finset.sum_congr rfl fun c _ => ?_
  refine (mulf_apply _ _ _).trans ?_
  refine congrArg₂ (· * ·) ?_ ?_
  · -- the second layer at hidden unit c
    refine (split4 _ _ g i j c).trans ?_
    refine silu_at _ _ _ ?_
    refine (addf_apply _ _ _).trans ?_
    refine congrArg₂ (· + ·) ?_ ?_
    · refine (Cert.MatmulRows.matmul_zero_ix2 dot_S32768x64_S64x64_S32768x64_1_0_0_1_n_n rfl rfl rfl rfl rfl rfl none _ _ _ c).trans ?_
      refine Finset.sum_congr rfl fun k _ => ?_
      refine congrArg₂ (· * ·) ?_ ?_
      · -- the first layer at hidden unit k
        refine (trunc_at _ _ _).trans ?_
        refine (merge4 _ _ g i j k).trans ?_
        refine silu_at _ _ _ ?_
        refine (addf_apply _ _ _).trans ?_
        refine congrArg₂ (· + ·) ?_ ?_
        · refine (addf_apply _ _ _).trans ?_
          refine congrArg₂ (· + ·) ?_ ?_
          · refine (copyThird _ _ g i j k).trans ?_
            refine (unitThird _ _ g i 0 k).trans ?_
            refine (split3 _ _ g i k).trans ?_
            exact rowsTimes x0 x3 _ k
          · refine (copySecond _ _ g i j k).trans ?_
            refine (unitSecond _ _ g 0 j k).trans ?_
            refine (split3 _ _ g j k).trans ?_
            exact rowsTimes x0 x4 _ k
        · refine (copyLast _ _ g i j k).trans ?_
          exact vecAsLast _ _ 0 0 0 k
      · exact congrFun (shapeCast_self x6 _) (ix2 k c)
    · refine (broadcastTo_1b_ab_apply _ _ _ c).trans ?_
      exact shapeCast_a_1a_apply _ _ 0 c
  · refine (copyLast _ _ g i j c).trans ?_
    refine (vecAsLast _ _ 0 0 0 c).trans ?_
    exact congrFun (shapeCast_self x8 _) (ix1 c)

/-! ## The guarded softplus and the squared masked error, pointwise -/

/-- A number is never "ordered and different" from itself. -/
theorem cmp_one_self (z : EReal) : Ideal.cmp .one z z = 0#1 := by
  simp [Ideal.cmp]

/-- The body's spelling of softplus at an index where the pre-activation reads z: the guard is never taken, and
    max z 0 + log1p (exp (0 − |z − 0|)) is the overflow-free form of log (1 + exp z). -/
theorem softplus_at {s : Shape} (v : FVec Ideal s .f32) (y : s.Idx) (z : EReal) (hz : v y = z) :
    select (cmpf .one (subf v (broadcast s (Scalar.ofBits .f32 0x00000000#32)))
          (subf v (broadcast s (Scalar.ofBits .f32 0x00000000#32))))
        (addf v (broadcast s (Scalar.ofBits .f32 0x00000000#32)))
        (addf (maximumf v (broadcast s (Scalar.ofBits .f32 0x00000000#32)))
          (log1p (exp (subf (broadcast s (Scalar.ofBits .f32 0x00000000#32))
            (absf (subf v (broadcast s (Scalar.ofBits .f32 0x00000000#32)))))))) y
      = EdgeSpec.softplus z := by
  subst hz
  show Scalar.select (Ideal.cmp .one (v y - Ideal.ofBits .f32 0x00000000#32) (v y - Ideal.ofBits .f32 0x00000000#32))
      (v y + Ideal.ofBits .f32 0x00000000#32)
      (max (v y) (Ideal.ofBits .f32 0x00000000#32)
        + Ideal.log1p (Ideal.exp (Ideal.ofBits .f32 0x00000000#32
            - max (v y - Ideal.ofBits .f32 0x00000000#32) (-(v y - Ideal.ofBits .f32 0x00000000#32))))) = _
  rw [Ideal.ofBits_zero_f32, cmp_one_self, select_zero, sub_zero, zero_sub]
  rfl

/-- (p μ − t μ)² at an index where the three vectors read p, t and μ. -/
theorem sqErr_at {s : Shape} (P T M : FVec Ideal s .f32) (y : s.Idx) (p t μ : EReal) (hp : P y = p) (ht : T y = t)
    (hm : M y = μ) :
    mulf (subf (mulf P M) (mulf T M)) (subf (mulf P M) (mulf T M)) y = EdgeSpec.sqErr p t μ := by
  subst hp ht hm; rfl

/-! ## The total over the block's edges -/

/-- The body's stored number: the sum over the block's edges (g, i, j) of the squared masked error of the softplus
    of the edge's pre-activation plus the output bias. -/
theorem pay1_apply (v39 : FVec Ideal S8x64x64 .f32) (v41 : Ideal .f32) (v58 v60 : Vec Ideal S1x8x64x64 .f32)
    (y : S1x1x1.Idx) :
    k0_pay1 (F := Ideal) v39 v41 v58 v60 y
      = ∑ g : Fin 8, ∑ i : Fin 64, ∑ j : Fin 64,
          EdgeSpec.sqErr (EdgeSpec.softplus (v39 (ix3 g i j) + v41)) (v60 (ix4 (0 : Fin 1) g i j))
            (v58 (ix4 (0 : Fin 1) g i j)) := by
  unfold k0_pay1
  refine (broadcast_apply _ y).trans ?_
  unfold extractAt
  refine (shapeCast_apply _ _ _ (ix1 (0 : Fin 1)) (by
    rw [Shape.rowMajor_val_one, Shape.rowMajor_val_four]
    rfl)).trans ?_
  refine (Ideal.multiReduction_add_total _ _ _ (fun b => by match b with | ⟨0, _⟩ => rfl) _ _ _).trans ?_
  refine (Idealize.ShloMosaic.LibTotals.sum_shapeCast _ _).trans ?_
  refine (Idealize.ShloMosaic.LibTotals.sum_idx3 _).trans ?_
  refine Finset.sum_congr rfl fun g _ => Finset.sum_congr rfl fun i _ => Finset.sum_congr rfl fun j _ => ?_
  refine sqErr_at _ _ _ _ _ _ _ ?_ ?_ ?_
  · refine softplus_at _ _ _ ?_
    rfl
  · exact shapeCast_1abc_abc_apply v60 _ g i j
  · exact shapeCast_1abc_abc_apply v58 _ g i j

/-- The output bias read from its one-entry block. -/
theorem pay3_apply (x9 : Vec Ideal S1 .f32) : k0_pay3 (F := Ideal) x9 = x9 (ix1 (0 : Fin 1)) :=
  congrArg x9 (funext fun a => by match a with | ⟨0, _⟩ => rfl)

/-! ## The block's result -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What the body leaves in its output block: the sum over the block's 8 · 64 · 64 edges of one edge's squared
    masked error, as a function of the two node rows, the weights, the edge's target (from x1) and mask (from x2). -/
theorem payload_apply (x0 : Vec Ideal S1x512x64 .f32) (x1 x2 : Vec Ideal S1x8x64x64 .f32) (x3 x4 : Vec Ideal S64x64 .bf16)
    (x5 : Vec Ideal S64 .f32) (x6 : Vec Ideal S64x64 .bf16) (x7 x8 : Vec Ideal S64 .f32) (x9 : Vec Ideal S1 .f32)
    (y : S1x1x1.Idx) :
    Gen.out0_10 (F := Ideal) x0 x1 x2 x3 x4 x5 x6 x7 x8 x9 y
      = ∑ g : Fin 8, ∑ i : Fin 64, ∑ j : Fin 64,
          EdgeSpec.edgeSq (fun k : Fin 64 => x0 (ValueIdx.ix3 (0 : Fin 1) ⟨g.val * 64 + i.val, by omega⟩ k))
            (fun k : Fin 64 => x0 (ValueIdx.ix3 (0 : Fin 1) ⟨g.val * 64 + j.val, by omega⟩ k))
            (fun k c => x3 (ValueIdx.ix2 k c)) (fun k c => x4 (ValueIdx.ix2 k c)) (fun c => x5 (ValueIdx.ix1 c))
            (fun k c => x6 (ValueIdx.ix2 k c)) (fun c => x7 (ValueIdx.ix1 c)) (fun k => x8 (ValueIdx.ix1 k))
            (x9 (ValueIdx.ix1 (0 : Fin 1)))
            (x1 (ValueIdx.ix4 (0 : Fin 1) g i j)) (x2 (ValueIdx.ix4 (0 : Fin 1) g i j)) := by
  unfold Gen.out0_10
  rw [View.canon_unit_zero zeros3]
  simp only [View.ld_unit_zero (S := S1x512x64) zeros3, View.ld_unit_zero (S := S64x64) zeros2,
    View.ld_unit_zero (S := S64) zeros1, View.ld_unit_zero (S := S1) zeros1,
    View.ld_unit_zero (S := S1x8x64x64) zeros4]
  refine (pay1_apply _ _ _ _ y).trans ?_
  refine Finset.sum_congr rfl fun g _ => Finset.sum_congr rfl fun i _ => Finset.sum_congr rfl fun j _ => ?_
  exact congrArg₂ (fun a b => EdgeSpec.sqErr (EdgeSpec.softplus (a + b)) (x1 (ix4 (0 : Fin 1) g i j))
      (x2 (ix4 (0 : Fin 1) g i j))) (pay2_apply x0 x3 x4 x5 x6 x7 x8 g i j) (pay3_apply x9)

end Cert.KernelIdeal.KPayload

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.EdgeOf.lean ====
/-
  Edges by number.  Edge n < 524288 = 16 · 8 · 64 · 64 is pair (i, j) of graph g of block t, with
  n = 32768·t + 4096·g + 64·i + j; its first node's feature row is row n / 4096 · 64 + (n mod 4096) / 64 of `h`, its
  second node's row n / 4096 · 64 + n mod 64.  A sum over all edges is the sum over blocks, graphs and pairs.
-/
import proofs.«124486_j14688788152450_2_alg».proof.Proof.EdgeSpec
import proofs.«124486_j14688788152450_2_alg».proof.Proof.LibTiledSum

noncomputable section

namespace Cert.EdgeOf

open Cert.TiledSum

theorem blocks_mul : 16 * 32768 = 524288 := by norm_num
theorem graphs_mul : 8 * 4096 = 32768 := by norm_num
theorem pairs_mul : 64 * 64 = 4096 := by norm_num

/-- The number of pair (i, j) of graph g of block t. -/
def edgeNo (t : Fin 16) (g : Fin 8) (i j : Fin 64) : Fin 524288 :=
  tile blocks_mul t (tile graphs_mul g (tile pairs_mul i j))

theorem edgeNo_val (t : Fin 16) (g : Fin 8) (i j : Fin 64) :
    (edgeNo t g i j).val = 32768 * t.val + (4096 * g.val + (64 * i.val + j.val)) := rfl

/-- The row of `h` holding an edge's first node. -/
def rowOf (n : Fin 524288) : Fin 8192 := ⟨n.val / 4096 * 64 + n.val % 4096 / 64, by have := n.isLt; omega⟩
/-- The row of `h` holding an edge's second node. -/
def colOf (n : Fin 524288) : Fin 8192 := ⟨n.val / 4096 * 64 + n.val % 64, by have := n.isLt; omega⟩

theorem rowOf_edgeNo (t : Fin 16) (g : Fin 8) (i j : Fin 64) :
    (rowOf (edgeNo t g i j)).val = 512 * t.val + (g.val * 64 + i.val) := by
  have := t.isLt; have := g.isLt; have := i.isLt; have := j.isLt
  show (32768 * t.val + (4096 * g.val + (64 * i.val + j.val))) / 4096 * 64
      + (32768 * t.val + (4096 * g.val + (64 * i.val + j.val))) % 4096 / 64 = _
  omega

theorem colOf_edgeNo (t : Fin 16) (g : Fin 8) (i j : Fin 64) :
    (colOf (edgeNo t g i j)).val = 512 * t.val + (g.val * 64 + j.val) := by
  have := t.isLt; have := g.isLt; have := i.isLt; have := j.isLt
  show (32768 * t.val + (4096 * g.val + (64 * i.val + j.val))) / 4096 * 64
      + (32768 * t.val + (4096 * g.val + (64 * i.val + j.val))) % 64 = _
  omega

/-- One edge's squared masked error from the argument arrays as plain functions. -/
def edgeOf (h : Fin 8192 → Fin 64 → EReal) (W1 : Fin 128 → Fin 64 → EReal) (b1 : Fin 64 → EReal)
    (W2 : Fin 64 → Fin 64 → EReal) (b2 : Fin 64 → EReal) (w3 : Fin 64 → EReal) (b3 : EReal)
    (tgt mask : Fin 524288 → EReal) (n : Fin 524288) : EReal :=
  EdgeSpec.edgeSq (h (rowOf n)) (h (colOf n)) (fun k c => W1 (Fin.castAdd 64 k) c) (fun k c => W1 (Fin.natAdd 64 k) c)
    b1 W2 b2 w3 b3 (tgt n) (mask n)

/-- A sum over all edges, taken block by block, graph by graph, pair by pair. -/
theorem sum_edges {M : Type*} [AddCommMonoid M] (F : Fin 524288 → M) :
    ∑ n : Fin 524288, F n = ∑ t : Fin 16, ∑ g : Fin 8, ∑ i : Fin 64, ∑ j : Fin 64, F (edgeNo t g i j) := by
  rw [sum_tiles blocks_mul]
  refine Finset.sum_congr rfl fun t _ => ?_
  rw [sum_tiles graphs_mul]
  refine Finset.sum_congr rfl fun g _ => ?_
  rw [sum_tiles pairs_mul]
  rfl

/-- The squared error depends on its arguments entry by entry. -/
theorem edgeSq_congr {hr hr' hs hs' : Fin 64 → EReal} {Wt Wt' Wb Wb' : Fin 64 → Fin 64 → EReal} {b1 b1' : Fin 64 → EReal}
    {W2 W2' : Fin 64 → Fin 64 → EReal} {b2 b2' w3 w3' : Fin 64 → EReal} {b3 b3' t t' μ μ' : EReal}
    (e1 : ∀ k, hr k = hr' k) (e2 : ∀ k, hs k = hs' k) (e3 : ∀ k c, Wt k c = Wt' k c) (e4 : ∀ k c, Wb k c = Wb' k c)
    (e5 : ∀ k, b1 k = b1' k) (e6 : ∀ k c, W2 k c = W2' k c) (e7 : ∀ k, b2 k = b2' k) (e8 : ∀ k, w3 k = w3' k)
    (e9 : b3 = b3') (e10 : t = t') (e11 : μ = μ') :
    EdgeSpec.edgeSq hr hs Wt Wb b1 W2 b2 w3 b3 t μ = EdgeSpec.edgeSq hr' hs' Wt' Wb' b1' W2' b2' w3' b3' t' μ' := by
  obtain rfl : hr = hr' := funext e1
  obtain rfl : hs = hs' := funext e2
  obtain rfl : Wt = Wt' := funext fun k => funext (e3 k)
  obtain rfl : Wb = Wb' := funext fun k => funext (e4 k)
  obtain rfl : b1 = b1' := funext e5
  obtain rfl : W2 = W2' := funext fun k => funext (e6 k)
  obtain rfl : b2 = b2' := funext e7
  obtain rfl : w3 = w3' := funext e8
  subst e9 e10 e11
  rfl

end Cert.EdgeOf

end
-- ==== Proof.KSum.lean ====
/-
  The kernel program's edge loss as a sum over edges.  Block t's partial sum is the sum, over the 8 graphs of the block
  and the 64 × 64 node pairs of each, of the edge's squared masked error; the edge loss is the root of the sixteen
  partial sums' total over 524288.
-/
import proofs.«124486_j14688788152450_2_alg».proof.Proof.KBlocks
import proofs.«124486_j14688788152450_2_alg».proof.Proof.KInputs
import proofs.«124486_j14688788152450_2_alg».proof.Proof.KPayload
import proofs.«124486_j14688788152450_2_alg».proof.Proof.KTail
import proofs.«124486_j14688788152450_2_alg».proof.Proof.EdgeOf
import proofs.«124486_j14688788152450_2_alg».proof.Proof.LibTotals
import Idealize.ShloMosaic.Lib.IdealHost
import Idealize.ShloMosaic.PureOps.Ideal.Laws

noncomputable section

open Idealize.ShloMosaic Idealize.ShloMosaic.TcCoe Idealize.SL.Sem Idealize.ShloMosaic.ValueIdx

namespace Cert.KernelIdeal.KSum

open Cert.KernelIdeal Cert.KernelIdeal.Gen

variable (m : (ℓ : Loc nD τ sig) → Buf (Elt Ideal) ℓ)

/-! ## The argument arrays as plain functions -/

abbrev hOf (c : Dev nD) : Fin 8192 → Fin 64 → EReal := fun r k => (m ((c : Thread nD τ).loc main_arg0) : S8192x64.Idx → EReal) (ix2 r k)
abbrev w1Of (c : Dev nD) : Fin 128 → Fin 64 → EReal := fun k c' => (m ((c : Thread nD τ).loc main_arg1) : S128x64.Idx → EReal) (ix2 k c')
abbrev b1Of (c : Dev nD) : Fin 64 → EReal := fun k => (m ((c : Thread nD τ).loc main_arg2) : S64.Idx → EReal) (ix1 k)
abbrev w2Of (c : Dev nD) : Fin 64 → Fin 64 → EReal := fun k c' => (m ((c : Thread nD τ).loc main_arg3) : S64x64.Idx → EReal) (ix2 k c')
abbrev b2Of (c : Dev nD) : Fin 64 → EReal := fun k => (m ((c : Thread nD τ).loc main_arg4) : S64.Idx → EReal) (ix1 k)
abbrev w3Of (c : Dev nD) : Fin 64 → EReal := fun k => (m ((c : Thread nD τ).loc main_arg5) : S64x1.Idx → EReal) (ix2 k (0 : Fin 1))
abbrev b3Of (c : Dev nD) : EReal := (m ((c : Thread nD τ).loc main_arg6) : S1.Idx → EReal) (ix1 (0 : Fin 1))
abbrev tgtOf (c : Dev nD) : Fin 524288 → EReal := fun n => (m ((c : Thread nD τ).loc main_arg7) : S524288x1.Idx → EReal) (ix2 n (0 : Fin 1))
abbrev maskOf (c : Dev nD) : Fin 524288 → EReal := fun n => (m ((c : Thread nD τ).loc main_arg9) : S524288x1.Idx → EReal) (ix2 n (0 : Fin 1))

/-- Block t's partial sum: the block's edges' squared errors added up. -/
theorem partial_apply (c : Dev nD) (t : Fin 16) :
    (KBlocks.partials m c : S16x1x1.Idx → EReal) (ix3 t (0 : Fin 1) (0 : Fin 1))
      = ∑ g : Fin 8, ∑ i : Fin 64, ∑ j : Fin 64,
          EdgeOf.edgeOf (hOf m c) (w1Of m c) (b1Of m c) (w2Of m c) (b2Of m c) (w3Of m c) (b3Of m c) (tgtOf m c) (maskOf m c)
            (EdgeOf.edgeNo t g i j) := by
  unfold KBlocks.partials
  refine (KPayload.payload_apply _ _ _ _ _ _ _ _ _ _ _).trans ?_
  refine Finset.sum_congr rfl fun g _ => Finset.sum_congr rfl fun i _ => Finset.sum_congr rfl fun j _ => ?_
  have ht : (KBlocks.pointOf (ix3 t (0 : Fin 1) (0 : Fin 1))).val = t.val := rfl
  have hg := g.isLt
  have hi := i.isLt
  have hj := j.isLt
  have htl := t.isLt
  unfold EdgeOf.edgeOf
  refine EdgeOf.edgeSq_congr (fun k => ?_) (fun k => ?_) (fun k c' => ?_) (fun k c' => ?_) (fun k => ?_) (fun k c' => ?_)
    (fun k => ?_) (fun k => ?_) ?_ ?_ ?_
  · exact KInputs.feat_apply m c _ _ k _ (by rw [EdgeOf.rowOf_edgeNo, ht])
  · exact KInputs.feat_apply m c _ _ k _ (by rw [EdgeOf.colOf_edgeNo, ht])
  · exact KInputs.wtop_apply m c _ k c' _ rfl
  · exact KInputs.wbot_apply m c _ k c' _ rfl
  · exact KInputs.b1_apply m c _ k
  · exact KInputs.w2_apply m c _ k c'
  · exact KInputs.b2_apply m c _ k
  · exact KInputs.w3_apply m c _ k
  · exact KInputs.b3_apply m c _
  · exact KInputs.tgt_apply m c _ g i j _ (by rw [EdgeOf.edgeNo_val, ht]; omega)
  · exact KInputs.mask_apply m c _ g i j _ (by rw [EdgeOf.edgeNo_val, ht]; omega)

/-- The root of the mean of the partial sums: the square root of their total divided by 524288 (as its f32 pattern). -/
theorem rootMean_eq (p : FVec Ideal S16x1x1 .f32) (j : S_.Idx) :
    KTail.rootMean (F := Ideal) p j
      = Ideal.sqrt (Ideal.div (∑ t : Fin 16, p (ix3 t (0 : Fin 1) (0 : Fin 1))) (Ideal.ofBits .f32 0x49000000#32)) := by
  show Ideal.sqrt (Ideal.div (Host.reduceAdd p (constant (F := Ideal) S_ .f32 0x00000000#32) reducesTo_S16x1x1_S_d0_1_2 h_S_ j)
      (constant (F := Ideal) S_ .f32 0x49000000#32 j))
    = _
  rw [hostReduceAdd_apply, Ideal.hostReduceAdd_total reducesTo_S16x1x1_S_d0_1_2 (fun b => b.elim0), constant_apply, constant_apply,
    Ideal.ofBits_zero_f32, zero_add, LibTotals.sum_idx3]
  simp only [Fin.sum_univ_one]

/-- The kernel program's edge loss: the root of the mean of all edges' squared errors. -/
theorem edgeLoss_eq (c : Dev nD) (j : S_.Idx) :
    KTail.rootMean (F := Ideal) (KBlocks.partials (F := Ideal) m c) j
      = Ideal.sqrt (Ideal.div (∑ n : Fin 524288,
          EdgeOf.edgeOf (hOf m c) (w1Of m c) (b1Of m c) (w2Of m c) (b2Of m c) (w3Of m c) (b3Of m c) (tgtOf m c) (maskOf m c) n)
          (Ideal.ofBits .f32 0x49000000#32)) := by
  rw [rootMean_eq, EdgeOf.sum_edges]
  simp only [partial_apply]

end Cert.KernelIdeal.KSum

end
-- ==== Proof.RefStages.lean ====
/-
  The reference program's computation, stage by stage, as pure functions of its argument arrays, each spelled as the
  program spells it.  All pairs (i, j) of the 64 nodes of each of the 128 graphs are enumerated by one flat edge number
  n < 524288 = 128·64·64: graph n / 4096, first node (n mod 4096) / 64, second node (n mod 4096) mod 64.  The two
  node rows of `h` are gathered, set side by side (128 features), and passed through three dense layers
  (silu, silu, softplus); the edge loss is the root of the mean squared masked error over all edges.  The second
  result is a masked cross-entropy of `x_hat` (log-softmax, one entry picked per row by `categories`).
-/
import proofs.«124486_j14688788152450_2_alg».proof.Proof.Gen.ReferenceIdeal
import Idealize.ShloMosaic.PureOps

noncomputable section

namespace Cert.ReferenceIdeal.RefStages

open Cert.ReferenceIdeal Cert.ReferenceIdeal.Gen Idealize.ShloMosaic Idealize.ShloMosaic.TcCoe

variable {F : FTy → Type} [FloatOps F]

/-- A scalar spread over all edge numbers. -/
abbrev spread {α : Type} (d : S_.Idx → α) : S524288.Idx → α := broadcastInDim S524288 ![] bcast_S_S524288 d

/-- Floor division of every entry by a scalar, as jnp spells it on signed words: the truncated quotient, less one
    where the signs differ and the remainder is not zero. -/
def floorDiv (x : IVec S524288 32) (d : IVec S_ 32) : IVec S524288 32 :=
  select (andi (cmpi .ne (signi x) (spread (signi d)))
               (cmpi .ne (Host.remsi x (spread d)) (spread (constantI S_ 32 0#32))))
    (subi (Host.divsi x (spread d)) (spread (constantI S_ 32 1#32)))
    (Host.divsi x (spread d))

/-- The divisor a remainder is taken by: one in place of zero. -/
def safeDiv (d : IVec S_ 32) : IVec S_ 32 := select (cmpi .eq d (constantI S_ 32 0#32)) (constantI S_ 32 1#32) d

/-- The floor remainder of every entry by a scalar, as jnp spells it on signed words: the truncated remainder, plus
    the divisor where it is not zero and its sign differs from the divisor's. -/
def floorRem (x : IVec S524288 32) (d : IVec S_ 32) : IVec S524288 32 :=
  select (andi (cmpi .ne (cmpi .slt (Host.remsi x (spread (safeDiv d))) (spread (constantI S_ 32 0#32)))
                         (spread (cmpi .slt (safeDiv d) (constantI S_ 32 0#32))))
               (cmpi .ne (Host.remsi x (spread (safeDiv d))) (spread (constantI S_ 32 0#32))))
    (addi (Host.remsi x (spread (safeDiv d))) (spread (safeDiv d)))
    (Host.remsi x (spread (safeDiv d)))

/-- The edge numbers 0, 1, …, 524287. -/
def edgeNo : IVec S524288 32 := iotaInDim S524288 32 0
/-- The graph an edge belongs to. -/
def graphOf : IVec S524288 32 := floorDiv edgeNo (constantI S_ 32 4096#32)
/-- An edge's number within its graph. -/
def pairOf : IVec S524288 32 := floorRem edgeNo (constantI S_ 32 4096#32)
/-- The row of `h` holding an edge's first node. -/
def rowRaw : IVec S524288 32 :=
  addi (muli graphOf (spread (constantI S_ 32 64#32))) (floorDiv pairOf (constantI S_ 32 64#32))
/-- The row of `h` holding an edge's second node. -/
def colRaw : IVec S524288 32 :=
  addi (muli graphOf (spread (constantI S_ 32 64#32))) (floorRem pairOf (constantI S_ 32 64#32))
/-- numpy's reading of a negative row number: counted from the end. -/
def wrap (x : IVec S524288 32) : IVec S524288 32 :=
  select (cmpi .slt x (spread (constantI S_ 32 0#32))) (addi x (spread (constantI S_ 32 8192#32))) x
def rowIx : IVec S524288 32 := wrap rowRaw
def colIx : IVec S524288 32 := wrap colRaw

/-- One row of `h` per edge, at the given row numbers. -/
def takeRows (h : FVec F S8192x64 .f32) (ix : IVec S524288 32) : FVec F S524288x64 .f32 :=
  Host.gather gather_S8192x64_S524288x1_S524288x64_1_0_n_n_0_1_164 h
    (broadcastInDim S524288x1 ![0] bcast_S524288_S524288x1_0 ix)

/-- Per edge, its two nodes' feature rows side by side. -/
def pairs (h : FVec F S8192x64 .f32) : FVec F S524288x128 .f32 :=
  concatenate S524288x128 1 [⟨S524288x64, takeRows h rowIx⟩, ⟨S524288x64, takeRows h colIx⟩]
    concatenates_S524288x64_S524288x64_S524288x128_d1

/-- x · (1 / (1 + exp (−x))). -/
def silu (x : FVec F S524288x64 .f32) : FVec F S524288x64 .f32 :=
  mulf x (Host.divf (broadcastInDim S524288x64 ![] bcast_S_S524288x64 (constant S_ .f32 0x3F800000#32))
    (addf (broadcastInDim S524288x64 ![] bcast_S_S524288x64 (constant S_ .f32 0x3F800000#32)) (Host.exp (Host.negf x))))

/-- A bias row spread over all edges. -/
abbrev biasRows (b : FVec F S64 .f32) : FVec F S524288x64 .f32 :=
  broadcastInDim S524288x64 ![0, 1] bcast_S1x64_S524288x64_0_1 (broadcastInDim S1x64 ![1] bcast_S64_S1x64_1 b)

def hidden1 (h : FVec F S8192x64 .f32) (W1 : FVec F S128x64 .f32) (b1 : FVec F S64 .f32) : FVec F S524288x64 .f32 :=
  silu (addf (Host.dotGeneral dot_S524288x128_S128x64_S524288x64_1_0_0_1_n_n none (pairs h) W1) (biasRows b1))

def hidden2 (z : FVec F S524288x64 .f32) (W2 : FVec F S64x64 .f32) (b2 : FVec F S64 .f32) : FVec F S524288x64 .f32 :=
  silu (addf (Host.dotGeneral dot_S524288x64_S64x64_S524288x64_1_0_0_1_n_n none z W2) (biasRows b2))

/-- The zero column the softplus is spelled with. -/
abbrev zeroCol : FVec F S524288x1 .f32 := broadcastInDim S524288x1 ![] bcast_S_S524288x1 (constant S_ .f32 0x00000000#32)

/-- log (1 + exp x) as jnp.logaddexp x 0: max x 0 + log1p (exp (−|x − 0|)), guarded by a self-comparison. -/
def softplus (x : FVec F S524288x1 .f32) : FVec F S524288x1 .f32 :=
  select (cmpf .une (subf x zeroCol) (subf x zeroCol)) (addf x zeroCol)
    (addf (maximumf x zeroCol) (Host.log1p (Host.exp (Host.negf (Host.absf (subf x zeroCol))))))

def pred (z : FVec F S524288x64 .f32) (W3 : FVec F S64x1 .f32) (b3 : FVec F S1 .f32) : FVec F S524288x1 .f32 :=
  softplus (addf (Host.dotGeneral dot_S524288x64_S64x1_S524288x1_1_0_0_1_n_n none z W3)
    (broadcastInDim S524288x1 ![0, 1] bcast_S1x1_S524288x1_0_1 (broadcastInDim S1x1 ![1] bcast_S1_S1x1_1 b3)))

/-- The squared masked error per edge. -/
def sqErr (p tgt mask : FVec F S524288x1 .f32) : FVec F S524288x1 .f32 :=
  mulf (subf (mulf p mask) (mulf tgt mask)) (subf (mulf p mask) (mulf tgt mask))

/-- The root of the mean over all 524288 edges. -/
def rootMean (s : FVec F S524288x1 .f32) : FVec F S_ .f32 :=
  Host.sqrt (Host.divf (Host.reduceAdd s (constant S_ .f32 0x00000000#32) reducesTo_S524288x1_S_d0_1 h_S_)
    (constant S_ .f32 0x49000000#32))

def edgeLoss (h : FVec F S8192x64 .f32) (W1 : FVec F S128x64 .f32) (b1 : FVec F S64 .f32) (W2 : FVec F S64x64 .f32)
    (b2 : FVec F S64 .f32) (W3 : FVec F S64x1 .f32) (b3 : FVec F S1 .f32) (tgt mask : FVec F S524288x1 .f32) : FVec F S_ .f32 :=
  rootMean (sqErr (pred (hidden2 (hidden1 h W1 b1) W2 b2) W3 b3) tgt mask)

/-- Row-wise log-softmax of the 8192 × 6 scores. -/
def logSoftmax (x : FVec F S8192x6 .f32) : FVec F S8192x6 .f32 :=
  subf (subf x (broadcastInDim S8192x6 ![0, 1] bcast_S8192x1_S8192x6_0_1 (broadcastInDim S8192x1 ![0] bcast_S8192_S8192x1_0
      (maximumf (broadcastInDim S8192 ![] bcast_S_S8192 (constant S_ .f32 0xFF800000#32))
        (Host.reduce FloatOps.maximumf x (constant S_ .f32 0xFF800000#32) reducesTo_S8192x6_S8192_d1 h_S_)))))
    (broadcastInDim S8192x6 ![0, 1] bcast_S8192x1_S8192x6_0_1 (Host.log (broadcastInDim S8192x1 ![0] bcast_S8192_S8192x1_0
      (Host.reduceAdd (Host.exp (subf x (broadcastInDim S8192x6 ![0, 1] bcast_S8192x1_S8192x6_0_1 (broadcastInDim S8192x1 ![0] bcast_S8192_S8192x1_0
          (maximumf (broadcastInDim S8192 ![] bcast_S_S8192 (constant S_ .f32 0xFF800000#32))
            (Host.reduce FloatOps.maximumf x (constant S_ .f32 0xFF800000#32) reducesTo_S8192x6_S8192_d1 h_S_))))))
        (constant S_ .f32 0x00000000#32) reducesTo_S8192x6_S8192_d1 h_S_))))

/-- A column of class numbers read numpy's way (negative: from the end), as the index array of the gather. -/
def classIx (ix : IVec S8192x1 32) : IVec S8192x1x1 32 :=
  shapeCast S8192x1x1 (select (cmpi .slt ix (broadcastInDim S8192x1 ![] bcast_S_S8192x1 (constantI S_ 32 0#32)))
    (addi ix (broadcastInDim S8192x1 ![] bcast_S_S8192x1 (constantI S_ 32 6#32))) ix) shapeCasts_S8192x1_S8192x1x1

/-- One entry per row at the row's class number; the fill word where the number is out of range. -/
def takeAlong (lp : FVec F S8192x6 .f32) (ix : IVec S8192x1 32) : FVec F S8192x1 .f32 :=
  select (Host.reduce IntOp.andi
      (andi (cmpi .sge (classIx ix) (broadcastInDim S8192x1x1 ![] bcast_S_S8192x1x1 (constantI S_ 32 0#32)))
            (cmpi .sle (classIx ix) (broadcastInDim S8192x1x1 ![0, 1, 2] bcast_S1x1x1_S8192x1x1_0_1_2
              (broadcastInDim S1x1x1 ![2] bcast_S1_S1x1x1_2 (constantI S1 32 5#32)))))
      (constantI S_ 1 1#1) reducesTo_S8192x1x1_S8192x1_d2 h_S_)
    (Host.gather gather_S8192x6_S8192x1x1_S8192x1_n_1_0_0_1_2_11 lp (classIx ix))
    (broadcastInDim S8192x1 ![] bcast_S_S8192x1 (constant S_ .f32 0x7FC00000#32))

/-- The masked cross-entropy: minus the picked log-probabilities, times the node mask, summed, over 128. -/
def recLoss (xhat : FVec F S8192x6 .f32) (nodeMask : FVec F S8192x1 .f32) (cats : IVec S128x64 32) : FVec F S_ .f32 :=
  Host.divf (Host.reduceAdd
      (mulf (Host.negf (shapeCast S8192 (takeAlong (logSoftmax xhat)
          (broadcastInDim S8192x1 ![0] bcast_S8192_S8192x1_0 (shapeCast S8192 cats shapeCasts_S128x64_S8192))) shapeCasts_S8192x1_S8192))
        (shapeCast S8192 nodeMask shapeCasts_S8192x1_S8192))
      (constant S_ .f32 0x00000000#32) reducesTo_S8192_S_d0 h_S_)
    (constant S_ .f32 0x43000000#32)

/-- The two losses side by side. -/
def twoLosses (a b : FVec F S_ .f32) : FVec F S2 .f32 :=
  concatenate S2 0 [⟨S1, broadcastInDim S1 ![] bcast_S_S1 a⟩, ⟨S1, broadcastInDim S1 ![] bcast_S_S1 b⟩] concatenates_S1_S1_S2_d0

/-- The reference's result as one function of its twelve argument arrays. -/
def refOut (h : FVec F S8192x64 .f32) (W1 : FVec F S128x64 .f32) (b1 : FVec F S64 .f32) (W2 : FVec F S64x64 .f32)
    (b2 : FVec F S64 .f32) (W3 : FVec F S64x1 .f32) (b3 : FVec F S1 .f32) (tgt : FVec F S524288x1 .f32)
    (xhat : FVec F S8192x6 .f32) (mask : FVec F S524288x1 .f32) (nodeMask : FVec F S8192x1 .f32) (cats : IVec S128x64 32) :
    FVec F S2 .f32 :=
  twoLosses (edgeLoss h W1 b1 W2 b2 W3 b3 tgt mask) (recLoss xhat nodeMask cats)

end Cert.ReferenceIdeal.RefStages

end
-- ==== Proof.RefIndex.lean ====
/-
  The reference's integer index arithmetic and its two row gathers, read at an index.

  Edge number n < 524288 = 128 · 64 · 64 belongs to graph n / 4096 and is pair n mod 4096 of it: first node
  (n mod 4096) / 64, second node (n mod 4096) mod 64 = n mod 64.  The program computes these with jnp's floor division
  and remainder on signed 32-bit words.  Every word met here is a natural number below 2³¹ and every divisor (4096, 64)
  is positive, so the signed quotient and remainder are the natural-number ones, the sign corrections never fire, and
  the row numbers n / 4096 · 64 + (n mod 4096) / 64 and n / 4096 · 64 + n mod 64 are below 8192: reading a negative row
  number from the end changes nothing and the gather's clamp into 0 … 8191 is the identity.  Hence the 128 features of
  edge n are row n / 4096 · 64 + (n mod 4096) / 64 of h followed by row n / 4096 · 64 + n mod 64 of h.
-/
import proofs.«124486_j14688788152450_2_alg».proof.Proof.RefStages
import Idealize.ShloMosaic.Lib.ValueIdx
import Idealize.ShloMosaic.Lib.Pipeline.Value

noncomputable section

namespace Cert.ReferenceIdeal.RefIndex

open Cert.ReferenceIdeal Cert.ReferenceIdeal.Gen Idealize.ShloMosaic Idealize.ShloMosaic.TcCoe Idealize.ShloMosaic.ValueIdx
open Cert.ReferenceIdeal.RefStages

/-! ## Words below 2³¹

A natural number below 2³¹, written as a 32-bit word, reads back as itself, signed or unsigned, and its sign bit is
clear. Between two such words (the divisor not zero) the signed quotient and remainder are the natural-number ones. -/

theorem toNat_small (a : Nat) (ha : a < 2 ^ 31) : (BitVec.ofNat 32 a).toNat = a := by
  rw [BitVec.toNat_ofNat]; exact Nat.mod_eq_of_lt (by omega)

theorem msb_small (a : Nat) (ha : a < 2 ^ 31) : (BitVec.ofNat 32 a).msb = false := by
  rw [BitVec.msb_eq_false_iff_two_mul_lt, toNat_small a ha]; omega

theorem toInt_small (a : Nat) (ha : a < 2 ^ 31) : (BitVec.ofNat 32 a).toInt = (a : Int) := by
  rw [BitVec.toInt_eq_toNat_of_msb (msb_small a ha), toNat_small a ha]

theorem ne_zero_small (b : Nat) (hb0 : 0 < b) (hb : b < 2 ^ 31) : BitVec.ofNat 32 b ≠ 0 := by
  intro h
  have := congrArg BitVec.toNat h
  rw [toNat_small b hb] at this
  simp at this; omega

theorem not_corner_small (x : BitVec 32) (b : Nat) (hb0 : 0 < b) (hb : b < 2 ^ 31) :
    ¬ IntOp.SDivCorner x (BitVec.ofNat 32 b) := by
  rintro (h0 | ⟨-, h1⟩)
  · exact ne_zero_small b hb0 hb h0
  · have := congrArg BitVec.toNat h1
    rw [toNat_small b hb] at this
    have h2 : (-1 : BitVec 32).toNat = 4294967295 := by decide
    omega

/-- The signed quotient of two words below 2³¹ is the quotient of the numbers. -/
theorem divsi_small (u : ArithUnit) (a b : Nat) (ha : a < 2 ^ 31) (hb0 : 0 < b) (hb : b < 2 ^ 31) :
    IntOp.divsi u (BitVec.ofNat 32 a) (BitVec.ofNat 32 b) = BitVec.ofNat 32 (a / b) := by
  rw [IntOp.divsi, if_neg (not_corner_small _ b hb0 hb), BitVec.sdiv_eq, msb_small a ha, msb_small b hb]
  dsimp only
  rw [BitVec.udiv_eq]
  apply BitVec.eq_of_toNat_eq
  have hq : a / b < 2 ^ 31 := Nat.lt_of_le_of_lt (Nat.div_le_self _ _) ha
  rw [BitVec.toNat_udiv, toNat_small a ha, toNat_small b hb, toNat_small _ hq]

/-- The signed remainder of two words below 2³¹ is the remainder of the numbers. -/
theorem remsi_small (u : ArithUnit) (a b : Nat) (ha : a < 2 ^ 31) (hb0 : 0 < b) (hb : b < 2 ^ 31) :
    IntOp.remsi u (BitVec.ofNat 32 a) (BitVec.ofNat 32 b) = BitVec.ofNat 32 (a % b) := by
  rw [IntOp.remsi, if_neg (not_corner_small _ b hb0 hb), BitVec.srem_eq, msb_small a ha, msb_small b hb]
  dsimp only
  apply BitVec.eq_of_toNat_eq
  have hq : a % b < 2 ^ 31 := Nat.lt_of_le_of_lt (Nat.mod_le _ _) ha
  rw [BitVec.toNat_umod, toNat_small a ha, toNat_small b hb, toNat_small _ hq]

/-- A word below 2³¹ is not less than zero, read signed. -/
theorem slt_zero_small (a : Nat) (ha : a < 2 ^ 31) : IntOp.cmpi .slt (BitVec.ofNat 32 a) 0#32 = 0#1 := by
  have h : (BitVec.ofNat 32 a).slt 0#32 = false := by
    rw [Bool.eq_false_iff]
    intro hs
    rw [BitVec.slt_iff_toInt_lt, toInt_small a ha] at hs
    have : (0#32 : BitVec 32).toInt = 0 := by decide
    omega
  show BitVec.ofBool ((BitVec.ofNat 32 a).slt 0#32) = 0#1
  rw [h]; rfl

/-- The sign word of a 32-bit word: 0, −1 or 1. -/
def sgn (w : BitVec 32) : BitVec 32 := if w = 0 then 0 else if w.msb then -1 else 1

theorem sgn_pos (a : Nat) (ha0 : 0 < a) (ha : a < 2 ^ 31) : sgn (BitVec.ofNat 32 a) = 1 := by
  rw [sgn, if_neg (ne_zero_small a ha0 ha), msb_small a ha]; rfl

/-! ## jnp's floor division and remainder of words below 2³¹

With both words non-negative the sign correction never fires: either the signs agree, or the dividend is zero and so is
the remainder. -/

theorem and_bit_zero_left (c : BitVec 1) : IntOp.andi 0#1 c = 0#1 := by
  rcases BitVec.eq_zero_or_eq_one c with h | h <;> subst h <;> decide

theorem and_bit_zero_right (c : BitVec 1) : IntOp.andi c 0#1 = 0#1 := by
  rcases BitVec.eq_zero_or_eq_one c with h | h <;> subst h <;> decide

/-- Floor division of a word below 2³¹ by a positive one below 2³¹, as the program spells it, is the quotient. -/
theorem floorDiv_word (u : ArithUnit) (a b : Nat) (ha : a < 2 ^ 31) (hb0 : 0 < b) (hb : b < 2 ^ 31) :
    Scalar.select
      (IntOp.andi (IntOp.cmpi .ne (sgn (BitVec.ofNat 32 a)) (sgn (BitVec.ofNat 32 b)))
        (IntOp.cmpi .ne (IntOp.remsi u (BitVec.ofNat 32 a) (BitVec.ofNat 32 b)) 0#32))
      (IntOp.subi (IntOp.divsi u (BitVec.ofNat 32 a) (BitVec.ofNat 32 b)) 1#32)
      (IntOp.divsi u (BitVec.ofNat 32 a) (BitVec.ofNat 32 b)) = BitVec.ofNat 32 (a / b) := by
  have hc : IntOp.andi (IntOp.cmpi .ne (sgn (BitVec.ofNat 32 a)) (sgn (BitVec.ofNat 32 b)))
      (IntOp.cmpi .ne (IntOp.remsi u (BitVec.ofNat 32 a) (BitVec.ofNat 32 b)) 0#32) = 0#1 := by
    rcases Nat.eq_zero_or_pos a with h0 | h0
    · subst h0
      rw [remsi_small u 0 b ha hb0 hb, Nat.zero_mod]
      exact and_bit_zero_right _
    · rw [sgn_pos a h0 ha, sgn_pos b hb0 hb]
      exact and_bit_zero_left _
  rw [hc, select_zero, divsi_small u a b ha hb0 hb]

/-- The floor remainder of a word below 2³¹ by a positive one below 2³¹, as the program spells it, is the remainder. -/
theorem floorRem_word (u : ArithUnit) (a b : Nat) (ha : a < 2 ^ 31) (hb0 : 0 < b) (hb : b < 2 ^ 31) :
    Scalar.select
      (IntOp.andi
        (IntOp.cmpi .ne (IntOp.cmpi .slt (IntOp.remsi u (BitVec.ofNat 32 a) (BitVec.ofNat 32 b)) 0#32)
          (IntOp.cmpi .slt (BitVec.ofNat 32 b) 0#32))
        (IntOp.cmpi .ne (IntOp.remsi u (BitVec.ofNat 32 a) (BitVec.ofNat 32 b)) 0#32))
      (IntOp.addi (IntOp.remsi u (BitVec.ofNat 32 a) (BitVec.ofNat 32 b)) (BitVec.ofNat 32 b))
      (IntOp.remsi u (BitVec.ofNat 32 a) (BitVec.ofNat 32 b)) = BitVec.ofNat 32 (a % b) := by
  have hq : a % b < 2 ^ 31 := Nat.lt_of_le_of_lt (Nat.mod_le _ _) ha
  rw [remsi_small u a b ha hb0 hb, slt_zero_small _ hq, slt_zero_small b hb,
    show IntOp.cmpi .ne 0#1 0#1 = 0#1 from by decide, and_bit_zero_left, select_zero]

/-! ## The index arrays at an edge number -/

theorem signi_apply {s : Shape} (x : IVec s 32) (i : s.Idx) : signi x i = sgn (x i) := rfl

/-- The divisor a remainder is taken by, when the divisor is a positive number: the divisor. -/
theorem safe_word (b : Nat) (hb0 : 0 < b) (hb : b < 2 ^ 31) :
    Scalar.select (IntOp.cmpi .eq (BitVec.ofNat 32 b) 0#32) 1#32 (BitVec.ofNat 32 b) = BitVec.ofNat 32 b := by
  have h : IntOp.cmpi .eq (BitVec.ofNat 32 b) 0#32 = 0#1 := by
    show BitVec.ofBool (BitVec.ofNat 32 b == 0#32) = 0#1
    rw [show (BitVec.ofNat 32 b == 0#32) = false from by simpa using ne_zero_small b hb0 hb]; rfl
  rw [h, select_zero]

/-- Floor division of an array by a positive scalar, at an entry holding a number below 2³¹: the quotient. -/
theorem floorDiv_apply (x : IVec S524288 32) (b : Nat) (hb0 : 0 < b) (hb : b < 2 ^ 31) (i : S524288.Idx)
    (a : Nat) (ha : a < 2 ^ 31) (hx : x i = BitVec.ofNat 32 a) :
    floorDiv x (constantI S_ 32 (BitVec.ofNat 32 b)) i = BitVec.ofNat 32 (a / b) := by
  show Scalar.select
      (IntOp.andi (IntOp.cmpi .ne (sgn (x i)) (sgn (BitVec.ofNat 32 b)))
        (IntOp.cmpi .ne (IntOp.remsi .host (x i) (BitVec.ofNat 32 b)) 0#32))
      (IntOp.subi (IntOp.divsi .host (x i) (BitVec.ofNat 32 b)) 1#32)
      (IntOp.divsi .host (x i) (BitVec.ofNat 32 b)) = _
  rw [hx]; exact floorDiv_word .host a b ha hb0 hb

/-- The floor remainder of an array by a positive scalar, at an entry holding a number below 2³¹: the remainder. -/
theorem floorRem_apply (x : IVec S524288 32) (b : Nat) (hb0 : 0 < b) (hb : b < 2 ^ 31) (i : S524288.Idx)
    (a : Nat) (ha : a < 2 ^ 31) (hx : x i = BitVec.ofNat 32 a) :
    floorRem x (constantI S_ 32 (BitVec.ofNat 32 b)) i = BitVec.ofNat 32 (a % b) := by
  show Scalar.select
      (IntOp.andi
        (IntOp.cmpi .ne
          (IntOp.cmpi .slt (IntOp.remsi .host (x i)
            (Scalar.select (IntOp.cmpi .eq (BitVec.ofNat 32 b) 0#32) 1#32 (BitVec.ofNat 32 b))) 0#32)
          (IntOp.cmpi .slt (Scalar.select (IntOp.cmpi .eq (BitVec.ofNat 32 b) 0#32) 1#32 (BitVec.ofNat 32 b)) 0#32))
        (IntOp.cmpi .ne (IntOp.remsi .host (x i)
          (Scalar.select (IntOp.cmpi .eq (BitVec.ofNat 32 b) 0#32) 1#32 (BitVec.ofNat 32 b))) 0#32))
      (IntOp.addi (IntOp.remsi .host (x i)
          (Scalar.select (IntOp.cmpi .eq (BitVec.ofNat 32 b) 0#32) 1#32 (BitVec.ofNat 32 b)))
        (Scalar.select (IntOp.cmpi .eq (BitVec.ofNat 32 b) 0#32) 1#32 (BitVec.ofNat 32 b)))
      (IntOp.remsi .host (x i)
        (Scalar.select (IntOp.cmpi .eq (BitVec.ofNat 32 b) 0#32) 1#32 (BitVec.ofNat 32 b))) = _
  rw [safe_word b hb0 hb, hx]; exact floorRem_word .host a b ha hb0 hb

/-- Reading a negative row number from the end leaves a number below 2³¹ alone. -/
theorem wrap_apply (x : IVec S524288 32) (i : S524288.Idx) (a : Nat) (ha : a < 2 ^ 31)
    (hx : x i = BitVec.ofNat 32 a) : wrap x i = BitVec.ofNat 32 a := by
  show Scalar.select (IntOp.cmpi .slt (x i) 0#32) (IntOp.addi (x i) 8192#32) (x i) = _
  rw [hx, slt_zero_small a ha, select_zero]

theorem edgeNo_apply (n : Fin 524288) : edgeNo (ix1 n) = BitVec.ofNat 32 n.val := rfl

/-- The graph of edge n is n / 4096. -/
theorem graphOf_apply (n : Fin 524288) : graphOf (ix1 n) = BitVec.ofNat 32 (n.val / 4096) :=
  floorDiv_apply edgeNo 4096 (by omega) (by omega) (ix1 n) n.val (by omega) (edgeNo_apply n)

/-- Edge n is pair number n mod 4096 of its graph. -/
theorem pairOf_apply (n : Fin 524288) : pairOf (ix1 n) = BitVec.ofNat 32 (n.val % 4096) :=
  floorRem_apply edgeNo 4096 (by omega) (by omega) (ix1 n) n.val (by omega) (edgeNo_apply n)

theorem mul_add_word (g c q : Nat) :
    IntOp.addi (IntOp.muli (BitVec.ofNat 32 g) (BitVec.ofNat 32 c)) (BitVec.ofNat 32 q) = BitVec.ofNat 32 (g * c + q) := by
  rw [BitVec.ofNat_add, BitVec.ofNat_mul]; rfl

theorem rowRaw_apply (n : Fin 524288) :
    rowRaw (ix1 n) = BitVec.ofNat 32 (n.val / 4096 * 64 + n.val % 4096 / 64) := by
  show IntOp.addi (IntOp.muli (graphOf (ix1 n)) (BitVec.ofNat 32 64))
      (floorDiv pairOf (constantI S_ 32 (BitVec.ofNat 32 64)) (ix1 n)) = _
  rw [graphOf_apply, floorDiv_apply pairOf 64 (by omega) (by omega) (ix1 n) (n.val % 4096) (by omega) (pairOf_apply n)]
  exact mul_add_word _ _ _

theorem colRaw_apply (n : Fin 524288) :
    colRaw (ix1 n) = BitVec.ofNat 32 (n.val / 4096 * 64 + n.val % 64) := by
  show IntOp.addi (IntOp.muli (graphOf (ix1 n)) (BitVec.ofNat 32 64))
      (floorRem pairOf (constantI S_ 32 (BitVec.ofNat 32 64)) (ix1 n)) = _
  rw [graphOf_apply, floorRem_apply pairOf 64 (by omega) (by omega) (ix1 n) (n.val % 4096) (by omega) (pairOf_apply n),
    show n.val % 4096 % 64 = n.val % 64 from by omega]
  exact mul_add_word _ _ _

/-- The row holding the first node of edge n: node (n mod 4096) / 64 of graph n / 4096. -/
theorem rowIx_apply (n : Fin 524288) :
    rowIx (ix1 n) = BitVec.ofNat 32 (n.val / 4096 * 64 + n.val % 4096 / 64) :=
  wrap_apply rowRaw (ix1 n) _ (by omega) (rowRaw_apply n)

/-- The row holding the second node of edge n: node n mod 64 of graph n / 4096. -/
theorem colIx_apply (n : Fin 524288) :
    colIx (ix1 n) = BitVec.ofNat 32 (n.val / 4096 * 64 + n.val % 64) :=
  wrap_apply colRaw (ix1 n) _ (by omega) (colRaw_apply n)

/-! ## The row gather and the concatenation at an index -/

section Gather
variable {F : FTy → Type} [FloatOps F]

/-- The gather's dimension numbers: whole rows of an 8192 × 64 array, one start row per edge. -/
abbrev G : GatherDims S8192x64 S524288x1 S524288x64 := gather_S8192x64_S524288x1_S524288x64_1_0_n_n_0_1_164

/-- The column of start rows, read at the entry the gather reads for edge n: the row number of edge n. -/
theorem startCol_apply (ix : IVec S524288 32) (n : Fin 524288) (k : Fin 64) :
    broadcastInDim S524288x1 ![0] bcast_S524288_S524288x1_0 ix
      (G.siIdx (ix2 n k : S524288x64.Idx) ⟨List.idxOf (0 : Fin 2) G.startIndexMap,
        List.idxOf_lt_length_iff.2 (List.mem_singleton.mpr rfl)⟩) = ix (ix1 n) := by
  unfold broadcastInDim
  congr 1
  funext b
  match b with
  | ⟨0, _⟩ => exact Fin.ext rfl

/-- One gathered row at an index: the row of the operand at the start row read signed and clamped into 0 … 8191. -/
theorem takeRows_apply (h : FVec F S8192x64 .f32) (ix : IVec S524288 32) (n : Fin 524288) (k : Fin 64) :
    takeRows h ix (ix2 n k : S524288x64.Idx)
      = h (ix2 ⟨min (ix (ix1 n)).toInt.toNat 8191, by omega⟩ k : S8192x64.Idx) := by
  unfold takeRows Host.gather
  congr 1
  funext a
  refine Fin.ext ?_
  match a with
  | ⟨0, _⟩ =>
    show G.start (ix2 n k : S524288x64.Idx) _ 0 + G.batchCoord (ix2 n k : S524288x64.Idx) 0
      + G.offCoord (ix2 n k : S524288x64.Idx) 0 = min (ix (ix1 n)).toInt.toNat 8191
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ G.startIndexMap from List.mem_singleton.mpr rfl), startCol_apply ix n k]
    rfl
  | ⟨1, _⟩ =>
    show G.start (ix2 n k : S524288x64.Idx) _ 1 + G.batchCoord (ix2 n k : S524288x64.Idx) 1
      + G.offCoord (ix2 n k : S524288x64.Idx) 1 = k.val
    have hs : ∀ idx : IVec S524288x1 32, G.start (ix2 n k : S524288x64.Idx) idx 1 = 0 := by
      intro idx
      unfold GatherDims.start
      rw [dif_neg (by decide)]
    have ho : G.offCoord (ix2 n k : S524288x64.Idx) 1 = k.val := by
      unfold GatherDims.offCoord
      rw [dif_pos (by decide)]
      rfl
    rw [GatherDims.batchCoord_eq_zero _ _ _ List.not_mem_nil, hs, ho]
    omega

end Gather

/-! ## The two rows side by side -/

section Pairs
variable {F : FTy → Type} [FloatOps F]

/-- The first 64 features of an edge's pair are its first node's row. -/
theorem pairs_left_row (h : FVec F S8192x64 .f32) (n : Fin 524288) (k : Fin 64) :
    pairs h (ix2 n ⟨k.val, by omega⟩ : S524288x128.Idx) = takeRows h rowIx (ix2 n k : S524288x64.Idx) := by
  unfold pairs
  exact concatenate_pair_apply_left (1 : Fin S524288x128.rank) (takeRows h rowIx) (takeRows h colIx)
    concatenates_S524288x64_S524288x64_S524288x128_d1 (ix2 n ⟨k.val, by omega⟩ : S524288x128.Idx) rfl
    (ix2 n k : S524288x64.Idx) (fun b => match b with | ⟨0, _⟩ => rfl | ⟨1, _⟩ => rfl)

/-- The last 64 features of an edge's pair are its second node's row. -/
theorem pairs_right_row (h : FVec F S8192x64 .f32) (n : Fin 524288) (k : Fin 64) :
    pairs h (ix2 n ⟨64 + k.val, by omega⟩ : S524288x128.Idx) = takeRows h colIx (ix2 n k : S524288x64.Idx) := by
  unfold pairs
  exact concatenate_pair_apply_right (1 : Fin S524288x128.rank) (takeRows h rowIx) (takeRows h colIx)
    concatenates_S524288x64_S524288x64_S524288x128_d1 (ix2 n ⟨64 + k.val, by omega⟩ : S524288x128.Idx) rfl rfl
    (ix2 n k : S524288x64.Idx)
    (fun b hb => match b, hb with
      | ⟨0, _⟩, _ => rfl
      | ⟨1, _⟩, hb => absurd rfl hb)
    (by show k.val + 64 = 64 + k.val; omega)

/-- A row number below 8192, as a word, is read by the gather as itself. -/
theorem clamp_small (m : Nat) (hm : m < 8192) : min (BitVec.ofNat 32 m).toInt.toNat 8191 = m := by
  rw [toInt_small m (by omega), Int.toNat_natCast]; omega

/-- The first 64 features of edge n: row n / 4096 · 64 + (n mod 4096) / 64 of h. -/
theorem pairs_left (h : FVec F S8192x64 .f32) (n : Fin 524288) (k : Fin 64) :
    pairs h (ix2 n ⟨k.val, by omega⟩ : S524288x128.Idx)
      = h (ix2 ⟨n.val / 4096 * 64 + n.val % 4096 / 64, by omega⟩ k : S8192x64.Idx) := by
  rw [pairs_left_row, takeRows_apply]
  exact congrArg (fun r : Fin 8192 => h (ix2 r k : S8192x64.Idx))
    (Fin.ext (by show min (rowIx (ix1 n)).toInt.toNat 8191 = _; rw [rowIx_apply]; exact clamp_small _ (by omega)))

/-- The last 64 features of edge n: row n / 4096 · 64 + n mod 64 of h. -/
theorem pairs_right (h : FVec F S8192x64 .f32) (n : Fin 524288) (k : Fin 64) :
    pairs h (ix2 n ⟨64 + k.val, by omega⟩ : S524288x128.Idx)
      = h (ix2 ⟨n.val / 4096 * 64 + n.val % 64, by omega⟩ k : S8192x64.Idx) := by
  rw [pairs_right_row, takeRows_apply]
  exact congrArg (fun r : Fin 8192 => h (ix2 r k : S8192x64.Idx))
    (Fin.ext (by show min (colIx (ix1 n)).toInt.toNat 8191 = _; rw [colIx_apply]; exact clamp_small _ (by omega)))

end Pairs

end Cert.ReferenceIdeal.RefIndex

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«124486_j14688788152450_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.RefRead.lean ====
/-
  The reference's edge computation read at one edge, on the extended reals.

  Each dense layer of the reference is a host product of the per-edge feature rows with the layer's matrix, plus the
  bias row, passed through silu (the two hidden layers) or softplus (the score).  Read at the entry (n, c) the product is
  the sum over the shared axis; the bias row reads the bias at c; silu and softplus act entry by entry.  The first
  layer's 128-term sum splits into the sum over the first node's 64 features and the sum over the second node's 64.
  The squared masked error then reads entry by entry, and the root of the mean is the square root of the total over all
  524288 edges divided by 524288.
-/
import proofs.«124486_j14688788152450_2_alg».proof.Proof.RefStages
import proofs.«124486_j14688788152450_2_alg».proof.Proof.EdgeSpec
import proofs.«124486_j14688788152450_2_alg».proof.Proof.LibHostRowOps
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefRead

open Cert.ReferenceIdeal Cert.ReferenceIdeal.Gen Idealize.ShloMosaic Idealize.ShloMosaic.ValueIdx

/-! ## The two constants -/

/-- A float compared with itself by "unordered or not equal" answers no. -/
theorem cmp_une_self (x : EReal) : Ideal.cmp .une x x = 0#1 := by
  simp [Ideal.cmp]

/-! ## silu and a bias row at an entry -/

/-- silu acts entry by entry: x · (1 / (1 + exp (−x))). -/
theorem silu_apply (x : FVec Ideal S524288x64 .f32) (j : S524288x64.Idx) :
    RefStages.silu x j = EdgeSpec.silu (x j) := by
  show x j * Ideal.div (broadcastInDim S524288x64 ![] bcast_S_S524288x64 (constant (F := Ideal) S_ .f32 0x3F800000#32) j)
      ((broadcastInDim S524288x64 ![] bcast_S_S524288x64 (constant (F := Ideal) S_ .f32 0x3F800000#32) j) + Ideal.exp (-(x j)))
    = x j * Ideal.div 1 (1 + Ideal.exp (-(x j)))
  rw [broadcastInDim_scalar_apply, constant_apply, Ideal.ofBits_one_f32]

/-- A bias row spread over all edges reads the bias at the column. -/
theorem biasRows_apply (b : FVec Ideal S64 .f32) (n : Fin 524288) (c : Fin 64) :
    RefStages.biasRows b (ix2 n c) = b (ix1 c) := by
  show broadcastInDim S524288x64 ![0, 1] bcast_S1x64_S524288x64_0_1 (broadcastInDim S1x64 ![1] bcast_S64_S1x64_1 b) (ix2 n c)
    = b (ix1 c)
  rw [HostRowOps.rowToMat_apply, HostRowOps.vecToRow_apply]

/-! ## The hidden layers at an entry -/

/-- The first layer's product has the plain dimension numbers. -/
theorem plain1 : RowOps.IsPlain dot_S524288x128_S128x64_S524288x64_1_0_0_1_n_n := ⟨rfl, rfl, rfl, rfl, rfl, rfl⟩
theorem plain2 : RowOps.IsPlain dot_S524288x64_S64x64_S524288x64_1_0_0_1_n_n := ⟨rfl, rfl, rfl, rfl, rfl, rfl⟩
theorem plain3 : RowOps.IsPlain dot_S524288x64_S64x1_S524288x1_1_0_0_1_n_n := ⟨rfl, rfl, rfl, rfl, rfl, rfl⟩

/-- A sum over 128 coordinates is the sum over the first 64 plus the sum over the last 64. -/
theorem sum_128_split (f : Fin 128 → EReal) :
    ∑ k : Fin 128, f k = (∑ k : Fin 64, f (Fin.castAdd 64 k)) + ∑ k : Fin 64, f (Fin.natAdd 64 k) :=
  Fin.sum_univ_add (M := EReal) (a := 64) (b := 64) f

/-- A dense layer on 128 features, silu applied, at (n, c): e is the array of feature rows. -/
theorem layer128_apply (e : FVec Ideal S524288x128 .f32) (W1 : FVec Ideal S128x64 .f32) (b1 : FVec Ideal S64 .f32)
    (n : Fin 524288) (c : Fin 64) :
    RefStages.silu (addf (Host.dotGeneral dot_S524288x128_S128x64_S524288x64_1_0_0_1_n_n none e W1) (RefStages.biasRows b1)) (ix2 n c)
      = EdgeSpec.silu (((∑ k : Fin 64, e (ix2 n (Fin.castAdd 64 k)) * W1 (ix2 (Fin.castAdd 64 k) c))
          + (∑ k : Fin 64, e (ix2 n (Fin.natAdd 64 k)) * W1 (ix2 (Fin.natAdd 64 k) c))) + b1 (ix1 c)) := by
  rw [silu_apply, addf_apply, biasRows_apply, HostRowOps.dot_apply plain1,
    sum_128_split (fun k => e (ix2 n k) * W1 (ix2 k c))]

/-- The first hidden layer at (n, c). -/
theorem hidden1_apply (h : FVec Ideal S8192x64 .f32) (W1 : FVec Ideal S128x64 .f32) (b1 : FVec Ideal S64 .f32)
    (n : Fin 524288) (c : Fin 64) :
    RefStages.hidden1 h W1 b1 (ix2 n c)
      = EdgeSpec.layer1 (fun k : Fin 64 => RefStages.pairs h (ix2 n (Fin.castAdd 64 k)))
          (fun k : Fin 64 => RefStages.pairs h (ix2 n (Fin.natAdd 64 k)))
          (fun k c => W1 (ix2 (Fin.castAdd 64 k) c)) (fun k c => W1 (ix2 (Fin.natAdd 64 k) c)) (fun c => b1 (ix1 c)) c :=
  layer128_apply (RefStages.pairs h) W1 b1 n c

/-- The second hidden layer at (n, c). -/
theorem hidden2_apply (z : FVec Ideal S524288x64 .f32) (W2 : FVec Ideal S64x64 .f32) (b2 : FVec Ideal S64 .f32)
    (n : Fin 524288) (c : Fin 64) :
    RefStages.hidden2 z W2 b2 (ix2 n c)
      = EdgeSpec.layer2 (fun k : Fin 64 => z (ix2 n k)) (fun k c => W2 (ix2 k c)) (fun c => b2 (ix1 c)) c := by
  show RefStages.silu (addf (Host.dotGeneral dot_S524288x64_S64x64_S524288x64_1_0_0_1_n_n none z W2) (RefStages.biasRows b2)) (ix2 n c)
    = EdgeSpec.silu ((∑ k : Fin 64, z (ix2 n k) * W2 (ix2 k c)) + b2 (ix1 c))
  rw [silu_apply, addf_apply, biasRows_apply, HostRowOps.dot_apply plain2]

/-! ## The score and the squared error at an entry -/

/-- The zero column reads zero. -/
theorem zeroCol_apply (j : S524288x1.Idx) : RefStages.zeroCol (F := Ideal) j = 0 := by
  show broadcastInDim S524288x1 ![] bcast_S_S524288x1 (constant (F := Ideal) S_ .f32 0x00000000#32) j = 0
  rw [broadcastInDim_scalar_apply, constant_apply, Ideal.ofBits_zero_f32]

/-- softplus acts entry by entry: the self-comparison never fires, and x − 0 = x. -/
theorem softplus_apply (x : FVec Ideal S524288x1 .f32) (j : S524288x1.Idx) :
    RefStages.softplus x j = EdgeSpec.softplus (x j) := by
  show Scalar.select (Ideal.cmp .une (x j - RefStages.zeroCol (F := Ideal) j) (x j - RefStages.zeroCol (F := Ideal) j))
      (x j + RefStages.zeroCol (F := Ideal) j)
      (max (x j) (RefStages.zeroCol (F := Ideal) j)
        + Ideal.log1p (Ideal.exp (-(max (x j - RefStages.zeroCol (F := Ideal) j) (-(x j - RefStages.zeroCol (F := Ideal) j))))))
    = max (x j) 0 + Ideal.log1p (Ideal.exp (-(max (x j) (-(x j)))))
  rw [cmp_une_self, select_zero, zeroCol_apply, sub_zero]

/-- The score's bias, spread over all edges, reads the one bias. -/
theorem biasCol_apply (b3 : FVec Ideal S1 .f32) (n : Fin 524288) :
    broadcastInDim S524288x1 ![0, 1] bcast_S1x1_S524288x1_0_1 (broadcastInDim S1x1 ![1] bcast_S1_S1x1_1 b3) (ix2 n (0 : Fin 1))
      = b3 (ix1 (0 : Fin 1)) := by
  rw [HostRowOps.rowToMat_apply, HostRowOps.vecToRow_apply]

/-- The predicted edge weight at edge n. -/
theorem pred_apply (z : FVec Ideal S524288x64 .f32) (W3 : FVec Ideal S64x1 .f32) (b3 : FVec Ideal S1 .f32) (n : Fin 524288) :
    RefStages.pred z W3 b3 (ix2 n (0 : Fin 1))
      = EdgeSpec.score (fun k : Fin 64 => z (ix2 n k)) (fun k => W3 (ix2 k (0 : Fin 1))) (b3 (ix1 (0 : Fin 1))) := by
  show RefStages.softplus (addf (Host.dotGeneral dot_S524288x64_S64x1_S524288x1_1_0_0_1_n_n none z W3)
      (broadcastInDim S524288x1 ![0, 1] bcast_S1x1_S524288x1_0_1 (broadcastInDim S1x1 ![1] bcast_S1_S1x1_1 b3))) (ix2 n (0 : Fin 1))
    = EdgeSpec.softplus ((∑ k : Fin 64, z (ix2 n k) * W3 (ix2 k (0 : Fin 1))) + b3 (ix1 (0 : Fin 1)))
  rw [softplus_apply, addf_apply, biasCol_apply, HostRowOps.dot_apply plain3]

/-- The squared masked error acts entry by entry. -/
theorem sqErr_apply (p tgt mask : FVec Ideal S524288x1 .f32) (j : S524288x1.Idx) :
    RefStages.sqErr p tgt mask j = EdgeSpec.sqErr (p j) (tgt j) (mask j) := rfl

/-! ## One edge's squared error -/

/-- The reference's squared masked error at edge n is the specification's, at the edge's two feature rows. -/
theorem sq_apply (h : FVec Ideal S8192x64 .f32) (W1 : FVec Ideal S128x64 .f32) (b1 : FVec Ideal S64 .f32)
    (W2 : FVec Ideal S64x64 .f32) (b2 : FVec Ideal S64 .f32) (W3 : FVec Ideal S64x1 .f32) (b3 : FVec Ideal S1 .f32)
    (tgt mask : FVec Ideal S524288x1 .f32) (n : Fin 524288) :
    RefStages.sqErr (RefStages.pred (RefStages.hidden2 (RefStages.hidden1 h W1 b1) W2 b2) W3 b3) tgt mask (ValueIdx.ix2 n (0 : Fin 1))
      = EdgeSpec.edgeSq (fun k : Fin 64 => RefStages.pairs h (ValueIdx.ix2 n (Fin.castAdd 64 k)))
          (fun k : Fin 64 => RefStages.pairs h (ValueIdx.ix2 n (Fin.natAdd 64 k)))
          (fun k c => W1 (ValueIdx.ix2 (Fin.castAdd 64 k) c)) (fun k c => W1 (ValueIdx.ix2 (Fin.natAdd 64 k) c))
          (fun c => b1 (ValueIdx.ix1 c))
          (fun k c => W2 (ValueIdx.ix2 k c)) (fun c => b2 (ValueIdx.ix1 c)) (fun k => W3 (ValueIdx.ix2 k (0 : Fin 1)))
          (b3 (ValueIdx.ix1 (0 : Fin 1)))
          (tgt (ValueIdx.ix2 n (0 : Fin 1))) (mask (ValueIdx.ix2 n (0 : Fin 1))) := by
  rw [sqErr_apply, pred_apply]
  simp only [hidden2_apply, hidden1_apply]
  rfl

/-! ## The root of the mean -/

/-- The root of the mean: the square root of the total over all edges divided by 524288 (as its f32 pattern). -/
theorem rootMean_eq (s : FVec Ideal S524288x1 .f32) (j : S_.Idx) :
    RefStages.rootMean s j
      = Ideal.sqrt (Ideal.div (∑ n : Fin 524288, s (ValueIdx.ix2 n (0 : Fin 1))) (Ideal.ofBits .f32 0x49000000#32)) := by
  show Ideal.sqrt (Ideal.div (Host.reduceAdd s (constant (F := Ideal) S_ .f32 0x00000000#32) reducesTo_S524288x1_S_d0_1 h_S_ j)
      (constant (F := Ideal) S_ .f32 0x49000000#32 j))
    = _
  rw [hostReduceAdd_apply, Ideal.hostReduceAdd_total reducesTo_S524288x1_S_d0_1 (fun b => b.elim0), constant_apply, constant_apply,
    Ideal.ofBits_zero_f32, zero_add, sum_idx2]
  simp only [Fin.sum_univ_one]

end Cert.ReferenceIdeal.RefRead

end
-- ==== Proof.RSum.lean ====
/-
  The reference program's edge loss as a sum over edges: the squared masked error at edge n is the specification's at
  the edge's two feature rows (the gathered rows read through the index arithmetic), and the edge loss is the root of
  the total over all 524288 edges divided by 524288.
-/
import proofs.«124486_j14688788152450_2_alg».proof.Proof.RefStages
import proofs.«124486_j14688788152450_2_alg».proof.Proof.RefIndex
import proofs.«124486_j14688788152450_2_alg».proof.Proof.RefRead
import proofs.«124486_j14688788152450_2_alg».proof.Proof.EdgeOf

noncomputable section

open Idealize.ShloMosaic Idealize.ShloMosaic.ValueIdx

namespace Cert.ReferenceIdeal.RSum

open Cert.ReferenceIdeal Cert.ReferenceIdeal.Gen

/-- The reference's squared masked error at edge n, from the argument arrays as plain functions. -/
theorem sq_edge (h : FVec Ideal S8192x64 .f32) (W1 : FVec Ideal S128x64 .f32) (b1 : FVec Ideal S64 .f32)
    (W2 : FVec Ideal S64x64 .f32) (b2 : FVec Ideal S64 .f32) (W3 : FVec Ideal S64x1 .f32) (b3 : FVec Ideal S1 .f32)
    (tgt mask : FVec Ideal S524288x1 .f32) (n : Fin 524288) :
    RefStages.sqErr (RefStages.pred (RefStages.hidden2 (RefStages.hidden1 h W1 b1) W2 b2) W3 b3) tgt mask (ix2 n (0 : Fin 1))
      = EdgeOf.edgeOf (fun r k => h (ix2 r k)) (fun k c => W1 (ix2 k c)) (fun c => b1 (ix1 c)) (fun k c => W2 (ix2 k c))
          (fun c => b2 (ix1 c)) (fun k => W3 (ix2 k (0 : Fin 1))) (b3 (ix1 (0 : Fin 1)))
          (fun n => tgt (ix2 n (0 : Fin 1))) (fun n => mask (ix2 n (0 : Fin 1))) n := by
  rw [RefRead.sq_apply]
  unfold EdgeOf.edgeOf
  refine EdgeOf.edgeSq_congr (fun k => ?_) (fun k => ?_) (fun _ _ => rfl) (fun _ _ => rfl) (fun _ => rfl) (fun _ _ => rfl)
    (fun _ => rfl) (fun _ => rfl) rfl rfl rfl
  · exact RefIndex.pairs_left h n k
  · exact RefIndex.pairs_right h n k

/-- The reference's edge loss: the root of the mean of all edges' squared errors. -/
theorem edgeLoss_eq (h : FVec Ideal S8192x64 .f32) (W1 : FVec Ideal S128x64 .f32) (b1 : FVec Ideal S64 .f32)
    (W2 : FVec Ideal S64x64 .f32) (b2 : FVec Ideal S64 .f32) (W3 : FVec Ideal S64x1 .f32) (b3 : FVec Ideal S1 .f32)
    (tgt mask : FVec Ideal S524288x1 .f32) (j : S_.Idx) :
    RefStages.edgeLoss h W1 b1 W2 b2 W3 b3 tgt mask j
      = Ideal.sqrt (Ideal.div (∑ n : Fin 524288,
          EdgeOf.edgeOf (fun r k => h (ix2 r k)) (fun k c => W1 (ix2 k c)) (fun c => b1 (ix1 c)) (fun k c => W2 (ix2 k c))
            (fun c => b2 (ix1 c)) (fun k => W3 (ix2 k (0 : Fin 1))) (b3 (ix1 (0 : Fin 1)))
            (fun n => tgt (ix2 n (0 : Fin 1))) (fun n => mask (ix2 n (0 : Fin 1))) n)
          (Ideal.ofBits .f32 0x49000000#32)) := by
  unfold RefStages.edgeLoss
  rw [RefRead.rootMean_eq]
  simp only [sq_edge]

end Cert.ReferenceIdeal.RSum

end
-- ==== Proof.RefRun.lean ====
/-
  The reference program's @main as one straight line of StableHLO operations, and its run.

  @main calls nine module-local functions (floor_divide and remainder twice each, silu twice, softplus, log_softmax,
  take_along_axis; floor_divide itself calls _where, remainder calls _where_0).  A call is its callee's body at the
  call's buffer record, so @main is the line of its own 66 operations with the callees' operations standing where the
  calls stand: 211 operations, one per tensor value, each writing the value's own buffer (buffers 12 … 222 of the
  table, in order) with the pure function of the printed statement.  Every weakly fair execution of that line
  terminates with each buffer at the fold of the operations' results over the launch contents.
-/
import proofs.«124486_j14688788152450_2_alg».proof.Proof.Gen.ReferenceIdeal
import Idealize.ShloMosaic.Lib.StableHlo.Run

set_option maxHeartbeats 40000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 211 operations in order, the calls unfolded: a callee's operation is stated over the call's record
    (its argument references the caller's values), with the function of the callee's printed line. -/
abbrev ops : List (HloOp τ sig (Elt F)) :=
  [ StableHlo.nullary main_v0 (iotaInDim S524288 32 0),  -- %0 = stablehlo.iota dim = 0
    StableHlo.nullary main_c (constantI S_ 32 4096#32),  -- %c = stablehlo.constant dense<4096>
    StableHlo.TRef.unary (.of main_c : StableHlo.TRef sig ⟨S_, .i32⟩) main_call0.v0 id,  -- @floor_divide: %0 = stablehlo.convert %arg1
    StableHlo.TRef.unary main_call0.v0 main_call0.v1 (broadcastInDim S524288 ![] bcast_S_S524288),  -- @floor_divide: %1 = stablehlo.broadcast_in_dim %0, dims = []
    StableHlo.TRef.binary (.of main_v0 : StableHlo.TRef sig ⟨S524288, .i32⟩) main_call0.v1 main_call0.v2 Host.divsi,  -- @floor_divide: %2 = stablehlo.divide %arg0, %1
    StableHlo.TRef.unary (.of main_v0 : StableHlo.TRef sig ⟨S524288, .i32⟩) main_call0.v3 signi,  -- @floor_divide: %3 = stablehlo.sign %arg0
    StableHlo.TRef.unary main_call0.v0 main_call0.v4 signi,  -- @floor_divide: %4 = stablehlo.sign %0
    StableHlo.TRef.unary main_call0.v4 main_call0.v5 (broadcastInDim S524288 ![] bcast_S_S524288),  -- @floor_divide: %5 = stablehlo.broadcast_in_dim %4, dims = []
    StableHlo.TRef.binary main_call0.v3 main_call0.v5 main_call0.v6 (cmpi .ne),  -- @floor_divide: %6 = stablehlo.compare NE, %3, %5, SIGNED
    StableHlo.TRef.unary main_call0.v0 main_call0.v7 (broadcastInDim S524288 ![] bcast_S_S524288),  -- @floor_divide: %7 = stablehlo.broadcast_in_dim %0, dims = []
    StableHlo.TRef.binary (.of main_v0 : StableHlo.TRef sig ⟨S524288, .i32⟩) main_call0.v7 main_call0.v8 Host.remsi,  -- @floor_divide: %8 = stablehlo.remainder %arg0, %7
    StableHlo.TRef.nullary main_call0.c (constantI S_ 32 0#32),  -- @floor_divide: %c = stablehlo.constant dense<0>
    StableHlo.TRef.unary main_call0.c main_call0.v9 (broadcastInDim S524288 ![] bcast_S_S524288),  -- @floor_divide: %9 = stablehlo.broadcast_in_dim %c, dims = []
    StableHlo.TRef.binary main_call0.v8 main_call0.v9 main_call0.v10 (cmpi .ne),  -- @floor_divide: %10 = stablehlo.compare NE, %8, %9, SIGNED
    StableHlo.TRef.binary main_call0.v6 main_call0.v10 main_call0.v11 andi,  -- @floor_divide: %11 = stablehlo.and %6, %10
    StableHlo.TRef.nullary main_call0.c_0 (constantI S_ 32 1#32),  -- @floor_divide: %c_0 = stablehlo.constant dense<1>
    StableHlo.TRef.unary main_call0.c_0 main_call0.v12 (broadcastInDim S524288 ![] bcast_S_S524288),  -- @floor_divide: %12 = stablehlo.broadcast_in_dim %c_0, dims = []
    StableHlo.TRef.binary main_call0.v2 main_call0.v12 main_call0.v13 subi,  -- @floor_divide: %13 = stablehlo.subtract %2, %12
    StableHlo.TRef.ternary main_call0.v11 main_call0.v13 main_call0.v2 main_call0.call0.v0 select,  -- @floor_divide>@where: %0 = stablehlo.select %arg0, %arg1, %arg2
    StableHlo.nullary main_c_0 (constantI S_ 32 4096#32),  -- %c_0 = stablehlo.constant dense<4096>
    StableHlo.TRef.unary (.of main_c_0 : StableHlo.TRef sig ⟨S_, .i32⟩) main_call1.v0 id,  -- @remainder: %0 = stablehlo.convert %arg1
    StableHlo.TRef.nullary main_call1.c (constantI S_ 32 0#32),  -- @remainder: %c = stablehlo.constant dense<0>
    StableHlo.TRef.binary main_call1.v0 main_call1.c main_call1.v1 (cmpi .eq),  -- @remainder: %1 = stablehlo.compare EQ, %0, %c, SIGNED
    StableHlo.TRef.nullary main_call1.c_0 (constantI S_ 32 1#32),  -- @remainder: %c_0 = stablehlo.constant dense<1>
    StableHlo.TRef.ternary main_call1.v1 main_call1.c_0 main_call1.v0 main_call1.call0.v0 select,  -- @remainder>@where_0: %0 = stablehlo.select %arg0, %arg1, %arg2
    StableHlo.TRef.unary main_call1.call0.v0 main_call1.v3 (broadcastInDim S524288 ![] bcast_S_S524288),  -- @remainder: %3 = stablehlo.broadcast_in_dim %2, dims = []
    StableHlo.TRef.binary (.of main_v0 : StableHlo.TRef sig ⟨S524288, .i32⟩) main_call1.v3 main_call1.v4 Host.remsi,  -- @remainder: %4 = stablehlo.remainder %arg0, %3
    StableHlo.TRef.nullary main_call1.c_1 (constantI S_ 32 0#32),  -- @remainder: %c_1 = stablehlo.constant dense<0>
    StableHlo.TRef.unary main_call1.c_1 main_call1.v5 (broadcastInDim S524288 ![] bcast_S_S524288),  -- @remainder: %5 = stablehlo.broadcast_in_dim %c_1, dims = []
    StableHlo.TRef.binary main_call1.v4 main_call1.v5 main_call1.v6 (cmpi .ne),  -- @remainder: %6 = stablehlo.compare NE, %4, %5, SIGNED
    StableHlo.TRef.nullary main_call1.c_2 (constantI S_ 32 0#32),  -- @remainder: %c_2 = stablehlo.constant dense<0>
    StableHlo.TRef.unary main_call1.c_2 main_call1.v7 (broadcastInDim S524288 ![] bcast_S_S524288),  -- @remainder: %7 = stablehlo.broadcast_in_dim %c_2, dims = []
    StableHlo.TRef.binary main_call1.v4 main_call1.v7 main_call1.v8 (cmpi .slt),  -- @remainder: %8 = stablehlo.compare LT, %4, %7, SIGNED
    StableHlo.TRef.nullary main_call1.c_3 (constantI S_ 32 0#32),  -- @remainder: %c_3 = stablehlo.constant dense<0>
    StableHlo.TRef.binary main_call1.call0.v0 main_call1.c_3 main_call1.v9 (cmpi .slt),  -- @remainder: %9 = stablehlo.compare LT, %2, %c_3, SIGNED
    StableHlo.TRef.unary main_call1.v9 main_call1.v10 (broadcastInDim S524288 ![] bcast_S_S524288),  -- @remainder: %10 = stablehlo.broadcast_in_dim %9, dims = []
    StableHlo.TRef.binary main_call1.v8 main_call1.v10 main_call1.v11 (cmpi .ne),  -- @remainder: %11 = stablehlo.compare NE, %8, %10, UNSIGNED
    StableHlo.TRef.binary main_call1.v11 main_call1.v6 main_call1.v12 andi,  -- @remainder: %12 = stablehlo.and %11, %6
    StableHlo.TRef.unary main_call1.call0.v0 main_call1.v13 (broadcastInDim S524288 ![] bcast_S_S524288),  -- @remainder: %13 = stablehlo.broadcast_in_dim %2, dims = []
    StableHlo.TRef.binary main_call1.v4 main_call1.v13 main_call1.v14 addi,  -- @remainder: %14 = stablehlo.add %4, %13
    StableHlo.TRef.ternary main_call1.v12 main_call1.v14 main_call1.v4 main_call1.v15 select,  -- @remainder: %15 = stablehlo.select %12, %14, %4
    StableHlo.nullary main_c_1 (constantI S_ 32 64#32),  -- %c_1 = stablehlo.constant dense<64>
    StableHlo.unary main_c_1 main_v3 (broadcastInDim S524288 ![] bcast_S_S524288 : (⟨S_, .i32⟩ : BufTy).Contents (Elt F) → (⟨S524288, .i32⟩ : BufTy).Contents (Elt F)),  -- %3 = stablehlo.broadcast_in_dim %c_1, dims = []
    StableHlo.binary main_v1 main_v3 main_v4 (muli : (⟨S524288, .i32⟩ : BufTy).Contents (Elt F) → (⟨S524288, .i32⟩ : BufTy).Contents (Elt F) → (⟨S524288, .i32⟩ : BufTy).Contents (Elt F)),  -- %4 = stablehlo.multiply %1, %3
    StableHlo.nullary main_c_2 (constantI S_ 32 64#32),  -- %c_2 = stablehlo.constant dense<64>
    StableHlo.TRef.unary (.of main_c_2 : StableHlo.TRef sig ⟨S_, .i32⟩) main_call2.v0 id,  -- @floor_divide: %0 = stablehlo.convert %arg1
    StableHlo.TRef.unary main_call2.v0 main_call2.v1 (broadcastInDim S524288 ![] bcast_S_S524288),  -- @floor_divide: %1 = stablehlo.broadcast_in_dim %0, dims = []
    StableHlo.TRef.binary (.of main_v2 : StableHlo.TRef sig ⟨S524288, .i32⟩) main_call2.v1 main_call2.v2 Host.divsi,  -- @floor_divide: %2 = stablehlo.divide %arg0, %1
    StableHlo.TRef.unary (.of main_v2 : StableHlo.TRef sig ⟨S524288, .i32⟩) main_call2.v3 signi,  -- @floor_divide: %3 = stablehlo.sign %arg0
    StableHlo.TRef.unary main_call2.v0 main_call2.v4 signi,  -- @floor_divide: %4 = stablehlo.sign %0
    StableHlo.TRef.unary main_call2.v4 main_call2.v5 (broadcastInDim S524288 ![] bcast_S_S524288),  -- @floor_divide: %5 = stablehlo.broadcast_in_dim %4, dims = []
    StableHlo.TRef.binary main_call2.v3 main_call2.v5 main_call2.v6 (cmpi .ne),  -- @floor_divide: %6 = stablehlo.compare NE, %3, %5, SIGNED
    StableHlo.TRef.unary main_call2.v0 main_call2.v7 (broadcastInDim S524288 ![] bcast_S_S524288),  -- @floor_divide: %7 = stablehlo.broadcast_in_dim %0, dims = []
    StableHlo.TRef.binary (.of main_v2 : StableHlo.TRef sig ⟨S524288, .i32⟩) main_call2.v7 main_call2.v8 Host.remsi,  -- @floor_divide: %8 = stablehlo.remainder %arg0, %7
    StableHlo.TRef.nullary main_call2.c (constantI S_ 32 0#32),  -- @floor_divide: %c = stablehlo.constant dense<0>
    StableHlo.TRef.unary main_call2.c main_call2.v9 (broadcastInDim S524288 ![] bcast_S_S524288),  -- @floor_divide: %9 = stablehlo.broadcast_in_dim %c, dims = []
    StableHlo.TRef.binary main_call2.v8 main_call2.v9 main_call2.v10 (cmpi .ne),  -- @floor_divide: %10 = stablehlo.compare NE, %8, %9, SIGNED
    StableHlo.TRef.binary main_call2.v6 main_call2.v10 main_call2.v11 andi,  -- @floor_divide: %11 = stablehlo.and %6, %10
    StableHlo.TRef.nullary main_call2.c_0 (constantI S_ 32 1#32),  -- @floor_divide: %c_0 = stablehlo.constant dense<1>
    StableHlo.TRef.unary main_call2.c_0 main_call2.v12 (broadcastInDim S524288 ![] bcast_S_S524288),  -- @floor_divide: %12 = stablehlo.broadcast_in_dim %c_0, dims = []
    StableHlo.TRef.binary main_call2.v2 main_call2.v12 main_call2.v13 subi,  -- @floor_divide: %13 = stablehlo.subtract %2, %12
    StableHlo.TRef.ternary main_call2.v11 main_call2.v13 main_call2.v2 main_call2.call0.v0 select,  -- @floor_divide>@where: %0 = stablehlo.select %arg0, %arg1, %arg2
    StableHlo.binary main_v4 main_v5 main_v6 (addi : (⟨S524288, .i32⟩ : BufTy).Contents (Elt F) → (⟨S524288, .i32⟩ : BufTy).Contents (Elt F) → (⟨S524288, .i32⟩ : BufTy).Contents (Elt F)),  -- %6 = stablehlo.add %4, %5
    StableHlo.nullary main_c_3 (constantI S_ 32 64#32),  -- %c_3 = stablehlo.constant dense<64>
    StableHlo.unary main_c_3 main_v7 (broadcastInDim S524288 ![] bcast_S_S524288 : (⟨S_, .i32⟩ : BufTy).Contents (Elt F) → (⟨S524288, .i32⟩ : BufTy).Contents (Elt F)),  -- %7 = stablehlo.broadcast_in_dim %c_3, dims = []
    StableHlo.binary main_v1 main_v7 main_v8 (muli : (⟨S524288, .i32⟩ : BufTy).Contents (Elt F) → (⟨S524288, .i32⟩ : BufTy).Contents (Elt F) → (⟨S524288, .i32⟩ : BufTy).Contents (Elt F)),  -- %8 = stablehlo.multiply %1, %7
    StableHlo.nullary main_c_4 (constantI S_ 32 64#32),  -- %c_4 = stablehlo.constant dense<64>
    StableHlo.TRef.unary (.of main_c_4 : StableHlo.TRef sig ⟨S_, .i32⟩) main_call3.v0 id,  -- @remainder: %0 = stablehlo.convert %arg1
    StableHlo.TRef.nullary main_call3.c (constantI S_ 32 0#32),  -- @remainder: %c = stablehlo.constant dense<0>
    StableHlo.TRef.binary main_call3.v0 main_call3.c main_call3.v1 (cmpi .eq),  -- @remainder: %1 = stablehlo.compare EQ, %0, %c, SIGNED
    StableHlo.TRef.nullary main_call3.c_0 (constantI S_ 32 1#32),  -- @remainder: %c_0 = stablehlo.constant dense<1>
    StableHlo.TRef.ternary main_call3.v1 main_call3.c_0 main_call3.v0 main_call3.call0.v0 select,  -- @remainder>@where_0: %0 = stablehlo.select %arg0, %arg1, %arg2
    StableHlo.TRef.unary main_call3.call0.v0 main_call3.v3 (broadcastInDim S524288 ![] bcast_S_S524288),  -- @remainder: %3 = stablehlo.broadcast_in_dim %2, dims = []
    StableHlo.TRef.binary (.of main_v2 : StableHlo.TRef sig ⟨S524288, .i32⟩) main_call3.v3 main_call3.v4 Host.remsi,  -- @remainder: %4 = stablehlo.remainder %arg0, %3
    StableHlo.TRef.nullary main_call3.c_1 (constantI S_ 32 0#32),  -- @remainder: %c_1 = stablehlo.constant dense<0>
    StableHlo.TRef.unary main_call3.c_1 main_call3.v5 (broadcastInDim S524288 ![] bcast_S_S524288),  -- @remainder: %5 = stablehlo.broadcast_in_dim %c_1, dims = []
    StableHlo.TRef.binary main_call3.v4 main_call3.v5 main_call3.v6 (cmpi .ne),  -- @remainder: %6 = stablehlo.compare NE, %4, %5, SIGNED
    StableHlo.TRef.nullary main_call3.c_2 (constantI S_ 32 0#32),  -- @remainder: %c_2 = stablehlo.constant dense<0>
    StableHlo.TRef.unary main_call3.c_2 main_call3.v7 (broadcastInDim S524288 ![] bcast_S_S524288),  -- @remainder: %7 = stablehlo.broadcast_in_dim %c_2, dims = []
    StableHlo.TRef.binary main_call3.v4 main_call3.v7 main_call3.v8 (cmpi .slt),  -- @remainder: %8 = stablehlo.compare LT, %4, %7, SIGNED
    StableHlo.TRef.nullary main_call3.c_3 (constantI S_ 32 0#32),  -- @remainder: %c_3 = stablehlo.constant dense<0>
    StableHlo.TRef.binary main_call3.call0.v0 main_call3.c_3 main_call3.v9 (cmpi .slt),  -- @remainder: %9 = stablehlo.compare LT, %2, %c_3, SIGNED
    StableHlo.TRef.unary main_call3.v9 main_call3.v10 (broadcastInDim S524288 ![] bcast_S_S524288),  -- @remainder: %10 = stablehlo.broadcast_in_dim %9, dims = []
    StableHlo.TRef.binary main_call3.v8 main_call3.v10 main_call3.v11 (cmpi .ne),  -- @remainder: %11 = stablehlo.compare NE, %8, %10, UNSIGNED
    StableHlo.TRef.binary main_call3.v11 main_call3.v6 main_call3.v12 andi,  -- @remainder: %12 = stablehlo.and %11, %6
    StableHlo.TRef.unary main_call3.call0.v0 main_call3.v13 (broadcastInDim S524288 ![] bcast_S_S524288),  -- @remainder: %13 = stablehlo.broadcast_in_dim %2, dims = []
    StableHlo.TRef.binary main_call3.v4 main_call3.v13 main_call3.v14 addi,  -- @remainder: %14 = stablehlo.add %4, %13
    StableHlo.TRef.ternary main_call3.v12 main_call3.v14 main_call3.v4 main_call3.v15 select,  -- @remainder: %15 = stablehlo.select %12, %14, %4
    StableHlo.binary main_v8 main_v9 main_v10 (addi : (⟨S524288, .i32⟩ : BufTy).Contents (Elt F) → (⟨S524288, .i32⟩ : BufTy).Contents (Elt F) → (⟨S524288, .i32⟩ : BufTy).Contents (Elt F)),  -- %10 = stablehlo.add %8, %9
    StableHlo.nullary main_c_5 (constantI S_ 32 0#32),  -- %c_5 = stablehlo.constant dense<0>
    StableHlo.unary main_c_5 main_v11 (broadcastInDim S524288 ![] bcast_S_S524288 : (⟨S_, .i32⟩ : BufTy).Contents (Elt F) → (⟨S524288, .i32⟩ : BufTy).Contents (Elt F)),  -- %11 = stablehlo.broadcast_in_dim %c_5, dims = []
    StableHlo.binary main_v6 main_v11 main_v12 (cmpi .slt : (⟨S524288, .i32⟩ : BufTy).Contents (Elt F) → (⟨S524288, .i32⟩ : BufTy).Contents (Elt F) → (⟨S524288, .i1⟩ : BufTy).Contents (Elt F)),  -- %12 = stablehlo.compare LT, %6, %11, SIGNED
    StableHlo.nullary main_c_6 (constantI S_ 32 8192#32),  -- %c_6 = stablehlo.constant dense<8192>
    StableHlo.unary main_c_6 main_v13 (broadcastInDim S524288 ![] bcast_S_S524288 : (⟨S_, .i32⟩ : BufTy).Contents (Elt F) → (⟨S524288, .i32⟩ : BufTy).Contents (Elt F)),  -- %13 = stablehlo.broadcast_in_dim %c_6, dims = []
    StableHlo.binary main_v6 main_v13 main_v14 (addi : (⟨S524288, .i32⟩ : BufTy).Contents (Elt F) → (⟨S524288, .i32⟩ : BufTy).Contents (Elt F) → (⟨S524288, .i32⟩ : BufTy).Contents (Elt F)),  -- %14 = stablehlo.add %6, %13
    StableHlo.ternary main_v12 main_v14 main_v6 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),  -- %15 = stablehlo.select %12, %14, %6
    StableHlo.unary main_v15 main_v16 (broadcastInDim S524288x1 ![0] bcast_S524288_S524288x1_0 : (⟨S524288, .i32⟩ : BufTy).Contents (Elt F) → (⟨S524288x1, .i32⟩ : BufTy).Contents (Elt F)),  -- %16 = stablehlo.broadcast_in_dim %15, dims = [0]
    StableHlo.binary main_arg0 main_v16 main_v17 ((fun x i => Host.gather gather_S8192x64_S524288x1_S524288x64_1_0_n_n_0_1_164 x i) : (⟨S8192x64, .f32⟩ : BufTy).Contents (Elt F) → (⟨S524288x1, .i32⟩ : BufTy).Contents (Elt F) → (⟨S524288x64, .f32⟩ : BufTy).Contents (Elt F)),  -- %17 = "stablehlo.gather"(%arg0, %16)
    StableHlo.nullary main_c_7 (constantI S_ 32 0#32),  -- %c_7 = stablehlo.constant dense<0>
    StableHlo.unary main_c_7 main_v18 (broadcastInDim S524288 ![] bcast_S_S524288 : (⟨S_, .i32⟩ : BufTy).Contents (Elt F) → (⟨S524288, .i32⟩ : BufTy).Contents (Elt F)),  -- %18 = stablehlo.broadcast_in_dim %c_7, dims = []
    StableHlo.binary main_v10 main_v18 main_v19 (cmpi .slt : (⟨S524288, .i32⟩ : BufTy).Contents (Elt F) → (⟨S524288, .i32⟩ : BufTy).Contents (Elt F) → (⟨S524288, .i1⟩ : BufTy).Contents (Elt F)),  -- %19 = stablehlo.compare LT, %10, %18, SIGNED
    StableHlo.nullary main_c_8 (constantI S_ 32 8192#32),  -- %c_8 = stablehlo.constant dense<8192>
    StableHlo.unary main_c_8 main_v20 (broadcastInDim S524288 ![] bcast_S_S524288 : (⟨S_, .i32⟩ : BufTy).Contents (Elt F) → (⟨S524288, .i32⟩ : BufTy).Contents (Elt F)),  -- %20 = stablehlo.broadcast_in_dim %c_8, dims = []
    StableHlo.binary main_v10 main_v20 main_v21 (addi : (⟨S524288, .i32⟩ : BufTy).Contents (Elt F) → (⟨S524288, .i32⟩ : BufTy).Contents (Elt F) → (⟨S524288, .i32⟩ : BufTy).Contents (Elt F)),  -- %21 = stablehlo.add %10, %20
    StableHlo.ternary main_v19 main_v21 main_v10 main_v22 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),  -- %22 = stablehlo.select %19, %21, %10
    StableHlo.unary main_v22 main_v23 (broadcastInDim S524288x1 ![0] bcast_S524288_S524288x1_0 : (⟨S524288, .i32⟩ : BufTy).Contents (Elt F) → (⟨S524288x1, .i32⟩ : BufTy).Contents (Elt F)),  -- %23 = stablehlo.broadcast_in_dim %22, dims = [0]
    StableHlo.binary main_arg0 main_v23 main_v24 ((fun x i => Host.gather gather_S8192x64_S524288x1_S524288x64_1_0_n_n_0_1_164 x i) : (⟨S8192x64, .f32⟩ : BufTy).Contents (Elt F) → (⟨S524288x1, .i32⟩ : BufTy).Contents (Elt F) → (⟨S524288x64, .f32⟩ : BufTy).Contents (Elt F)),  -- %24 = "stablehlo.gather"(%arg0, %23)
    StableHlo.binary main_v17 main_v24 main_v25 ((fun a b => concatenate S524288x128 1 [⟨S524288x64, a⟩, ⟨S524288x64, b⟩] concatenates_S524288x64_S524288x64_S524288x128_d1) : (⟨S524288x64, .f32⟩ : BufTy).Contents (Elt F) → (⟨S524288x64, .f32⟩ : BufTy).Contents (Elt F) → (⟨S524288x128, .f32⟩ : BufTy).Contents (Elt F)),  -- %25 = stablehlo.concatenate %17, %24, dim = 1
    StableHlo.binary main_v25 main_arg1 main_v26 ((fun l r => Host.dotGeneral dot_S524288x128_S128x64_S524288x64_1_0_0_1_n_n none l r) : (⟨S524288x128, .f32⟩ : BufTy).Contents (Elt F) → (⟨S128x64, .f32⟩ : BufTy).Contents (Elt F) → (⟨S524288x64, .f32⟩ : BufTy).Contents (Elt F)),  -- %26 = stablehlo.dot_general %25, %arg1, contracting_dims = [1] x [0], precision = [DEFAULT, DEFAULT]
    StableHlo.unary main_arg2 main_v27 (broadcastInDim S1x64 ![1] bcast_S64_S1x64_1 : (⟨S64, .f32⟩ : BufTy).Contents (Elt F) → (⟨S1x64, .f32⟩ : BufTy).Contents (Elt F)),  -- %27 = stablehlo.broadcast_in_dim %arg2, dims = [1]
    StableHlo.unary main_v27 main_v28 (broadcastInDim S524288x64 ![0, 1] bcast_S1x64_S524288x64_0_1 : (⟨S1x64, .f32⟩ : BufTy).Contents (Elt F) → (⟨S524288x64, .f32⟩ : BufTy).Contents (Elt F)),  -- %28 = stablehlo.broadcast_in_dim %27, dims = [0, 1]
    StableHlo.binary main_v26 main_v28 main_v29 (addf : (⟨S524288x64, .f32⟩ : BufTy).Contents (Elt F) → (⟨S524288x64, .f32⟩ : BufTy).Contents (Elt F) → (⟨S524288x64, .f32⟩ : BufTy).Contents (Elt F)),  -- %29 = stablehlo.add %26, %28
    StableHlo.TRef.unary (.of main_v29 : StableHlo.TRef sig ⟨S524288x64, .f32⟩) main_call4.v0 Host.negf,  -- @silu: %0 = stablehlo.negate %arg0
    StableHlo.TRef.unary main_call4.v0 main_call4.v1 Host.exp,  -- @silu: %1 = stablehlo.exponential %0
    StableHlo.TRef.nullary main_call4.cst (constant S_ .f32 0x3F800000#32),  -- @silu: %cst = stablehlo.constant dense<1.000000e+00>
    StableHlo.TRef.unary main_call4.cst main_call4.v2 (broadcastInDim S524288x64 ![] bcast_S_S524288x64),  -- @silu: %2 = stablehlo.broadcast_in_dim %cst, dims = []
    StableHlo.TRef.binary main_call4.v2 main_call4.v1 main_call4.v3 addf,  -- @silu: %3 = stablehlo.add %2, %1
    StableHlo.TRef.nullary main_call4.cst_0 (constant S_ .f32 0x3F800000#32),  -- @silu: %cst_0 = stablehlo.constant dense<1.000000e+00>
    StableHlo.TRef.unary main_call4.cst_0 main_call4.v4 (broadcastInDim S524288x64 ![] bcast_S_S524288x64),  -- @silu: %4 = stablehlo.broadcast_in_dim %cst_0, dims = []
    StableHlo.TRef.binary main_call4.v4 main_call4.v3 main_call4.v5 Host.divf,  -- @silu: %5 = stablehlo.divide %4, %3
    StableHlo.TRef.binary (.of main_v29 : StableHlo.TRef sig ⟨S524288x64, .f32⟩) main_call4.v5 main_call4.v6 mulf,  -- @silu: %6 = stablehlo.multiply %arg0, %5
    StableHlo.binary main_v30 main_arg3 main_v31 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)),  -- %31 = stablehlo.dot_general %30, %arg3, contracting_dims = [1] x [0], precision = [DEFAULT, DEFAULT]
    StableHlo.unary main_arg4 main_v32 (broadcastInDim S1x64 ![1] bcast_S64_S1x64_1 : (⟨S64, .f32⟩ : BufTy).Contents (Elt F) → (⟨S1x64, .f32⟩ : BufTy).Contents (Elt F)),  -- %32 = stablehlo.broadcast_in_dim %arg4, dims = [1]
    StableHlo.unary main_v32 main_v33 (broadcastInDim S524288x64 ![0, 1] bcast_S1x64_S524288x64_0_1 : (⟨S1x64, .f32⟩ : BufTy).Contents (Elt F) → (⟨S524288x64, .f32⟩ : BufTy).Contents (Elt F)),  -- %33 = stablehlo.broadcast_in_dim %32, dims = [0, 1]
    StableHlo.binary main_v31 main_v33 main_v34 (addf : (⟨S524288x64, .f32⟩ : BufTy).Contents (Elt F) → (⟨S524288x64, .f32⟩ : BufTy).Contents (Elt F) → (⟨S524288x64, .f32⟩ : BufTy).Contents (Elt F)),  -- %34 = stablehlo.add %31, %33
    StableHlo.TRef.unary (.of main_v34 : StableHlo.TRef sig ⟨S524288x64, .f32⟩) main_call5.v0 Host.negf,  -- @silu: %0 = stablehlo.negate %arg0
    StableHlo.TRef.unary main_call5.v0 main_call5.v1 Host.exp,  -- @silu: %1 = stablehlo.exponential %0
    StableHlo.TRef.nullary main_call5.cst (constant S_ .f32 0x3F800000#32),  -- @silu: %cst = stablehlo.constant dense<1.000000e+00>
    StableHlo.TRef.unary main_call5.cst main_call5.v2 (broadcastInDim S524288x64 ![] bcast_S_S524288x64),  -- @silu: %2 = stablehlo.broadcast_in_dim %cst, dims = []
    StableHlo.TRef.binary main_call5.v2 main_call5.v1 main_call5.v3 addf,  -- @silu: %3 = stablehlo.add %2, %1
    StableHlo.TRef.nullary main_call5.cst_0 (constant S_ .f32 0x3F800000#32),  -- @silu: %cst_0 = stablehlo.constant dense<1.000000e+00>
    StableHlo.TRef.unary main_call5.cst_0 main_call5.v4 (broadcastInDim S524288x64 ![] bcast_S_S524288x64),  -- @silu: %4 = stablehlo.broadcast_in_dim %cst_0, dims = []
    StableHlo.TRef.binary main_call5.v4 main_call5.v3 main_call5.v5 Host.divf,  -- @silu: %5 = stablehlo.divide %4, %3
    StableHlo.TRef.binary (.of main_v34 : StableHlo.TRef sig ⟨S524288x64, .f32⟩) main_call5.v5 main_call5.v6 mulf,  -- @silu: %6 = stablehlo.multiply %arg0, %5
    StableHlo.binary main_v35 main_arg5 main_v36 ((fun l r => Host.dotGeneral dot_S524288x64_S64x1_S524288x1_1_0_0_1_n_n none l r) : (⟨S524288x64, .f32⟩ : BufTy).Contents (Elt F) → (⟨S64x1, .f32⟩ : BufTy).Contents (Elt F) → (⟨S524288x1, .f32⟩ : BufTy).Contents (Elt F)),  -- %36 = stablehlo.dot_general %35, %arg5, contracting_dims = [1] x [0], precision = [DEFAULT, DEFAULT]
    StableHlo.unary main_arg6 main_v37 (broadcastInDim S1x1 ![1] bcast_S1_S1x1_1 : (⟨S1, .f32⟩ : BufTy).Contents (Elt F) → (⟨S1x1, .f32⟩ : BufTy).Contents (Elt F)),  -- %37 = stablehlo.broadcast_in_dim %arg6, dims = [1]
    StableHlo.unary main_v37 main_v38 (broadcastInDim S524288x1 ![0, 1] bcast_S1x1_S524288x1_0_1 : (⟨S1x1, .f32⟩ : BufTy).Contents (Elt F) → (⟨S524288x1, .f32⟩ : BufTy).Contents (Elt F)),  -- %38 = stablehlo.broadcast_in_dim %37, dims = [0, 1]
    StableHlo.binary main_v36 main_v38 main_v39 (addf : (⟨S524288x1, .f32⟩ : BufTy).Contents (Elt F) → (⟨S524288x1, .f32⟩ : BufTy).Contents (Elt F) → (⟨S524288x1, .f32⟩ : BufTy).Contents (Elt F)),  -- %39 = stablehlo.add %36, %38
    StableHlo.TRef.nullary main_call6.cst (constant S_ .f32 0x00000000#32),  -- @softplus: %cst = stablehlo.constant dense<0.000000e+00>
    StableHlo.TRef.unary main_call6.cst main_call6.v0 (broadcastInDim S524288x1 ![] bcast_S_S524288x1),  -- @softplus: %0 = stablehlo.broadcast_in_dim %cst, dims = []
    StableHlo.TRef.binary (.of main_v39 : StableHlo.TRef sig ⟨S524288x1, .f32⟩) main_call6.v0 main_call6.v1 maximumf,  -- @softplus: %1 = stablehlo.maximum %arg0, %0
    StableHlo.TRef.unary main_call6.cst main_call6.v2 (broadcastInDim S524288x1 ![] bcast_S_S524288x1),  -- @softplus: %2 = stablehlo.broadcast_in_dim %cst, dims = []
    StableHlo.TRef.binary (.of main_v39 : StableHlo.TRef sig ⟨S524288x1, .f32⟩) main_call6.v2 main_call6.v3 subf,  -- @softplus: %3 = stablehlo.subtract %arg0, %2
    StableHlo.TRef.binary main_call6.v3 main_call6.v3 main_call6.v4 (cmpf .une),  -- @softplus: %4 = stablehlo.compare NE, %3, %3, FLOAT
    StableHlo.TRef.unary main_call6.cst main_call6.v5 (broadcastInDim S524288x1 ![] bcast_S_S524288x1),  -- @softplus: %5 = stablehlo.broadcast_in_dim %cst, dims = []
    StableHlo.TRef.binary (.of main_v39 : StableHlo.TRef sig ⟨S524288x1, .f32⟩) main_call6.v5 main_call6.v6 addf,  -- @softplus: %6 = stablehlo.add %arg0, %5
    StableHlo.TRef.unary main_call6.v3 main_call6.v7 Host.absf,  -- @softplus: %7 = stablehlo.abs %3
    StableHlo.TRef.unary main_call6.v7 main_call6.v8 Host.negf,  -- @softplus: %8 = stablehlo.negate %7
    StableHlo.TRef.unary main_call6.v8 main_call6.v9 Host.exp,  -- @softplus: %9 = stablehlo.exponential %8
    StableHlo.TRef.unary main_call6.v9 main_call6.v10 Host.log1p,  -- @softplus: %10 = stablehlo.log_plus_one %9
    StableHlo.TRef.binary main_call6.v1 main_call6.v10 main_call6.v11 addf,  -- @softplus: %11 = stablehlo.add %1, %10
    StableHlo.TRef.ternary main_call6.v4 main_call6.v6 main_call6.v11 main_call6.v12 select,  -- @softplus: %12 = stablehlo.select %4, %6, %11
    StableHlo.binary main_v40 main_arg9 main_v41 (mulf : (⟨S524288x1, .f32⟩ : BufTy).Contents (Elt F) → (⟨S524288x1, .f32⟩ : BufTy).Contents (Elt F) → (⟨S524288x1, .f32⟩ : BufTy).Contents (Elt F)),  -- %41 = stablehlo.multiply %40, %arg9
    StableHlo.binary main_arg7 main_arg9 main_v42 (mulf : (⟨S524288x1, .f32⟩ : BufTy).Contents (Elt F) → (⟨S524288x1, .f32⟩ : BufTy).Contents (Elt F) → (⟨S524288x1, .f32⟩ : BufTy).Contents (Elt F)),  -- %42 = stablehlo.multiply %arg7, %arg9
    StableHlo.binary main_v41 main_v42 main_v43 (subf : (⟨S524288x1, .f32⟩ : BufTy).Contents (Elt F) → (⟨S524288x1, .f32⟩ : BufTy).Contents (Elt F) → (⟨S524288x1, .f32⟩ : BufTy).Contents (Elt F)),  -- %43 = stablehlo.subtract %41, %42
    StableHlo.binary main_v43 main_v43 main_v44 (mulf : (⟨S524288x1, .f32⟩ : BufTy).Contents (Elt F) → (⟨S524288x1, .f32⟩ : BufTy).Contents (Elt F) → (⟨S524288x1, .f32⟩ : BufTy).Contents (Elt F)),  -- %44 = stablehlo.multiply %43, %43
    StableHlo.nullary main_cst (constant S_ .f32 0x00000000#32),  -- %cst = stablehlo.constant dense<0.000000e+00>
    StableHlo.binary main_v44 main_cst main_v45 ((fun x v => Host.reduceAdd x v reducesTo_S524288x1_S_d0_1 h_S_) : (⟨S524288x1, .f32⟩ : BufTy).Contents (Elt F) → (⟨S_, .f32⟩ : BufTy).Contents (Elt F) → (⟨S_, .f32⟩ : BufTy).Contents (Elt F)),  -- %45 = stablehlo.reduce(%44 init: %cst) applies stablehlo.add across dimensions = [0, 1]
    StableHlo.nullary main_cst_9 (constant S_ .f32 0x49000000#32),  -- %cst_9 = stablehlo.constant dense<5.242880e+05>
    StableHlo.binary main_v45 main_cst_9 main_v46 (Host.divf : (⟨S_, .f32⟩ : BufTy).Contents (Elt F) → (⟨S_, .f32⟩ : BufTy).Contents (Elt F) → (⟨S_, .f32⟩ : BufTy).Contents (Elt F)),  -- %46 = stablehlo.divide %45, %cst_9
    StableHlo.unary main_v46 main_v47 (Host.sqrt : (⟨S_, .f32⟩ : BufTy).Contents (Elt F) → (⟨S_, .f32⟩ : BufTy).Contents (Elt F)),  -- %47 = stablehlo.sqrt %46
    StableHlo.TRef.nullary main_call7.cst (constant S_ .f32 0xFF800000#32),  -- @log_softmax: %cst = stablehlo.constant dense<0xFF800000>
    StableHlo.TRef.binary (.of main_arg8 : StableHlo.TRef sig ⟨S8192x6, .f32⟩) main_call7.cst main_call7.v0 (fun x v => Host.reduce FloatOps.maximumf x v reducesTo_S8192x6_S8192_d1 h_S_),  -- @log_softmax: %0 = stablehlo.reduce(%arg0 init: %cst) applies stablehlo.maximum across dimensions = [1]
    StableHlo.TRef.nullary main_call7.cst_0 (constant S_ .f32 0xFF800000#32),  -- @log_softmax: %cst_0 = stablehlo.constant dense<0xFF800000>
    StableHlo.TRef.unary main_call7.cst_0 main_call7.v1 (broadcastInDim S8192 ![] bcast_S_S8192),  -- @log_softmax: %1 = stablehlo.broadcast_in_dim %cst_0, dims = []
    StableHlo.TRef.binary main_call7.v1 main_call7.v0 main_call7.v2 maximumf,  -- @log_softmax: %2 = stablehlo.maximum %1, %0
    StableHlo.TRef.unary main_call7.v2 main_call7.v3 (broadcastInDim S8192x1 ![0] bcast_S8192_S8192x1_0),  -- @log_softmax: %3 = stablehlo.broadcast_in_dim %2, dims = [0]
    StableHlo.TRef.unary main_call7.v3 main_call7.v4 (broadcastInDim S8192x6 ![0, 1] bcast_S8192x1_S8192x6_0_1),  -- @log_softmax: %4 = stablehlo.broadcast_in_dim %3, dims = [0, 1]
    StableHlo.TRef.binary (.of main_arg8 : StableHlo.TRef sig ⟨S8192x6, .f32⟩) main_call7.v4 main_call7.v5 subf,  -- @log_softmax: %5 = stablehlo.subtract %arg0, %4
    StableHlo.TRef.unary main_call7.v5 main_call7.v6 Host.exp,  -- @log_softmax: %6 = stablehlo.exponential %5
    StableHlo.TRef.nullary main_call7.cst_1 (constant S_ .f32 0x00000000#32),  -- @log_softmax: %cst_1 = stablehlo.constant dense<0.000000e+00>
    StableHlo.TRef.binary main_call7.v6 main_call7.cst_1 main_call7.v7 (fun x v => Host.reduceAdd x v reducesTo_S8192x6_S8192_d1 h_S_),  -- @log_softmax: %7 = stablehlo.reduce(%6 init: %cst_1) applies stablehlo.add across dimensions = [1]
    StableHlo.TRef.unary main_call7.v7 main_call7.v8 (broadcastInDim S8192x1 ![0] bcast_S8192_S8192x1_0),  -- @log_softmax: %8 = stablehlo.broadcast_in_dim %7, dims = [0]
    StableHlo.TRef.unary main_call7.v8 main_call7.v9 Host.log,  -- @log_softmax: %9 = stablehlo.log %8
    StableHlo.TRef.unary main_call7.v9 main_call7.v10 (broadcastInDim S8192x6 ![0, 1] bcast_S8192x1_S8192x6_0_1),  -- @log_softmax: %10 = stablehlo.broadcast_in_dim %9, dims = [0, 1]
    StableHlo.TRef.binary main_call7.v5 main_call7.v10 main_call7.v11 subf,  -- @log_softmax: %11 = stablehlo.subtract %5, %10
    StableHlo.reshape main_arg11 main_v49 rfl shapeCasts_S128x64_S8192,  -- %49 = stablehlo.reshape %arg11
    StableHlo.unary main_v49 main_v50 (broadcastInDim S8192x1 ![0] bcast_S8192_S8192x1_0 : (⟨S8192, .i32⟩ : BufTy).Contents (Elt F) → (⟨S8192x1, .i32⟩ : BufTy).Contents (Elt F)),  -- %50 = stablehlo.broadcast_in_dim %49, dims = [0]
    StableHlo.TRef.nullary main_call8.c (constantI S_ 32 0#32),  -- @take_along_axis: %c = stablehlo.constant dense<0>
    StableHlo.TRef.unary main_call8.c main_call8.v0 (broadcastInDim S8192x1 ![] bcast_S_S8192x1),  -- @take_along_axis: %0 = stablehlo.broadcast_in_dim %c, dims = []
    StableHlo.TRef.binary (.of main_v50 : StableHlo.TRef sig ⟨S8192x1, .i32⟩) main_call8.v0 main_call8.v1 (cmpi .slt),  -- @take_along_axis: %1 = stablehlo.compare LT, %arg1, %0, SIGNED
    StableHlo.TRef.nullary main_call8.c_0 (constantI S_ 32 6#32),  -- @take_along_axis: %c_0 = stablehlo.constant dense<6>
    StableHlo.TRef.unary main_call8.c_0 main_call8.v2 (broadcastInDim S8192x1 ![] bcast_S_S8192x1),  -- @take_along_axis: %2 = stablehlo.broadcast_in_dim %c_0, dims = []
    StableHlo.TRef.binary (.of main_v50 : StableHlo.TRef sig ⟨S8192x1, .i32⟩) main_call8.v2 main_call8.v3 addi,  -- @take_along_axis: %3 = stablehlo.add %arg1, %2
    StableHlo.TRef.ternary main_call8.v1 main_call8.v3 (.of main_v50 : StableHlo.TRef sig ⟨S8192x1, .i32⟩) main_call8.v4 select,  -- @take_along_axis: %4 = stablehlo.select %1, %3, %arg1
    StableHlo.TRef.reshape main_call8.v4 main_call8.v5 rfl shapeCasts_S8192x1_S8192x1x1,  -- @take_along_axis: %5 = stablehlo.reshape %4
    StableHlo.TRef.nullary main_call8.c_1 (constantI S1 32 5#32),  -- @take_along_axis: %c_1 = stablehlo.constant dense<5>
    StableHlo.TRef.nullary main_call8.c_2 (constantI S_ 32 0#32),  -- @take_along_axis: %c_2 = stablehlo.constant dense<0>
    StableHlo.TRef.unary main_call8.c_2 main_call8.v6 (broadcastInDim S8192x1x1 ![] bcast_S_S8192x1x1),  -- @take_along_axis: %6 = stablehlo.broadcast_in_dim %c_2, dims = []
    StableHlo.TRef.binary main_call8.v5 main_call8.v6 main_call8.v7 (cmpi .sge),  -- @take_along_axis: %7 = stablehlo.compare GE, %5, %6, SIGNED
    StableHlo.TRef.unary main_call8.c_1 main_call8.v8 (broadcastInDim S1x1x1 ![2] bcast_S1_S1x1x1_2),  -- @take_along_axis: %8 = stablehlo.broadcast_in_dim %c_1, dims = [2]
    StableHlo.TRef.unary main_call8.v8 main_call8.v9 (broadcastInDim S8192x1x1 ![0, 1, 2] bcast_S1x1x1_S8192x1x1_0_1_2),  -- @take_along_axis: %9 = stablehlo.broadcast_in_dim %8, dims = [0, 1, 2]
    StableHlo.TRef.binary main_call8.v5 main_call8.v9 main_call8.v10 (cmpi .sle),  -- @take_along_axis: %10 = stablehlo.compare LE, %5, %9, SIGNED
    StableHlo.TRef.binary main_call8.v7 main_call8.v10 main_call8.v11 andi,  -- @take_along_axis: %11 = stablehlo.and %7, %10
    StableHlo.TRef.nullary main_call8.c_3 (constantI S_ 1 1#1),  -- @take_along_axis: %c_3 = stablehlo.constant dense<true>
    StableHlo.TRef.binary main_call8.v11 main_call8.c_3 main_call8.v12 (fun x v => Host.reduce IntOp.andi x v reducesTo_S8192x1x1_S8192x1_d2 h_S_),  -- @take_along_axis: %12 = stablehlo.reduce(%11 init: %c_3) applies stablehlo.and across dimensions = [2]
    StableHlo.TRef.binary (.of main_v48 : StableHlo.TRef sig ⟨S8192x6, .f32⟩) main_call8.v5 main_call8.v13 (fun x i => Host.gather gather_S8192x6_S8192x1x1_S8192x1_n_1_0_0_1_2_11 x i),  -- @take_along_axis: %13 = "stablehlo.gather"(%arg0, %5)
    StableHlo.TRef.nullary main_call8.cst (constant S_ .f32 0x7FC00000#32),  -- @take_along_axis: %cst = stablehlo.constant dense<0x7FC00000>
    StableHlo.TRef.unary main_call8.cst main_call8.v14 (broadcastInDim S8192x1 ![] bcast_S_S8192x1),  -- @take_along_axis: %14 = stablehlo.broadcast_in_dim %cst, dims = []
    StableHlo.TRef.ternary main_call8.v12 main_call8.v13 main_call8.v14 main_call8.v15 select,  -- @take_along_axis: %15 = stablehlo.select %12, %13, %14
    StableHlo.reshape main_v51 main_v52 rfl shapeCasts_S8192x1_S8192,  -- %52 = stablehlo.reshape %51
    StableHlo.unary main_v52 main_v53 (Host.negf : (⟨S8192, .f32⟩ : BufTy).Contents (Elt F) → (⟨S8192, .f32⟩ : BufTy).Contents (Elt F)),  -- %53 = stablehlo.negate %52
    StableHlo.reshape main_arg10 main_v54 rfl shapeCasts_S8192x1_S8192,  -- %54 = stablehlo.reshape %arg10
    StableHlo.binary main_v53 main_v54 main_v55 (mulf : (⟨S8192, .f32⟩ : BufTy).Contents (Elt F) → (⟨S8192, .f32⟩ : BufTy).Contents (Elt F) → (⟨S8192, .f32⟩ : BufTy).Contents (Elt F)),  -- %55 = stablehlo.multiply %53, %54
    StableHlo.nullary main_cst_10 (constant S_ .f32 0x00000000#32),  -- %cst_10 = stablehlo.constant dense<0.000000e+00>
    StableHlo.binary main_v55 main_cst_10 main_v56 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),  -- %56 = stablehlo.reduce(%55 init: %cst_10) applies stablehlo.add across dimensions = [0]
    StableHlo.nullary main_cst_11 (constant S_ .f32 0x43000000#32),  -- %cst_11 = stablehlo.constant dense<1.280000e+02>
    StableHlo.binary main_v56 main_cst_11 main_v57 (Host.divf : (⟨S_, .f32⟩ : BufTy).Contents (Elt F) → (⟨S_, .f32⟩ : BufTy).Contents (Elt F) → (⟨S_, .f32⟩ : BufTy).Contents (Elt F)),  -- %57 = stablehlo.divide %56, %cst_11
    StableHlo.unary main_v47 main_v58 (broadcastInDim S1 ![] bcast_S_S1 : (⟨S_, .f32⟩ : BufTy).Contents (Elt F) → (⟨S1, .f32⟩ : BufTy).Contents (Elt F)),  -- %58 = stablehlo.broadcast_in_dim %47, dims = []
    StableHlo.unary main_v57 main_v59 (broadcastInDim S1 ![] bcast_S_S1 : (⟨S_, .f32⟩ : BufTy).Contents (Elt F) → (⟨S1, .f32⟩ : BufTy).Contents (Elt F)),  -- %59 = stablehlo.broadcast_in_dim %57, dims = []
    StableHlo.binary main_v58 main_v59 main_v60 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]  -- %60 = stablehlo.concatenate %58, %59, dim = 0

/-- @main is that straight line: with the functions' definitions unfolded at their calls both sides are one chain of
    `hlo` steps once sequencing is reassociated. -/
theorem main_eq (c : Dev nD) : main (F := F) c = seq ops := by
  simp only [main, main_part0, main_part1, fn_floor_divide.body, fn_where.body, fn_remainder.body, fn_where_0.body, fn_silu.body, fn_softplus.body, fn_log_softmax.body, fn_take_along_axis.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., binary_bufs_sub .., binary_bufs_sub .., binary_bufs_sub .., binary_bufs_sub ..,
    nullary_bufs_sub .., binary_bufs_sub .., nullary_bufs_sub .., binary_bufs_sub .., unary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub .., reshape_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., reshape_bufs_sub .., unary_bufs_sub .., reshape_bufs_sub .., binary_bufs_sub ..,
    nullary_bufs_sub .., binary_bufs_sub .., nullary_bufs_sub .., binary_bufs_sub .., unary_bufs_sub .., unary_bufs_sub ..,
    binary_bufs_sub ..⟩

/-- Every operation determines its result: none allocates. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl⟩

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefHead.lean ====
/-
  The first 108 operations of the reference's @main: the edge enumeration and the gather of node rows.

  From the edge number n (an iota) the program computes graph n / 4096 and pair n mod 4096 by floor division and
  floor remainder on signed words, then the two row numbers 64·graph + pair / 64 and 64·graph + pair mod 64, read
  numpy's way (a negative number counts from the end); it gathers those rows of `h` and sets them side by side.
  The line is cut at the calls; each stretch's result buffer is read as the stage function of what the stretch
  found in its operand buffers, the stretches are chained (a fold over l₁ ++ l₂ is the fold over l₂ of the fold over
  l₁), and the chained value at the concatenate's buffer is `pairs` of the first argument.  No operation of the
  line writes an argument buffer.
-/
import proofs.«124486_j14688788152450_2_alg».proof.Proof.RefRun
import proofs.«124486_j14688788152450_2_alg».proof.Proof.RefStages
import Idealize.ShloMosaic.Lib.Pipeline.Frame

set_option maxHeartbeats 40000000

noncomputable section

namespace Cert.ReferenceIdeal.RefHead

open Cert.ReferenceIdeal Cert.ReferenceIdeal.Gen Idealize.ShloMosaic Idealize.ShloMosaic.TcCoe Idealize.SL.Sem Idealize.ShloMosaic.StableHlo

variable {F : FTy → Type} [FloatOps F]

/-- Operations 1 … 19 of the line. -/
abbrev H1 : List (HloOp τ sig (Elt F)) :=
  [ StableHlo.nullary main_v0 (iotaInDim S524288 32 0),  -- %0 = stablehlo.iota dim = 0
    StableHlo.nullary main_c (constantI S_ 32 4096#32),  -- %c = stablehlo.constant dense<4096>
    StableHlo.TRef.unary (.of main_c : StableHlo.TRef sig ⟨S_, .i32⟩) main_call0.v0 id,  -- @floor_divide: %0 = stablehlo.convert %arg1
    StableHlo.TRef.unary main_call0.v0 main_call0.v1 (broadcastInDim S524288 ![] bcast_S_S524288),  -- @floor_divide: %1 = stablehlo.broadcast_in_dim %0, dims = []
    StableHlo.TRef.binary (.of main_v0 : StableHlo.TRef sig ⟨S524288, .i32⟩) main_call0.v1 main_call0.v2 Host.divsi,  -- @floor_divide: %2 = stablehlo.divide %arg0, %1
    StableHlo.TRef.unary (.of main_v0 : StableHlo.TRef sig ⟨S524288, .i32⟩) main_call0.v3 signi,  -- @floor_divide: %3 = stablehlo.sign %arg0
    StableHlo.TRef.unary main_call0.v0 main_call0.v4 signi,  -- @floor_divide: %4 = stablehlo.sign %0
    StableHlo.TRef.unary main_call0.v4 main_call0.v5 (broadcastInDim S524288 ![] bcast_S_S524288),  -- @floor_divide: %5 = stablehlo.broadcast_in_dim %4, dims = []
    StableHlo.TRef.binary main_call0.v3 main_call0.v5 main_call0.v6 (cmpi .ne),  -- @floor_divide: %6 = stablehlo.compare NE, %3, %5, SIGNED
    StableHlo.TRef.unary main_call0.v0 main_call0.v7 (broadcastInDim S524288 ![] bcast_S_S524288),  -- @floor_divide: %7 = stablehlo.broadcast_in_dim %0, dims = []
    StableHlo.TRef.binary (.of main_v0 : StableHlo.TRef sig ⟨S524288, .i32⟩) main_call0.v7 main_call0.v8 Host.remsi,  -- @floor_divide: %8 = stablehlo.remainder %arg0, %7
    StableHlo.TRef.nullary main_call0.c (constantI S_ 32 0#32),  -- @floor_divide: %c = stablehlo.constant dense<0>
    StableHlo.TRef.unary main_call0.c main_call0.v9 (broadcastInDim S524288 ![] bcast_S_S524288),  -- @floor_divide: %9 = stablehlo.broadcast_in_dim %c, dims = []
    StableHlo.TRef.binary main_call0.v8 main_call0.v9 main_call0.v10 (cmpi .ne),  -- @floor_divide: %10 = stablehlo.compare NE, %8, %9, SIGNED
    StableHlo.TRef.binary main_call0.v6 main_call0.v10 main_call0.v11 andi,  -- @floor_divide: %11 = stablehlo.and %6, %10
    StableHlo.TRef.nullary main_call0.c_0 (constantI S_ 32 1#32),  -- @floor_divide: %c_0 = stablehlo.constant dense<1>
    StableHlo.TRef.unary main_call0.c_0 main_call0.v12 (broadcastInDim S524288 ![] bcast_S_S524288),  -- @floor_divide: %12 = stablehlo.broadcast_in_dim %c_0, dims = []
    StableHlo.TRef.binary main_call0.v2 main_call0.v12 main_call0.v13 subi,  -- @floor_divide: %13 = stablehlo.subtract %2, %12
    StableHlo.TRef.ternary main_call0.v11 main_call0.v13 main_call0.v2 main_call0.call0.v0 select ]  -- @floor_divide>@where: %0 = stablehlo.select %arg0, %arg1, %arg2

/-- Operations 20 … 41 of the line. -/
abbrev H2 : List (HloOp τ sig (Elt F)) :=
  [ StableHlo.nullary main_c_0 (constantI S_ 32 4096#32),  -- %c_0 = stablehlo.constant dense<4096>
    StableHlo.TRef.unary (.of main_c_0 : StableHlo.TRef sig ⟨S_, .i32⟩) main_call1.v0 id,  -- @remainder: %0 = stablehlo.convert %arg1
    StableHlo.TRef.nullary main_call1.c (constantI S_ 32 0#32),  -- @remainder: %c = stablehlo.constant dense<0>
    StableHlo.TRef.binary main_call1.v0 main_call1.c main_call1.v1 (cmpi .eq),  -- @remainder: %1 = stablehlo.compare EQ, %0, %c, SIGNED
    StableHlo.TRef.nullary main_call1.c_0 (constantI S_ 32 1#32),  -- @remainder: %c_0 = stablehlo.constant dense<1>
    StableHlo.TRef.ternary main_call1.v1 main_call1.c_0 main_call1.v0 main_call1.call0.v0 select,  -- @remainder>@where_0: %0 = stablehlo.select %arg0, %arg1, %arg2
    StableHlo.TRef.unary main_call1.call0.v0 main_call1.v3 (broadcastInDim S524288 ![] bcast_S_S524288),  -- @remainder: %3 = stablehlo.broadcast_in_dim %2, dims = []
    StableHlo.TRef.binary (.of main_v0 : StableHlo.TRef sig ⟨S524288, .i32⟩) main_call1.v3 main_call1.v4 Host.remsi,  -- @remainder: %4 = stablehlo.remainder %arg0, %3
    StableHlo.TRef.nullary main_call1.c_1 (constantI S_ 32 0#32),  -- @remainder: %c_1 = stablehlo.constant dense<0>
    StableHlo.TRef.unary main_call1.c_1 main_call1.v5 (broadcastInDim S524288 ![] bcast_S_S524288),  -- @remainder: %5 = stablehlo.broadcast_in_dim %c_1, dims = []
    StableHlo.TRef.binary main_call1.v4 main_call1.v5 main_call1.v6 (cmpi .ne),  -- @remainder: %6 = stablehlo.compare NE, %4, %5, SIGNED
    StableHlo.TRef.nullary main_call1.c_2 (constantI S_ 32 0#32),  -- @remainder: %c_2 = stablehlo.constant dense<0>
    StableHlo.TRef.unary main_call1.c_2 main_call1.v7 (broadcastInDim S524288 ![] bcast_S_S524288),  -- @remainder: %7 = stablehlo.broadcast_in_dim %c_2, dims = []
    StableHlo.TRef.binary main_call1.v4 main_call1.v7 main_call1.v8 (cmpi .slt),  -- @remainder: %8 = stablehlo.compare LT, %4, %7, SIGNED
    StableHlo.TRef.nullary main_call1.c_3 (constantI S_ 32 0#32),  -- @remainder: %c_3 = stablehlo.constant dense<0>
    StableHlo.TRef.binary main_call1.call0.v0 main_call1.c_3 main_call1.v9 (cmpi .slt),  -- @remainder: %9 = stablehlo.compare LT, %2, %c_3, SIGNED
    StableHlo.TRef.unary main_call1.v9 main_call1.v10 (broadcastInDim S524288 ![] bcast_S_S524288),  -- @remainder: %10 = stablehlo.broadcast_in_dim %9, dims = []
    StableHlo.TRef.binary main_call1.v8 main_call1.v10 main_call1.v11 (cmpi .ne),  -- @remainder: %11 = stablehlo.compare NE, %8, %10, UNSIGNED
    StableHlo.TRef.binary main_call1.v11 main_call1.v6 main_call1.v12 andi,  -- @remainder: %12 = stablehlo.and %11, %6
    StableHlo.TRef.unary main_call1.call0.v0 main_call1.v13 (broadcastInDim S524288 ![] bcast_S_S524288),  -- @remainder: %13 = stablehlo.broadcast_in_dim %2, dims = []
    StableHlo.TRef.binary main_call1.v4 main_call1.v13 main_call1.v14 addi,  -- @remainder: %14 = stablehlo.add %4, %13
    StableHlo.TRef.ternary main_call1.v12 main_call1.v14 main_call1.v4 main_call1.v15 select ]  -- @remainder: %15 = stablehlo.select %12, %14, %4

/-- Operations 42 … 63 of the line. -/
abbrev H3 : List (HloOp τ sig (Elt F)) :=
  [ StableHlo.nullary main_c_1 (constantI S_ 32 64#32),  -- %c_1 = stablehlo.constant dense<64>
    StableHlo.unary main_c_1 main_v3 (broadcastInDim S524288 ![] bcast_S_S524288 : (⟨S_, .i32⟩ : BufTy).Contents (Elt F) → (⟨S524288, .i32⟩ : BufTy).Contents (Elt F)),  -- %3 = stablehlo.broadcast_in_dim %c_1, dims = []
    StableHlo.binary main_v1 main_v3 main_v4 (muli : (⟨S524288, .i32⟩ : BufTy).Contents (Elt F) → (⟨S524288, .i32⟩ : BufTy).Contents (Elt F) → (⟨S524288, .i32⟩ : BufTy).Contents (Elt F)),  -- %4 = stablehlo.multiply %1, %3
    StableHlo.nullary main_c_2 (constantI S_ 32 64#32),  -- %c_2 = stablehlo.constant dense<64>
    StableHlo.TRef.unary (.of main_c_2 : StableHlo.TRef sig ⟨S_, .i32⟩) main_call2.v0 id,  -- @floor_divide: %0 = stablehlo.convert %arg1
    StableHlo.TRef.unary main_call2.v0 main_call2.v1 (broadcastInDim S524288 ![] bcast_S_S524288),  -- @floor_divide: %1 = stablehlo.broadcast_in_dim %0, dims = []
    StableHlo.TRef.binary (.of main_v2 : StableHlo.TRef sig ⟨S524288, .i32⟩) main_call2.v1 main_call2.v2 Host.divsi,  -- @floor_divide: %2 = stablehlo.divide %arg0, %1
    StableHlo.TRef.unary (.of main_v2 : StableHlo.TRef sig ⟨S524288, .i32⟩) main_call2.v3 signi,  -- @floor_divide: %3 = stablehlo.sign %arg0
    StableHlo.TRef.unary main_call2.v0 main_call2.v4 signi,  -- @floor_divide: %4 = stablehlo.sign %0
    StableHlo.TRef.unary main_call2.v4 main_call2.v5 (broadcastInDim S524288 ![] bcast_S_S524288),  -- @floor_divide: %5 = stablehlo.broadcast_in_dim %4, dims = []
    StableHlo.TRef.binary main_call2.v3 main_call2.v5 main_call2.v6 (cmpi .ne),  -- @floor_divide: %6 = stablehlo.compare NE, %3, %5, SIGNED
    StableHlo.TRef.unary main_call2.v0 main_call2.v7 (broadcastInDim S524288 ![] bcast_S_S524288),  -- @floor_divide: %7 = stablehlo.broadcast_in_dim %0, dims = []
    StableHlo.TRef.binary (.of main_v2 : StableHlo.TRef sig ⟨S524288, .i32⟩) main_call2.v7 main_call2.v8 Host.remsi,  -- @floor_divide: %8 = stablehlo.remainder %arg0, %7
    StableHlo.TRef.nullary main_call2.c (constantI S_ 32 0#32),  -- @floor_divide: %c = stablehlo.constant dense<0>
    StableHlo.TRef.unary main_call2.c main_call2.v9 (broadcastInDim S524288 ![] bcast_S_S524288),  -- @floor_divide: %9 = stablehlo.broadcast_in_dim %c, dims = []
    StableHlo.TRef.binary main_call2.v8 main_call2.v9 main_call2.v10 (cmpi .ne),  -- @floor_divide: %10 = stablehlo.compare NE, %8, %9, SIGNED
    StableHlo.TRef.binary main_call2.v6 main_call2.v10 main_call2.v11 andi,  -- @floor_divide: %11 = stablehlo.and %6, %10
    StableHlo.TRef.nullary main_call2.c_0 (constantI S_ 32 1#32),  -- @floor_divide: %c_0 = stablehlo.constant dense<1>
    StableHlo.TRef.unary main_call2.c_0 main_call2.v12 (broadcastInDim S524288 ![] bcast_S_S524288),  -- @floor_divide: %12 = stablehlo.broadcast_in_dim %c_0, dims = []
    StableHlo.TRef.binary main_call2.v2 main_call2.v12 main_call2.v13 subi,  -- @floor_divide: %13 = stablehlo.subtract %2, %12
    StableHlo.TRef.ternary main_call2.v11 main_call2.v13 main_call2.v2 main_call2.call0.v0 select,  -- @floor_divide>@where: %0 = stablehlo.select %arg0, %arg1, %arg2
    StableHlo.binary main_v4 main_v5 main_v6 (addi : (⟨S524288, .i32⟩ : BufTy).Contents (Elt F) → (⟨S524288, .i32⟩ : BufTy).Contents (Elt F) → (⟨S524288, .i32⟩ : BufTy).Contents (Elt F)) ]  -- %6 = stablehlo.add %4, %5

/-- Operations 64 … 66 of the line. -/
abbrev H4a : List (HloOp τ sig (Elt F)) :=
  [ StableHlo.nullary main_c_3 (constantI S_ 32 64#32),  -- %c_3 = stablehlo.constant dense<64>
    StableHlo.unary main_c_3 main_v7 (broadcastInDim S524288 ![] bcast_S_S524288 : (⟨S_, .i32⟩ : BufTy).Contents (Elt F) → (⟨S524288, .i32⟩ : BufTy).Contents (Elt F)),  -- %7 = stablehlo.broadcast_in_dim %c_3, dims = []
    StableHlo.binary main_v1 main_v7 main_v8 (muli : (⟨S524288, .i32⟩ : BufTy).Contents (Elt F) → (⟨S524288, .i32⟩ : BufTy).Contents (Elt F) → (⟨S524288, .i32⟩ : BufTy).Contents (Elt F)) ]  -- %8 = stablehlo.multiply %1, %7

/-- Operations 67 … 89 of the line. -/
abbrev H4b : List (HloOp τ sig (Elt F)) :=
  [ StableHlo.nullary main_c_4 (constantI S_ 32 64#32),  -- %c_4 = stablehlo.constant dense<64>
    StableHlo.TRef.unary (.of main_c_4 : StableHlo.TRef sig ⟨S_, .i32⟩) main_call3.v0 id,  -- @remainder: %0 = stablehlo.convert %arg1
    StableHlo.TRef.nullary main_call3.c (constantI S_ 32 0#32),  -- @remainder: %c = stablehlo.constant dense<0>
    StableHlo.TRef.binary main_call3.v0 main_call3.c main_call3.v1 (cmpi .eq),  -- @remainder: %1 = stablehlo.compare EQ, %0, %c, SIGNED
    StableHlo.TRef.nullary main_call3.c_0 (constantI S_ 32 1#32),  -- @remainder: %c_0 = stablehlo.constant dense<1>
    StableHlo.TRef.ternary main_call3.v1 main_call3.c_0 main_call3.v0 main_call3.call0.v0 select,  -- @remainder>@where_0: %0 = stablehlo.select %arg0, %arg1, %arg2
    StableHlo.TRef.unary main_call3.call0.v0 main_call3.v3 (broadcastInDim S524288 ![] bcast_S_S524288),  -- @remainder: %3 = stablehlo.broadcast_in_dim %2, dims = []
    StableHlo.TRef.binary (.of main_v2 : StableHlo.TRef sig ⟨S524288, .i32⟩) main_call3.v3 main_call3.v4 Host.remsi,  -- @remainder: %4 = stablehlo.remainder %arg0, %3
    StableHlo.TRef.nullary main_call3.c_1 (constantI S_ 32 0#32),  -- @remainder: %c_1 = stablehlo.constant dense<0>
    StableHlo.TRef.unary main_call3.c_1 main_call3.v5 (broadcastInDim S524288 ![] bcast_S_S524288),  -- @remainder: %5 = stablehlo.broadcast_in_dim %c_1, dims = []
    StableHlo.TRef.binary main_call3.v4 main_call3.v5 main_call3.v6 (cmpi .ne),  -- @remainder: %6 = stablehlo.compare NE, %4, %5, SIGNED
    StableHlo.TRef.nullary main_call3.c_2 (constantI S_ 32 0#32),  -- @remainder: %c_2 = stablehlo.constant dense<0>
    StableHlo.TRef.unary main_call3.c_2 main_call3.v7 (broadcastInDim S524288 ![] bcast_S_S524288),  -- @remainder: %7 = stablehlo.broadcast_in_dim %c_2, dims = []
    StableHlo.TRef.binary main_call3.v4 main_call3.v7 main_call3.v8 (cmpi .slt),  -- @remainder: %8 = stablehlo.compare LT, %4, %7, SIGNED
    StableHlo.TRef.nullary main_call3.c_3 (constantI S_ 32 0#32),  -- @remainder: %c_3 = stablehlo.constant dense<0>
    StableHlo.TRef.binary main_call3.call0.v0 main_call3.c_3 main_call3.v9 (cmpi .slt),  -- @remainder: %9 = stablehlo.compare LT, %2, %c_3, SIGNED
    StableHlo.TRef.unary main_call3.v9 main_call3.v10 (broadcastInDim S524288 ![] bcast_S_S524288),  -- @remainder: %10 = stablehlo.broadcast_in_dim %9, dims = []
    StableHlo.TRef.binary main_call3.v8 main_call3.v10 main_call3.v11 (cmpi .ne),  -- @remainder: %11 = stablehlo.compare NE, %8, %10, UNSIGNED
    StableHlo.TRef.binary main_call3.v11 main_call3.v6 main_call3.v12 andi,  -- @remainder: %12 = stablehlo.and %11, %6
    StableHlo.TRef.unary main_call3.call0.v0 main_call3.v13 (broadcastInDim S524288 ![] bcast_S_S524288),  -- @remainder: %13 = stablehlo.broadcast_in_dim %2, dims = []
    StableHlo.TRef.binary main_call3.v4 main_call3.v13 main_call3.v14 addi,  -- @remainder: %14 = stablehlo.add %4, %13
    StableHlo.TRef.ternary main_call3.v12 main_call3.v14 main_call3.v4 main_call3.v15 select,  -- @remainder: %15 = stablehlo.select %12, %14, %4
    StableHlo.binary main_v8 main_v9 main_v10 (addi : (⟨S524288, .i32⟩ : BufTy).Contents (Elt F) → (⟨S524288, .i32⟩ : BufTy).Contents (Elt F) → (⟨S524288, .i32⟩ : BufTy).Contents (Elt F)) ]  -- %10 = stablehlo.add %8, %9

/-- Operations 90 … 108 of the line. -/
abbrev H5 : List (HloOp τ sig (Elt F)) :=
  [ StableHlo.nullary main_c_5 (constantI S_ 32 0#32),  -- %c_5 = stablehlo.constant dense<0>
    StableHlo.unary main_c_5 main_v11 (broadcastInDim S524288 ![] bcast_S_S524288 : (⟨S_, .i32⟩ : BufTy).Contents (Elt F) → (⟨S524288, .i32⟩ : BufTy).Contents (Elt F)),  -- %11 = stablehlo.broadcast_in_dim %c_5, dims = []
    StableHlo.binary main_v6 main_v11 main_v12 (cmpi .slt : (⟨S524288, .i32⟩ : BufTy).Contents (Elt F) → (⟨S524288, .i32⟩ : BufTy).Contents (Elt F) → (⟨S524288, .i1⟩ : BufTy).Contents (Elt F)),  -- %12 = stablehlo.compare LT, %6, %11, SIGNED
    StableHlo.nullary main_c_6 (constantI S_ 32 8192#32),  -- %c_6 = stablehlo.constant dense<8192>
    StableHlo.unary main_c_6 main_v13 (broadcastInDim S524288 ![] bcast_S_S524288 : (⟨S_, .i32⟩ : BufTy).Contents (Elt F) → (⟨S524288, .i32⟩ : BufTy).Contents (Elt F)),  -- %13 = stablehlo.broadcast_in_dim %c_6, dims = []
    StableHlo.binary main_v6 main_v13 main_v14 (addi : (⟨S524288, .i32⟩ : BufTy).Contents (Elt F) → (⟨S524288, .i32⟩ : BufTy).Contents (Elt F) → (⟨S524288, .i32⟩ : BufTy).Contents (Elt F)),  -- %14 = stablehlo.add %6, %13
    StableHlo.ternary main_v12 main_v14 main_v6 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),  -- %15 = stablehlo.select %12, %14, %6
    StableHlo.unary main_v15 main_v16 (broadcastInDim S524288x1 ![0] bcast_S524288_S524288x1_0 : (⟨S524288, .i32⟩ : BufTy).Contents (Elt F) → (⟨S524288x1, .i32⟩ : BufTy).Contents (Elt F)),  -- %16 = stablehlo.broadcast_in_dim %15, dims = [0]
    StableHlo.binary main_arg0 main_v16 main_v17 ((fun x i => Host.gather gather_S8192x64_S524288x1_S524288x64_1_0_n_n_0_1_164 x i) : (⟨S8192x64, .f32⟩ : BufTy).Contents (Elt F) → (⟨S524288x1, .i32⟩ : BufTy).Contents (Elt F) → (⟨S524288x64, .f32⟩ : BufTy).Contents (Elt F)),  -- %17 = "stablehlo.gather"(%arg0, %16)
    StableHlo.nullary main_c_7 (constantI S_ 32 0#32),  -- %c_7 = stablehlo.constant dense<0>
    StableHlo.unary main_c_7 main_v18 (broadcastInDim S524288 ![] bcast_S_S524288 : (⟨S_, .i32⟩ : BufTy).Contents (Elt F) → (⟨S524288, .i32⟩ : BufTy).Contents (Elt F)),  -- %18 = stablehlo.broadcast_in_dim %c_7, dims = []
    StableHlo.binary main_v10 main_v18 main_v19 (cmpi .slt : (⟨S524288, .i32⟩ : BufTy).Contents (Elt F) → (⟨S524288, .i32⟩ : BufTy).Contents (Elt F) → (⟨S524288, .i1⟩ : BufTy).Contents (Elt F)),  -- %19 = stablehlo.compare LT, %10, %18, SIGNED
    StableHlo.nullary main_c_8 (constantI S_ 32 8192#32),  -- %c_8 = stablehlo.constant dense<8192>
    StableHlo.unary main_c_8 main_v20 (broadcastInDim S524288 ![] bcast_S_S524288 : (⟨S_, .i32⟩ : BufTy).Contents (Elt F) → (⟨S524288, .i32⟩ : BufTy).Contents (Elt F)),  -- %20 = stablehlo.broadcast_in_dim %c_8, dims = []
    StableHlo.binary main_v10 main_v20 main_v21 (addi : (⟨S524288, .i32⟩ : BufTy).Contents (Elt F) → (⟨S524288, .i32⟩ : BufTy).Contents (Elt F) → (⟨S524288, .i32⟩ : BufTy).Contents (Elt F)),  -- %21 = stablehlo.add %10, %20
    StableHlo.ternary main_v19 main_v21 main_v10 main_v22 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),  -- %22 = stablehlo.select %19, %21, %10
    StableHlo.unary main_v22 main_v23 (broadcastInDim S524288x1 ![0] bcast_S524288_S524288x1_0 : (⟨S524288, .i32⟩ : BufTy).Contents (Elt F) → (⟨S524288x1, .i32⟩ : BufTy).Contents (Elt F)),  -- %23 = stablehlo.broadcast_in_dim %22, dims = [0]
    StableHlo.binary main_arg0 main_v23 main_v24 ((fun x i => Host.gather gather_S8192x64_S524288x1_S524288x64_1_0_n_n_0_1_164 x i) : (⟨S8192x64, .f32⟩ : BufTy).Contents (Elt F) → (⟨S524288x1, .i32⟩ : BufTy).Contents (Elt F) → (⟨S524288x64, .f32⟩ : BufTy).Contents (Elt F)),  -- %24 = "stablehlo.gather"(%arg0, %23)
    StableHlo.binary main_v17 main_v24 main_v25 ((fun a b => concatenate S524288x128 1 [⟨S524288x64, a⟩, ⟨S524288x64, b⟩] concatenates_S524288x64_S524288x64_S524288x128_d1) : (⟨S524288x64, .f32⟩ : BufTy).Contents (Elt F) → (⟨S524288x64, .f32⟩ : BufTy).Contents (Elt F) → (⟨S524288x128, .f32⟩ : BufTy).Contents (Elt F)) ]  -- %25 = stablehlo.concatenate %17, %24, dim = 1

/-- The first 108 operations are those stretches in order. -/
theorem take_eq : (RefRun.ops (F := F)).take 108 = (((((H1 ++ H2) ++ H3) ++ H4a) ++ H4b) ++ H5) := rfl

section Stretches
attribute [local irreducible] Host.gather concatenate

theorem s1_v0 (W : Valuation τ sig (Elt F)) :
    after H1 W (Proc.devRef .tc main_v0) = RefStages.edgeNo := by
  after_results_simp <;> rfl

theorem s1_v1 (W : Valuation τ sig (Elt F)) :
    after H1 W (Proc.devRef .tc main_v1) = RefStages.graphOf := by
  after_results_simp <;> rfl

theorem s2_v2 (W : Valuation τ sig (Elt F)) :
    after H2 W (Proc.devRef .tc main_v2) = RefStages.floorRem (W (Proc.devRef .tc main_v0)) (constantI S_ 32 4096#32) := by
  after_results_simp <;> rfl

theorem s2_v1 (W : Valuation τ sig (Elt F)) :
    after H2 W (Proc.devRef .tc main_v1) = W (Proc.devRef .tc main_v1) := by
  after_results_simp

theorem s3_v6 (W : Valuation τ sig (Elt F)) :
    after H3 W (Proc.devRef .tc main_v6) = addi (muli (W (Proc.devRef .tc main_v1)) (RefStages.spread (constantI S_ 32 64#32))) (RefStages.floorDiv (W (Proc.devRef .tc main_v2)) (constantI S_ 32 64#32)) := by
  after_results_simp <;> rfl

theorem s3_v1 (W : Valuation τ sig (Elt F)) :
    after H3 W (Proc.devRef .tc main_v1) = W (Proc.devRef .tc main_v1) := by
  after_results_simp

theorem s3_v2 (W : Valuation τ sig (Elt F)) :
    after H3 W (Proc.devRef .tc main_v2) = W (Proc.devRef .tc main_v2) := by
  after_results_simp

theorem s4a_v8 (W : Valuation τ sig (Elt F)) :
    after H4a W (Proc.devRef .tc main_v8) = muli (W (Proc.devRef .tc main_v1)) (RefStages.spread (constantI S_ 32 64#32)) := by
  after_results_simp <;> rfl

theorem s4a_v2 (W : Valuation τ sig (Elt F)) :
    after H4a W (Proc.devRef .tc main_v2) = W (Proc.devRef .tc main_v2) := by
  after_results_simp

theorem s4a_v6 (W : Valuation τ sig (Elt F)) :
    after H4a W (Proc.devRef .tc main_v6) = W (Proc.devRef .tc main_v6) := by
  after_results_simp

theorem s4b_v10 (W : Valuation τ sig (Elt F)) :
    after H4b W (Proc.devRef .tc main_v10) = addi (W (Proc.devRef .tc main_v8)) (RefStages.floorRem (W (Proc.devRef .tc main_v2)) (constantI S_ 32 64#32)) := by
  after_results_simp <;> rfl

theorem s4b_v6 (W : Valuation τ sig (Elt F)) :
    after H4b W (Proc.devRef .tc main_v6) = W (Proc.devRef .tc main_v6) := by
  after_results_simp

theorem s5_v25 (W : Valuation τ sig (Elt F)) :
    after H5 W (Proc.devRef .tc main_v25) = concatenate S524288x128 1 [⟨S524288x64, RefStages.takeRows (W (Proc.devRef .tc main_arg0)) (RefStages.wrap (W (Proc.devRef .tc main_v6)))⟩, ⟨S524288x64, RefStages.takeRows (W (Proc.devRef .tc main_arg0)) (RefStages.wrap (W (Proc.devRef .tc main_v10)))⟩] concatenates_S524288x64_S524288x64_S524288x128_d1 := by
  after_results_simp <;> rfl

end Stretches

theorem p1_v0 (V : Valuation τ sig (Elt F)) : after H1 V (Proc.devRef .tc main_v0) = RefStages.edgeNo := s1_v0 V

theorem p1_v1 (V : Valuation τ sig (Elt F)) : after H1 V (Proc.devRef .tc main_v1) = RefStages.graphOf := s1_v1 V

theorem p2_v2 (V : Valuation τ sig (Elt F)) :
    after (H1 ++ H2) V (Proc.devRef .tc main_v2) = RefStages.pairOf := by
  rw [StableHlo.after_append, s2_v2, p1_v0]
  rfl

theorem p2_v1 (V : Valuation τ sig (Elt F)) :
    after (H1 ++ H2) V (Proc.devRef .tc main_v1) = RefStages.graphOf := by
  rw [StableHlo.after_append, s2_v1, p1_v1]

theorem p3_v6 (V : Valuation τ sig (Elt F)) :
    after ((H1 ++ H2) ++ H3) V (Proc.devRef .tc main_v6) = RefStages.rowRaw := by
  rw [StableHlo.after_append, s3_v6, p2_v1, p2_v2]
  rfl

theorem p3_v1 (V : Valuation τ sig (Elt F)) :
    after ((H1 ++ H2) ++ H3) V (Proc.devRef .tc main_v1) = RefStages.graphOf := by
  rw [StableHlo.after_append, s3_v1, p2_v1]

theorem p3_v2 (V : Valuation τ sig (Elt F)) :
    after ((H1 ++ H2) ++ H3) V (Proc.devRef .tc main_v2) = RefStages.pairOf := by
  rw [StableHlo.after_append, s3_v2, p2_v2]

theorem p4_v8 (V : Valuation τ sig (Elt F)) :
    after (((H1 ++ H2) ++ H3) ++ H4a) V (Proc.devRef .tc main_v8) = muli RefStages.graphOf (RefStages.spread (constantI S_ 32 64#32)) := by
  rw [StableHlo.after_append, s4a_v8, p3_v1]

theorem p4_v2 (V : Valuation τ sig (Elt F)) :
    after (((H1 ++ H2) ++ H3) ++ H4a) V (Proc.devRef .tc main_v2) = RefStages.pairOf := by
  rw [StableHlo.after_append, s4a_v2, p3_v2]

theorem p4_v6 (V : Valuation τ sig (Elt F)) :
    after (((H1 ++ H2) ++ H3) ++ H4a) V (Proc.devRef .tc main_v6) = RefStages.rowRaw := by
  rw [StableHlo.after_append, s4a_v6, p3_v6]

theorem p5_v10 (V : Valuation τ sig (Elt F)) :
    after ((((H1 ++ H2) ++ H3) ++ H4a) ++ H4b) V (Proc.devRef .tc main_v10) = RefStages.colRaw := by
  rw [StableHlo.after_append, s4b_v10, p4_v8, p4_v2]
  rfl

theorem p5_v6 (V : Valuation τ sig (Elt F)) :
    after ((((H1 ++ H2) ++ H3) ++ H4a) ++ H4b) V (Proc.devRef .tc main_v6) = RefStages.rowRaw := by
  rw [StableHlo.after_append, s4b_v6, p4_v6]

/-- No operation of the first five stretches writes the first argument. -/
theorem p5_arg0 (V : Valuation τ sig (Elt F)) :
    after ((((H1 ++ H2) ++ H3) ++ H4a) ++ H4b) V (Proc.devRef .tc main_arg0) = V (Proc.devRef .tc main_arg0) := by
  simp only [H1, H2, H3, H4a, H4b, H5, List.cons_append, List.nil_append]
  after_results_simp

theorem p6_v25 (V : Valuation τ sig (Elt F)) :
    after (((((H1 ++ H2) ++ H3) ++ H4a) ++ H4b) ++ H5) V (Proc.devRef .tc main_v25) = RefStages.pairs (V (Proc.devRef .tc main_arg0)) := by
  rw [StableHlo.after_append, s5_v25, p5_v6, p5_v10, p5_arg0]
  rfl

/-- After the first 108 operations the concatenate's buffer holds the two node rows of every edge, side by side. -/
theorem head_v25 (V : Valuation τ sig (Elt F)) :
    after ((RefRun.ops (F := F)).take 108) V (Proc.devRef .tc main_v25) = RefStages.pairs (V (Proc.devRef .tc main_arg0)) := by
  rw [take_eq]; exact p6_v25 V

theorem head_arg1 (V : Valuation τ sig (Elt F)) :
    after ((RefRun.ops (F := F)).take 108) V (Proc.devRef .tc main_arg1) = V (Proc.devRef .tc main_arg1) := by
  rw [take_eq]
  simp only [H1, H2, H3, H4a, H4b, H5, List.cons_append, List.nil_append]
  after_results_simp

theorem head_arg2 (V : Valuation τ sig (Elt F)) :
    after ((RefRun.ops (F := F)).take 108) V (Proc.devRef .tc main_arg2) = V (Proc.devRef .tc main_arg2) := by
  rw [take_eq]
  simp only [H1, H2, H3, H4a, H4b, H5, List.cons_append, List.nil_append]
  after_results_simp

theorem head_arg3 (V : Valuation τ sig (Elt F)) :
    after ((RefRun.ops (F := F)).take 108) V (Proc.devRef .tc main_arg3) = V (Proc.devRef .tc main_arg3) := by
  rw [take_eq]
  simp only [H1, H2, H3, H4a, H4b, H5, List.cons_append, List.nil_append]
  after_results_simp

theorem head_arg4 (V : Valuation τ sig (Elt F)) :
    after ((RefRun.ops (F := F)).take 108) V (Proc.devRef .tc main_arg4) = V (Proc.devRef .tc main_arg4) := by
  rw [take_eq]
  simp only [H1, H2, H3, H4a, H4b, H5, List.cons_append, List.nil_append]
  after_results_simp

theorem head_arg5 (V : Valuation τ sig (Elt F)) :
    after ((RefRun.ops (F := F)).take 108) V (Proc.devRef .tc main_arg5) = V (Proc.devRef .tc main_arg5) := by
  rw [take_eq]
  simp only [H1, H2, H3, H4a, H4b, H5, List.cons_append, List.nil_append]
  after_results_simp

theorem head_arg6 (V : Valuation τ sig (Elt F)) :
    after ((RefRun.ops (F := F)).take 108) V (Proc.devRef .tc main_arg6) = V (Proc.devRef .tc main_arg6) := by
  rw [take_eq]
  simp only [H1, H2, H3, H4a, H4b, H5, List.cons_append, List.nil_append]
  after_results_simp

theorem head_arg7 (V : Valuation τ sig (Elt F)) :
    after ((RefRun.ops (F := F)).take 108) V (Proc.devRef .tc main_arg7) = V (Proc.devRef .tc main_arg7) := by
  rw [take_eq]
  simp only [H1, H2, H3, H4a, H4b, H5, List.cons_append, List.nil_append]
  after_results_simp

theorem head_arg8 (V : Valuation τ sig (Elt F)) :
    after ((RefRun.ops (F := F)).take 108) V (Proc.devRef .tc main_arg8) = V (Proc.devRef .tc main_arg8) := by
  rw [take_eq]
  simp only [H1, H2, H3, H4a, H4b, H5, List.cons_append, List.nil_append]
  after_results_simp

theorem head_arg9 (V : Valuation τ sig (Elt F)) :
    after ((RefRun.ops (F := F)).take 108) V (Proc.devRef .tc main_arg9) = V (Proc.devRef .tc main_arg9) := by
  rw [take_eq]
  simp only [H1, H2, H3, H4a, H4b, H5, List.cons_append, List.nil_append]
  after_results_simp

theorem head_arg10 (V : Valuation τ sig (Elt F)) :
    after ((RefRun.ops (F := F)).take 108) V (Proc.devRef .tc main_arg10) = V (Proc.devRef .tc main_arg10) := by
  rw [take_eq]
  simp only [H1, H2, H3, H4a, H4b, H5, List.cons_append, List.nil_append]
  after_results_simp

theorem head_arg11 (V : Valuation τ sig (Elt F)) :
    after ((RefRun.ops (F := F)).take 108) V (Proc.devRef .tc main_arg11) = V (Proc.devRef .tc main_arg11) := by
  rw [take_eq]
  simp only [H1, H2, H3, H4a, H4b, H5, List.cons_append, List.nil_append]
  after_results_simp

end Cert.ReferenceIdeal.RefHead

end
-- ==== Proof.RefTail.lean ====
/-
  The reference program's last fifty operations — the masked cross-entropy of `x_hat` and the pairing of the two losses —
  read back stretch by stretch: the log-softmax (15 operations), the class numbers as a column (2), one log-probability
  picked per row (22), and the closing lines (11): negate, mask, sum, divide by 128, and set the edge loss, found in
  its buffer, beside the result.
-/
import proofs.«124486_j14688788152450_2_alg».proof.Proof.RefRun
import proofs.«124486_j14688788152450_2_alg».proof.Proof.RefStages
import Idealize.ShloMosaic.Lib.StableHlo.Run
import Idealize.ShloMosaic.Lib.Pipeline.Frame

noncomputable section

namespace Cert.ReferenceIdeal.RefTail

open Cert.ReferenceIdeal Cert.ReferenceIdeal.Gen Idealize.ShloMosaic Idealize.ShloMosaic.TcCoe Idealize.SL.Sem Idealize.ShloMosaic.StableHlo

variable {F : FTy → Type} [FloatOps F]

/-- The log-softmax of the scores. -/
abbrev T1 : List (HloOp τ sig (Elt F)) :=
  [ StableHlo.TRef.nullary main_call7.cst (constant S_ .f32 0xFF800000#32),
    StableHlo.TRef.binary (.of main_arg8 : StableHlo.TRef sig ⟨S8192x6, .f32⟩) main_call7.cst main_call7.v0 (fun x v => Host.reduce FloatOps.maximumf x v reducesTo_S8192x6_S8192_d1 h_S_),
    StableHlo.TRef.nullary main_call7.cst_0 (constant S_ .f32 0xFF800000#32),
    StableHlo.TRef.unary main_call7.cst_0 main_call7.v1 (broadcastInDim S8192 ![] bcast_S_S8192),
    StableHlo.TRef.binary main_call7.v1 main_call7.v0 main_call7.v2 maximumf,
    StableHlo.TRef.unary main_call7.v2 main_call7.v3 (broadcastInDim S8192x1 ![0] bcast_S8192_S8192x1_0),
    StableHlo.TRef.unary main_call7.v3 main_call7.v4 (broadcastInDim S8192x6 ![0, 1] bcast_S8192x1_S8192x6_0_1),
    StableHlo.TRef.binary (.of main_arg8 : StableHlo.TRef sig ⟨S8192x6, .f32⟩) main_call7.v4 main_call7.v5 subf,
    StableHlo.TRef.unary main_call7.v5 main_call7.v6 Host.exp,
    StableHlo.TRef.nullary main_call7.cst_1 (constant S_ .f32 0x00000000#32),
    StableHlo.TRef.binary main_call7.v6 main_call7.cst_1 main_call7.v7 (fun x v => Host.reduceAdd x v reducesTo_S8192x6_S8192_d1 h_S_),
    StableHlo.TRef.unary main_call7.v7 main_call7.v8 (broadcastInDim S8192x1 ![0] bcast_S8192_S8192x1_0),
    StableHlo.TRef.unary main_call7.v8 main_call7.v9 Host.log,
    StableHlo.TRef.unary main_call7.v9 main_call7.v10 (broadcastInDim S8192x6 ![0, 1] bcast_S8192x1_S8192x6_0_1),
    StableHlo.TRef.binary main_call7.v5 main_call7.v10 main_call7.v11 subf ]

/-- The class numbers, flattened and set as a column. -/
abbrev T2 : List (HloOp τ sig (Elt F)) :=
  [ StableHlo.reshape main_arg11 main_v49 rfl shapeCasts_S128x64_S8192,
    StableHlo.unary main_v49 main_v50 (broadcastInDim S8192x1 ![0] bcast_S8192_S8192x1_0 : (⟨S8192, .i32⟩ : BufTy).Contents (Elt F) → (⟨S8192x1, .i32⟩ : BufTy).Contents (Elt F)) ]

/-- One log-probability per row, at the row's class number. -/
abbrev T3 : List (HloOp τ sig (Elt F)) :=
  [ StableHlo.TRef.nullary main_call8.c (constantI S_ 32 0#32),
    StableHlo.TRef.unary main_call8.c main_call8.v0 (broadcastInDim S8192x1 ![] bcast_S_S8192x1),
    StableHlo.TRef.binary (.of main_v50 : StableHlo.TRef sig ⟨S8192x1, .i32⟩) main_call8.v0 main_call8.v1 (cmpi .slt),
    StableHlo.TRef.nullary main_call8.c_0 (constantI S_ 32 6#32),
    StableHlo.TRef.unary main_call8.c_0 main_call8.v2 (broadcastInDim S8192x1 ![] bcast_S_S8192x1),
    StableHlo.TRef.binary (.of main_v50 : StableHlo.TRef sig ⟨S8192x1, .i32⟩) main_call8.v2 main_call8.v3 addi,
    StableHlo.TRef.ternary main_call8.v1 main_call8.v3 (.of main_v50 : StableHlo.TRef sig ⟨S8192x1, .i32⟩) main_call8.v4 select,
    StableHlo.TRef.reshape main_call8.v4 main_call8.v5 rfl shapeCasts_S8192x1_S8192x1x1,
    StableHlo.TRef.nullary main_call8.c_1 (constantI S1 32 5#32),
    StableHlo.TRef.nullary main_call8.c_2 (constantI S_ 32 0#32),
    StableHlo.TRef.unary main_call8.c_2 main_call8.v6 (broadcastInDim S8192x1x1 ![] bcast_S_S8192x1x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S8192x1x1 ![0, 1, 2] bcast_S1x1x1_S8192x1x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S8192x1x1_S8192x1_d2 h_S_),
    StableHlo.TRef.binary (.of main_v48 : StableHlo.TRef sig ⟨S8192x6, .f32⟩) main_call8.v5 main_call8.v13 (fun x i => Host.gather gather_S8192x6_S8192x1x1_S8192x1_n_1_0_0_1_2_11 x i),
    StableHlo.TRef.nullary main_call8.cst (constant S_ .f32 0x7FC00000#32),
    StableHlo.TRef.unary main_call8.cst main_call8.v14 (broadcastInDim S8192x1 ![] bcast_S_S8192x1),
    StableHlo.TRef.ternary main_call8.v12 main_call8.v13 main_call8.v14 main_call8.v15 select ]

/-- Negate, mask, sum, divide by 128; the two losses side by side. -/
abbrev T4 : List (HloOp τ sig (Elt F)) :=
  [ StableHlo.reshape main_v51 main_v52 rfl shapeCasts_S8192x1_S8192,
    StableHlo.unary main_v52 main_v53 (Host.negf : (⟨S8192, .f32⟩ : BufTy).Contents (Elt F) → (⟨S8192, .f32⟩ : BufTy).Contents (Elt F)),
    StableHlo.reshape main_arg10 main_v54 rfl shapeCasts_S8192x1_S8192,
    StableHlo.binary main_v53 main_v54 main_v55 (mulf : (⟨S8192, .f32⟩ : BufTy).Contents (Elt F) → (⟨S8192, .f32⟩ : BufTy).Contents (Elt F) → (⟨S8192, .f32⟩ : BufTy).Contents (Elt F)),
    StableHlo.nullary main_cst_10 (constant S_ .f32 0x00000000#32),
    StableHlo.binary main_v55 main_cst_10 main_v56 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_11 (constant S_ .f32 0x43000000#32),
    StableHlo.binary main_v56 main_cst_11 main_v57 (Host.divf : (⟨S_, .f32⟩ : BufTy).Contents (Elt F) → (⟨S_, .f32⟩ : BufTy).Contents (Elt F) → (⟨S_, .f32⟩ : BufTy).Contents (Elt F)),
    StableHlo.unary main_v47 main_v58 (broadcastInDim S1 ![] bcast_S_S1 : (⟨S_, .f32⟩ : BufTy).Contents (Elt F) → (⟨S1, .f32⟩ : BufTy).Contents (Elt F)),
    StableHlo.unary main_v57 main_v59 (broadcastInDim S1 ![] bcast_S_S1 : (⟨S_, .f32⟩ : BufTy).Contents (Elt F) → (⟨S1, .f32⟩ : BufTy).Contents (Elt F)),
    StableHlo.binary main_v58 main_v59 main_v60 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

/-- The program's operations after the first 161 are these four stretches. -/
theorem drop_eq : (RefRun.ops (F := F)).drop 161 = T1 ++ (T2 ++ (T3 ++ T4)) := rfl

section Stretches

attribute [local irreducible] Host.reduce Host.reduceAdd Host.gather concatenate shapeCast

set_option maxHeartbeats 4000000 in
theorem t1_v48 (V : Valuation τ sig (Elt F)) :
    StableHlo.after T1 V (Proc.devRef .tc main_v48) = RefStages.logSoftmax (V (Proc.devRef .tc main_arg8)) := by
  simp only [T1]
  dsimp only [TRef.nullary, TRef.unary, TRef.binary, TRef.ternary, TRef.reshape]
  after_results
  rfl
theorem t1_v47 (V : Valuation τ sig (Elt F)) :
    StableHlo.after T1 V (Proc.devRef .tc main_v47) = V (Proc.devRef .tc main_v47) := by
  simp only [T1]
  dsimp only [TRef.nullary, TRef.unary, TRef.binary, TRef.ternary, TRef.reshape]
  after_results
theorem t1_arg10 (V : Valuation τ sig (Elt F)) :
    StableHlo.after T1 V (Proc.devRef .tc main_arg10) = V (Proc.devRef .tc main_arg10) := by
  simp only [T1]
  dsimp only [TRef.nullary, TRef.unary, TRef.binary, TRef.ternary, TRef.reshape]
  after_results
theorem t1_arg11 (V : Valuation τ sig (Elt F)) :
    StableHlo.after T1 V (Proc.devRef .tc main_arg11) = V (Proc.devRef .tc main_arg11) := by
  simp only [T1]
  dsimp only [TRef.nullary, TRef.unary, TRef.binary, TRef.ternary, TRef.reshape]
  after_results

theorem t2_v50 (V : Valuation τ sig (Elt F)) :
    StableHlo.after T2 V (Proc.devRef .tc main_v50)
      = broadcastInDim S8192x1 ![0] bcast_S8192_S8192x1_0 (shapeCast S8192 (V (Proc.devRef .tc main_arg11)) shapeCasts_S128x64_S8192) := by
  simp only [T2]
  after_results
  try rfl
theorem t2_v48 (V : Valuation τ sig (Elt F)) :
    StableHlo.after T2 V (Proc.devRef .tc main_v48) = V (Proc.devRef .tc main_v48) := by
  simp only [T2]
  after_results
theorem t2_v47 (V : Valuation τ sig (Elt F)) :
    StableHlo.after T2 V (Proc.devRef .tc main_v47) = V (Proc.devRef .tc main_v47) := by
  simp only [T2]
  after_results
theorem t2_arg10 (V : Valuation τ sig (Elt F)) :
    StableHlo.after T2 V (Proc.devRef .tc main_arg10) = V (Proc.devRef .tc main_arg10) := by
  simp only [T2]
  after_results

set_option maxHeartbeats 4000000 in
theorem t3_v51 (V : Valuation τ sig (Elt F)) :
    StableHlo.after T3 V (Proc.devRef .tc main_v51)
      = RefStages.takeAlong (V (Proc.devRef .tc main_v48)) (V (Proc.devRef .tc main_v50)) := by
  simp only [T3]
  dsimp only [TRef.nullary, TRef.unary, TRef.binary, TRef.ternary, TRef.reshape]
  after_results
  rfl
theorem t3_v47 (V : Valuation τ sig (Elt F)) :
    StableHlo.after T3 V (Proc.devRef .tc main_v47) = V (Proc.devRef .tc main_v47) := by
  simp only [T3]
  dsimp only [TRef.nullary, TRef.unary, TRef.binary, TRef.ternary, TRef.reshape]
  after_results
theorem t3_arg10 (V : Valuation τ sig (Elt F)) :
    StableHlo.after T3 V (Proc.devRef .tc main_arg10) = V (Proc.devRef .tc main_arg10) := by
  simp only [T3]
  dsimp only [TRef.nullary, TRef.unary, TRef.binary, TRef.ternary, TRef.reshape]
  after_results

theorem t4_v60 (V : Valuation τ sig (Elt F)) :
    StableHlo.after T4 V (Proc.devRef .tc main_v60)
      = RefStages.twoLosses (V (Proc.devRef .tc main_v47))
          (Host.divf (Host.reduceAdd
              (mulf (Host.negf (shapeCast S8192 (V (Proc.devRef .tc main_v51)) shapeCasts_S8192x1_S8192))
                (shapeCast S8192 (V (Proc.devRef .tc main_arg10)) shapeCasts_S8192x1_S8192))
              (constant S_ .f32 0x00000000#32) reducesTo_S8192_S_d0 h_S_)
            (constant S_ .f32 0x43000000#32)) := by
  simp only [T4]
  after_results
  try rfl

end Stretches

/-- The last fifty operations, run from any contents W, leave the result buffer at the edge loss found in its buffer
    beside the masked cross-entropy of the three argument arrays it reads. -/
theorem tail_eq (W : Valuation τ sig (Elt F)) :
    StableHlo.after ((RefRun.ops (F := F)).drop 161) W (Proc.devRef .tc main_v60)
      = RefStages.twoLosses (W (Proc.devRef .tc main_v47))
          (RefStages.recLoss (W (Proc.devRef .tc main_arg8)) (W (Proc.devRef .tc main_arg10)) (W (Proc.devRef .tc main_arg11))) := by
  rw [drop_eq, StableHlo.after_append, StableHlo.after_append, StableHlo.after_append]
  rw [t4_v60, t3_v47, t3_v51, t3_arg10, t2_v47, t2_v48, t2_v50, t2_arg10, t1_v47, t1_v48, t1_arg10, t1_arg11]
  rfl

end Cert.ReferenceIdeal.RefTail

end
-- ==== Proof.RefMid.lean ====
/-
  The reference program's operations 109 … 161 — the three dense layers on the per-edge feature rows and the root of
  the mean squared masked error — read back stretch by stretch: the first layer (product, bias, silu: 13 operations),
  the second (13), the score (product, bias, softplus: 18), and the error's square, total, mean and root (9).  With the
  stretches before and after them this gives the program's result from what the first 108 operations leave.
-/
import proofs.«124486_j14688788152450_2_alg».proof.Proof.RefRun
import proofs.«124486_j14688788152450_2_alg».proof.Proof.RefStages
import proofs.«124486_j14688788152450_2_alg».proof.Proof.RefTail
import Idealize.ShloMosaic.Lib.StableHlo.Run
import Idealize.ShloMosaic.Lib.Pipeline.Frame

noncomputable section

namespace Cert.ReferenceIdeal.RefMid

open Cert.ReferenceIdeal Cert.ReferenceIdeal.Gen Idealize.ShloMosaic Idealize.ShloMosaic.TcCoe Idealize.SL.Sem Idealize.ShloMosaic.StableHlo

variable {F : FTy → Type} [FloatOps F]

/-- The first layer: the rows' product with the 128 × 64 matrix, the bias row, silu. -/
abbrev M1 : List (HloOp τ sig (Elt F)) :=
  [ StableHlo.binary main_v25 main_arg1 main_v26 ((fun l r => Host.dotGeneral dot_S524288x128_S128x64_S524288x64_1_0_0_1_n_n none l r) : (⟨S524288x128, .f32⟩ : BufTy).Contents (Elt F) → (⟨S128x64, .f32⟩ : BufTy).Contents (Elt F) → (⟨S524288x64, .f32⟩ : BufTy).Contents (Elt F)),
    StableHlo.unary main_arg2 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S524288x64 ![0, 1] bcast_S1x64_S524288x64_0_1 : (⟨S1x64, .f32⟩ : BufTy).Contents (Elt F) → (⟨S524288x64, .f32⟩ : BufTy).Contents (Elt F)),
    StableHlo.binary main_v26 main_v28 main_v29 (addf : (⟨S524288x64, .f32⟩ : BufTy).Contents (Elt F) → (⟨S524288x64, .f32⟩ : BufTy).Contents (Elt F) → (⟨S524288x64, .f32⟩ : BufTy).Contents (Elt F)),
    StableHlo.TRef.unary (.of main_v29 : StableHlo.TRef sig ⟨S524288x64, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S524288x64 ![] bcast_S_S524288x64),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S524288x64 ![] bcast_S_S524288x64),
    StableHlo.TRef.binary main_call4.v4 main_call4.v3 main_call4.v5 Host.divf,
    StableHlo.TRef.binary (.of main_v29 : StableHlo.TRef sig ⟨S524288x64, .f32⟩) main_call4.v5 main_call4.v6 mulf ]

/-- The second layer. -/
abbrev M2 : List (HloOp τ sig (Elt F)) :=
  [ StableHlo.binary main_v30 main_arg3 main_v31 ((fun l r => Host.dotGeneral dot_S524288x64_S64x64_S524288x64_1_0_0_1_n_n none l r) : (⟨S524288x64, .f32⟩ : BufTy).Contents (Elt F) → (⟨S64x64, .f32⟩ : BufTy).Contents (Elt F) → (⟨S524288x64, .f32⟩ : BufTy).Contents (Elt F)),
    StableHlo.unary main_arg4 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S524288x64 ![0, 1] bcast_S1x64_S524288x64_0_1 : (⟨S1x64, .f32⟩ : BufTy).Contents (Elt F) → (⟨S524288x64, .f32⟩ : BufTy).Contents (Elt F)),
    StableHlo.binary main_v31 main_v33 main_v34 (addf : (⟨S524288x64, .f32⟩ : BufTy).Contents (Elt F) → (⟨S524288x64, .f32⟩ : BufTy).Contents (Elt F) → (⟨S524288x64, .f32⟩ : BufTy).Contents (Elt F)),
    StableHlo.TRef.unary (.of main_v34 : StableHlo.TRef sig ⟨S524288x64, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S524288x64 ![] bcast_S_S524288x64),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S524288x64 ![] bcast_S_S524288x64),
    StableHlo.TRef.binary main_call5.v4 main_call5.v3 main_call5.v5 Host.divf,
    StableHlo.TRef.binary (.of main_v34 : StableHlo.TRef sig ⟨S524288x64, .f32⟩) main_call5.v5 main_call5.v6 mulf ]

/-- The score: product with the 64 × 1 matrix, the bias, softplus. -/
abbrev M3 : List (HloOp τ sig (Elt F)) :=
  [ StableHlo.binary main_v35 main_arg5 main_v36 ((fun l r => Host.dotGeneral dot_S524288x64_S64x1_S524288x1_1_0_0_1_n_n none l r) : (⟨S524288x64, .f32⟩ : BufTy).Contents (Elt F) → (⟨S64x1, .f32⟩ : BufTy).Contents (Elt F) → (⟨S524288x1, .f32⟩ : BufTy).Contents (Elt F)),
    StableHlo.unary main_arg6 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S524288x1 ![0, 1] bcast_S1x1_S524288x1_0_1 : (⟨S1x1, .f32⟩ : BufTy).Contents (Elt F) → (⟨S524288x1, .f32⟩ : BufTy).Contents (Elt F)),
    StableHlo.binary main_v36 main_v38 main_v39 (addf : (⟨S524288x1, .f32⟩ : BufTy).Contents (Elt F) → (⟨S524288x1, .f32⟩ : BufTy).Contents (Elt F) → (⟨S524288x1, .f32⟩ : BufTy).Contents (Elt F)),
    StableHlo.TRef.nullary main_call6.cst (constant S_ .f32 0x00000000#32),
    StableHlo.TRef.unary main_call6.cst main_call6.v0 (broadcastInDim S524288x1 ![] bcast_S_S524288x1),
    StableHlo.TRef.binary (.of main_v39 : StableHlo.TRef sig ⟨S524288x1, .f32⟩) main_call6.v0 main_call6.v1 maximumf,
    StableHlo.TRef.unary main_call6.cst main_call6.v2 (broadcastInDim S524288x1 ![] bcast_S_S524288x1),
    StableHlo.TRef.binary (.of main_v39 : StableHlo.TRef sig ⟨S524288x1, .f32⟩) main_call6.v2 main_call6.v3 subf,
    StableHlo.TRef.binary main_call6.v3 main_call6.v3 main_call6.v4 (cmpf .une),
    StableHlo.TRef.unary main_call6.cst main_call6.v5 (broadcastInDim S524288x1 ![] bcast_S_S524288x1),
    StableHlo.TRef.binary (.of main_v39 : StableHlo.TRef sig ⟨S524288x1, .f32⟩) main_call6.v5 main_call6.v6 addf,
    StableHlo.TRef.unary main_call6.v3 main_call6.v7 Host.absf,
    StableHlo.TRef.unary main_call6.v7 main_call6.v8 Host.negf,
    StableHlo.TRef.unary main_call6.v8 main_call6.v9 Host.exp,
    StableHlo.TRef.unary main_call6.v9 main_call6.v10 Host.log1p,
    StableHlo.TRef.binary main_call6.v1 main_call6.v10 main_call6.v11 addf,
    StableHlo.TRef.ternary main_call6.v4 main_call6.v6 main_call6.v11 main_call6.v12 select ]

/-- The masked error squared, its total, mean and root. -/
abbrev M4 : List (HloOp τ sig (Elt F)) :=
  [ StableHlo.binary main_v40 main_arg9 main_v41 (mulf : (⟨S524288x1, .f32⟩ : BufTy).Contents (Elt F) → (⟨S524288x1, .f32⟩ : BufTy).Contents (Elt F) → (⟨S524288x1, .f32⟩ : BufTy).Contents (Elt F)),
    StableHlo.binary main_arg7 main_arg9 main_v42 (mulf : (⟨S524288x1, .f32⟩ : BufTy).Contents (Elt F) → (⟨S524288x1, .f32⟩ : BufTy).Contents (Elt F) → (⟨S524288x1, .f32⟩ : BufTy).Contents (Elt F)),
    StableHlo.binary main_v41 main_v42 main_v43 (subf : (⟨S524288x1, .f32⟩ : BufTy).Contents (Elt F) → (⟨S524288x1, .f32⟩ : BufTy).Contents (Elt F) → (⟨S524288x1, .f32⟩ : BufTy).Contents (Elt F)),
    StableHlo.binary main_v43 main_v43 main_v44 (mulf : (⟨S524288x1, .f32⟩ : BufTy).Contents (Elt F) → (⟨S524288x1, .f32⟩ : BufTy).Contents (Elt F) → (⟨S524288x1, .f32⟩ : BufTy).Contents (Elt F)),
    StableHlo.nullary main_cst (constant S_ .f32 0x00000000#32),
    StableHlo.binary main_v44 main_cst main_v45 ((fun x v => Host.reduceAdd x v reducesTo_S524288x1_S_d0_1 h_S_) : (⟨S524288x1, .f32⟩ : BufTy).Contents (Elt F) → (⟨S_, .f32⟩ : BufTy).Contents (Elt F) → (⟨S_, .f32⟩ : BufTy).Contents (Elt F)),
    StableHlo.nullary main_cst_9 (constant S_ .f32 0x49000000#32),
    StableHlo.binary main_v45 main_cst_9 main_v46 (Host.divf : (⟨S_, .f32⟩ : BufTy).Contents (Elt F) → (⟨S_, .f32⟩ : BufTy).Contents (Elt F) → (⟨S_, .f32⟩ : BufTy).Contents (Elt F)),
    StableHlo.unary main_v46 main_v47 (Host.sqrt : (⟨S_, .f32⟩ : BufTy).Contents (Elt F) → (⟨S_, .f32⟩ : BufTy).Contents (Elt F)) ]

/-- The program's operations: the first 108, these four stretches, the last 50. -/
theorem ops_split : (RefRun.ops (F := F))
    = (RefRun.ops (F := F)).take 108 ++ ((M1 ++ (M2 ++ (M3 ++ M4))) ++ (RefRun.ops (F := F)).drop 161) := rfl

section Stretches

attribute [local irreducible] Host.reduce Host.reduceAdd Host.gather concatenate shapeCast

set_option maxHeartbeats 4000000 in
theorem m1_v30 (V : Valuation τ sig (Elt F)) :
    StableHlo.after M1 V (Proc.devRef .tc main_v30)
      = RefStages.silu (addf (Host.dotGeneral dot_S524288x128_S128x64_S524288x64_1_0_0_1_n_n none (V (Proc.devRef .tc main_v25)) (V (Proc.devRef .tc main_arg1)))
          (RefStages.biasRows (V (Proc.devRef .tc main_arg2)))) := by
  simp only [M1]
  dsimp only [TRef.nullary, TRef.unary, TRef.binary, TRef.ternary, TRef.reshape]
  after_results
  rfl

set_option maxHeartbeats 4000000 in
theorem m2_v35 (V : Valuation τ sig (Elt F)) :
    StableHlo.after M2 V (Proc.devRef .tc main_v35) = RefStages.hidden2 (V (Proc.devRef .tc main_v30)) (V (Proc.devRef .tc main_arg3)) (V (Proc.devRef .tc main_arg4)) := by
  simp only [M2]
  dsimp only [TRef.nullary, TRef.unary, TRef.binary, TRef.ternary, TRef.reshape]
  after_results
  rfl

set_option maxHeartbeats 4000000 in
theorem m3_v40 (V : Valuation τ sig (Elt F)) :
    StableHlo.after M3 V (Proc.devRef .tc main_v40) = RefStages.pred (V (Proc.devRef .tc main_v35)) (V (Proc.devRef .tc main_arg5)) (V (Proc.devRef .tc main_arg6)) := by
  simp only [M3]
  dsimp only [TRef.nullary, TRef.unary, TRef.binary, TRef.ternary, TRef.reshape]
  after_results
  rfl

theorem m4_v47 (V : Valuation τ sig (Elt F)) :
    StableHlo.after M4 V (Proc.devRef .tc main_v47)
      = RefStages.rootMean (RefStages.sqErr (V (Proc.devRef .tc main_v40)) (V (Proc.devRef .tc main_arg7)) (V (Proc.devRef .tc main_arg9))) := by
  simp only [M4]
  after_results
  try rfl

theorem m1_arg3 (V : Valuation τ sig (Elt F)) :
    StableHlo.after M1 V (Proc.devRef .tc main_arg3) = V (Proc.devRef .tc main_arg3) := by
  simp only [M1]
  dsimp only [TRef.nullary, TRef.unary, TRef.binary, TRef.ternary, TRef.reshape]
  after_results
theorem m1_arg4 (V : Valuation τ sig (Elt F)) :
    StableHlo.after M1 V (Proc.devRef .tc main_arg4) = V (Proc.devRef .tc main_arg4) := by
  simp only [M1]
  dsimp only [TRef.nullary, TRef.unary, TRef.binary, TRef.ternary, TRef.reshape]
  after_results
theorem m1_arg5 (V : Valuation τ sig (Elt F)) :
    StableHlo.after M1 V (Proc.devRef .tc main_arg5) = V (Proc.devRef .tc main_arg5) := by
  simp only [M1]
  dsimp only [TRef.nullary, TRef.unary, TRef.binary, TRef.ternary, TRef.reshape]
  after_results
theorem m1_arg6 (V : Valuation τ sig (Elt F)) :
    StableHlo.after M1 V (Proc.devRef .tc main_arg6) = V (Proc.devRef .tc main_arg6) := by
  simp only [M1]
  dsimp only [TRef.nullary, TRef.unary, TRef.binary, TRef.ternary, TRef.reshape]
  after_results
theorem m1_arg7 (V : Valuation τ sig (Elt F)) :
    StableHlo.after M1 V (Proc.devRef .tc main_arg7) = V (Proc.devRef .tc main_arg7) := by
  simp only [M1]
  dsimp only [TRef.nullary, TRef.unary, TRef.binary, TRef.ternary, TRef.reshape]
  after_results
theorem m1_arg9 (V : Valuation τ sig (Elt F)) :
    StableHlo.after M1 V (Proc.devRef .tc main_arg9) = V (Proc.devRef .tc main_arg9) := by
  simp only [M1]
  dsimp only [TRef.nullary, TRef.unary, TRef.binary, TRef.ternary, TRef.reshape]
  after_results
theorem m1_arg8 (V : Valuation τ sig (Elt F)) :
    StableHlo.after M1 V (Proc.devRef .tc main_arg8) = V (Proc.devRef .tc main_arg8) := by
  simp only [M1]
  dsimp only [TRef.nullary, TRef.unary, TRef.binary, TRef.ternary, TRef.reshape]
  after_results
theorem m1_arg10 (V : Valuation τ sig (Elt F)) :
    StableHlo.after M1 V (Proc.devRef .tc main_arg10) = V (Proc.devRef .tc main_arg10) := by
  simp only [M1]
  dsimp only [TRef.nullary, TRef.unary, TRef.binary, TRef.ternary, TRef.reshape]
  after_results
theorem m1_arg11 (V : Valuation τ sig (Elt F)) :
    StableHlo.after M1 V (Proc.devRef .tc main_arg11) = V (Proc.devRef .tc main_arg11) := by
  simp only [M1]
  dsimp only [TRef.nullary, TRef.unary, TRef.binary, TRef.ternary, TRef.reshape]
  after_results
theorem m2_arg5 (V : Valuation τ sig (Elt F)) :
    StableHlo.after M2 V (Proc.devRef .tc main_arg5) = V (Proc.devRef .tc main_arg5) := by
  simp only [M2]
  dsimp only [TRef.nullary, TRef.unary, TRef.binary, TRef.ternary, TRef.reshape]
  after_results
theorem m2_arg6 (V : Valuation τ sig (Elt F)) :
    StableHlo.after M2 V (Proc.devRef .tc main_arg6) = V (Proc.devRef .tc main_arg6) := by
  simp only [M2]
  dsimp only [TRef.nullary, TRef.unary, TRef.binary, TRef.ternary, TRef.reshape]
  after_results
theorem m2_arg7 (V : Valuation τ sig (Elt F)) :
    StableHlo.after M2 V (Proc.devRef .tc main_arg7) = V (Proc.devRef .tc main_arg7) := by
  simp only [M2]
  dsimp only [TRef.nullary, TRef.unary, TRef.binary, TRef.ternary, TRef.reshape]
  after_results
theorem m2_arg9 (V : Valuation τ sig (Elt F)) :
    StableHlo.after M2 V (Proc.devRef .tc main_arg9) = V (Proc.devRef .tc main_arg9) := by
  simp only [M2]
  dsimp only [TRef.nullary, TRef.unary, TRef.binary, TRef.ternary, TRef.reshape]
  after_results
theorem m2_arg8 (V : Valuation τ sig (Elt F)) :
    StableHlo.after M2 V (Proc.devRef .tc main_arg8) = V (Proc.devRef .tc main_arg8) := by
  simp only [M2]
  dsimp only [TRef.nullary, TRef.unary, TRef.binary, TRef.ternary, TRef.reshape]
  after_results
theorem m2_arg10 (V : Valuation τ sig (Elt F)) :
    StableHlo.after M2 V (Proc.devRef .tc main_arg10) = V (Proc.devRef .tc main_arg10) := by
  simp only [M2]
  dsimp only [TRef.nullary, TRef.unary, TRef.binary, TRef.ternary, TRef.reshape]
  after_results
theorem m2_arg11 (V : Valuation τ sig (Elt F)) :
    StableHlo.after M2 V (Proc.devRef .tc main_arg11) = V (Proc.devRef .tc main_arg11) := by
  simp only [M2]
  dsimp only [TRef.nullary, TRef.unary, TRef.binary, TRef.ternary, TRef.reshape]
  after_results
theorem m3_arg7 (V : Valuation τ sig (Elt F)) :
    StableHlo.after M3 V (Proc.devRef .tc main_arg7) = V (Proc.devRef .tc main_arg7) := by
  simp only [M3]
  dsimp only [TRef.nullary, TRef.unary, TRef.binary, TRef.ternary, TRef.reshape]
  after_results
theorem m3_arg9 (V : Valuation τ sig (Elt F)) :
    StableHlo.after M3 V (Proc.devRef .tc main_arg9) = V (Proc.devRef .tc main_arg9) := by
  simp only [M3]
  dsimp only [TRef.nullary, TRef.unary, TRef.binary, TRef.ternary, TRef.reshape]
  after_results
theorem m3_arg8 (V : Valuation τ sig (Elt F)) :
    StableHlo.after M3 V (Proc.devRef .tc main_arg8) = V (Proc.devRef .tc main_arg8) := by
  simp only [M3]
  dsimp only [TRef.nullary, TRef.unary, TRef.binary, TRef.ternary, TRef.reshape]
  after_results
theorem m3_arg10 (V : Valuation τ sig (Elt F)) :
    StableHlo.after M3 V (Proc.devRef .tc main_arg10) = V (Proc.devRef .tc main_arg10) := by
  simp only [M3]
  dsimp only [TRef.nullary, TRef.unary, TRef.binary, TRef.ternary, TRef.reshape]
  after_results
theorem m3_arg11 (V : Valuation τ sig (Elt F)) :
    StableHlo.after M3 V (Proc.devRef .tc main_arg11) = V (Proc.devRef .tc main_arg11) := by
  simp only [M3]
  dsimp only [TRef.nullary, TRef.unary, TRef.binary, TRef.ternary, TRef.reshape]
  after_results
theorem m4_arg8 (V : Valuation τ sig (Elt F)) :
    StableHlo.after M4 V (Proc.devRef .tc main_arg8) = V (Proc.devRef .tc main_arg8) := by
  simp only [M4]
  after_results
theorem m4_arg10 (V : Valuation τ sig (Elt F)) :
    StableHlo.after M4 V (Proc.devRef .tc main_arg10) = V (Proc.devRef .tc main_arg10) := by
  simp only [M4]
  after_results
theorem m4_arg11 (V : Valuation τ sig (Elt F)) :
    StableHlo.after M4 V (Proc.devRef .tc main_arg11) = V (Proc.devRef .tc main_arg11) := by
  simp only [M4]
  after_results

end Stretches

/-- Operations 109 … 161 leave the edge loss, from the concatenated feature rows they find and the argument arrays. -/
theorem mid_eq (W : Valuation τ sig (Elt F)) :
    StableHlo.after (M1 ++ (M2 ++ (M3 ++ M4))) W (Proc.devRef .tc main_v47)
      = RefStages.rootMean (RefStages.sqErr (RefStages.pred (RefStages.hidden2
          (RefStages.silu (addf (Host.dotGeneral dot_S524288x128_S128x64_S524288x64_1_0_0_1_n_n none (W (Proc.devRef .tc main_v25)) (W (Proc.devRef .tc main_arg1)))
            (RefStages.biasRows (W (Proc.devRef .tc main_arg2)))))
          (W (Proc.devRef .tc main_arg3)) (W (Proc.devRef .tc main_arg4))) (W (Proc.devRef .tc main_arg5)) (W (Proc.devRef .tc main_arg6))) (W (Proc.devRef .tc main_arg7)) (W (Proc.devRef .tc main_arg9))) := by
  rw [StableHlo.after_append, StableHlo.after_append, StableHlo.after_append]
  rw [m4_v47, m3_v40, m3_arg7, m3_arg9, m2_v35, m2_arg5, m2_arg6, m2_arg7, m2_arg9, m1_v30, m1_arg3, m1_arg4, m1_arg5, m1_arg6,
    m1_arg7, m1_arg9]

theorem mid_arg8 (W : Valuation τ sig (Elt F)) :
    StableHlo.after (M1 ++ (M2 ++ (M3 ++ M4))) W (Proc.devRef .tc main_arg8) = W (Proc.devRef .tc main_arg8) := by
  rw [StableHlo.after_append, StableHlo.after_append, StableHlo.after_append, m4_arg8, m3_arg8, m2_arg8, m1_arg8]

theorem mid_arg10 (W : Valuation τ sig (Elt F)) :
    StableHlo.after (M1 ++ (M2 ++ (M3 ++ M4))) W (Proc.devRef .tc main_arg10) = W (Proc.devRef .tc main_arg10) := by
  rw [StableHlo.after_append, StableHlo.after_append, StableHlo.after_append, m4_arg10, m3_arg10, m2_arg10, m1_arg10]

theorem mid_arg11 (W : Valuation τ sig (Elt F)) :
    StableHlo.after (M1 ++ (M2 ++ (M3 ++ M4))) W (Proc.devRef .tc main_arg11) = W (Proc.devRef .tc main_arg11) := by
  rw [StableHlo.after_append, StableHlo.after_append, StableHlo.after_append, m4_arg11, m3_arg11, m2_arg11, m1_arg11]

/-- The program's result from what its first 108 operations leave: the concatenated feature rows in their buffer and the
    argument arrays untouched. -/
theorem out_of_head (V : Valuation τ sig (Elt F))
    (h25 : StableHlo.after ((RefRun.ops (F := F)).take 108) V (Proc.devRef .tc main_v25) = RefStages.pairs (V (Proc.devRef .tc main_arg0)))
    (h1 : StableHlo.after ((RefRun.ops (F := F)).take 108) V (Proc.devRef .tc main_arg1) = V (Proc.devRef .tc main_arg1))
    (h2 : StableHlo.after ((RefRun.ops (F := F)).take 108) V (Proc.devRef .tc main_arg2) = V (Proc.devRef .tc main_arg2))
    (h3 : StableHlo.after ((RefRun.ops (F := F)).take 108) V (Proc.devRef .tc main_arg3) = V (Proc.devRef .tc main_arg3))
    (h4 : StableHlo.after ((RefRun.ops (F := F)).take 108) V (Proc.devRef .tc main_arg4) = V (Proc.devRef .tc main_arg4))
    (h5 : StableHlo.after ((RefRun.ops (F := F)).take 108) V (Proc.devRef .tc main_arg5) = V (Proc.devRef .tc main_arg5))
    (h6 : StableHlo.after ((RefRun.ops (F := F)).take 108) V (Proc.devRef .tc main_arg6) = V (Proc.devRef .tc main_arg6))
    (h7 : StableHlo.after ((RefRun.ops (F := F)).take 108) V (Proc.devRef .tc main_arg7) = V (Proc.devRef .tc main_arg7))
    (h8 : StableHlo.after ((RefRun.ops (F := F)).take 108) V (Proc.devRef .tc main_arg8) = V (Proc.devRef .tc main_arg8))
    (h9 : StableHlo.after ((RefRun.ops (F := F)).take 108) V (Proc.devRef .tc main_arg9) = V (Proc.devRef .tc main_arg9))
    (h10 : StableHlo.after ((RefRun.ops (F := F)).take 108) V (Proc.devRef .tc main_arg10) = V (Proc.devRef .tc main_arg10))
    (h11 : StableHlo.after ((RefRun.ops (F := F)).take 108) V (Proc.devRef .tc main_arg11) = V (Proc.devRef .tc main_arg11)) :
    StableHlo.after (RefRun.ops (F := F)) V (Proc.devRef .tc main_v60)
      = RefStages.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_split, StableHlo.after_append, StableHlo.after_append, RefTail.tail_eq, mid_eq, mid_arg8, mid_arg10, mid_arg11,
    h25, h1, h2, h3, h4, h5, h6, h7, h8, h9, h10, h11]
  rfl

end Cert.ReferenceIdeal.RefMid

end
-- ==== Proof.RefOut.lean ====
/-
  What the reference's run leaves in its result buffer: `refOut`, the stages composed, as one function of the twelve
  argument arrays; and the arguments unchanged.  The fold of the 211 operations' results at the result buffer is read
  in three parts — the edge enumeration and the gather (the first 108 operations), the three dense layers and the
  masked error (109 … 161), the log-softmax, the pick along the class axis and the two means (162 … 211) — chained by
  the fold of a concatenation being the fold of the folds.
-/
import proofs.«124486_j14688788152450_2_alg».proof.Proof.RefHead
import proofs.«124486_j14688788152450_2_alg».proof.Proof.RefMid
import proofs.«124486_j14688788152450_2_alg».proof.Proof.RefStages
import proofs.«124486_j14688788152450_2_alg».proof.Proof.Gen.Pre_finite_inputs
import proofs.«124486_j14688788152450_2_alg».proof.Defs

set_option maxHeartbeats 40000000

noncomputable section

namespace Cert.ReferenceIdeal.RefOut

open Cert.ReferenceIdeal Cert.ReferenceIdeal.Gen Idealize.ShloMosaic Idealize.ShloMosaic.TcCoe Idealize.SL.Sem Idealize.ShloMosaic.StableHlo

variable {F : FTy → Type} [FloatOps F]

/-- The result buffer after the run holds `refOut` of the argument buffers' contents. -/
theorem out_eq (V : Valuation τ sig (Elt F)) :
    after RefRun.ops V (main_v60 : DevRef τ sig)
      = RefStages.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) :=
  RefMid.out_of_head V (RefHead.head_v25 V) (RefHead.head_arg1 V) (RefHead.head_arg2 V) (RefHead.head_arg3 V) (RefHead.head_arg4 V) (RefHead.head_arg5 V) (RefHead.head_arg6 V) (RefHead.head_arg7 V) (RefHead.head_arg8 V) (RefHead.head_arg9 V) (RefHead.head_arg10 V) (RefHead.head_arg11 V)

theorem arg0_eq (V : Valuation τ sig (Elt F)) :
    after RefRun.ops V (main_arg0 : DevRef τ sig) = V (main_arg0 : DevRef τ sig) := by
  after_results_simp

theorem arg1_eq (V : Valuation τ sig (Elt F)) :
    after RefRun.ops V (main_arg1 : DevRef τ sig) = V (main_arg1 : DevRef τ sig) := by
  after_results_simp

theorem arg2_eq (V : Valuation τ sig (Elt F)) :
    after RefRun.ops V (main_arg2 : DevRef τ sig) = V (main_arg2 : DevRef τ sig) := by
  after_results_simp

theorem arg3_eq (V : Valuation τ sig (Elt F)) :
    after RefRun.ops V (main_arg3 : DevRef τ sig) = V (main_arg3 : DevRef τ sig) := by
  after_results_simp

theorem arg4_eq (V : Valuation τ sig (Elt F)) :
    after RefRun.ops V (main_arg4 : DevRef τ sig) = V (main_arg4 : DevRef τ sig) := by
  after_results_simp

theorem arg5_eq (V : Valuation τ sig (Elt F)) :
    after RefRun.ops V (main_arg5 : DevRef τ sig) = V (main_arg5 : DevRef τ sig) := by
  after_results_simp

theorem arg6_eq (V : Valuation τ sig (Elt F)) :
    after RefRun.ops V (main_arg6 : DevRef τ sig) = V (main_arg6 : DevRef τ sig) := by
  after_results_simp

theorem arg7_eq (V : Valuation τ sig (Elt F)) :
    after RefRun.ops V (main_arg7 : DevRef τ sig) = V (main_arg7 : DevRef τ sig) := by
  after_results_simp

theorem arg8_eq (V : Valuation τ sig (Elt F)) :
    after RefRun.ops V (main_arg8 : DevRef τ sig) = V (main_arg8 : DevRef τ sig) := by
  after_results_simp

theorem arg9_eq (V : Valuation τ sig (Elt F)) :
    after RefRun.ops V (main_arg9 : DevRef τ sig) = V (main_arg9 : DevRef τ sig) := by
  after_results_simp

theorem arg10_eq (V : Valuation τ sig (Elt F)) :
    after RefRun.ops V (main_arg10 : DevRef τ sig) = V (main_arg10 : DevRef τ sig) := by
  after_results_simp

theorem arg11_eq (V : Valuation τ sig (Elt F)) :
    after RefRun.ops V (main_arg11 : DevRef τ sig) = V (main_arg11 : DevRef τ sig) := by
  after_results_simp

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = RefStages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v60).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (RefRun.run_main m ρ)

/-- The reference runs and leaves its argument arrays unchanged. -/
theorem frame_ri : Cert.frame_ReferenceIdeal := fun m ρ _ =>
  (θ_run Cert.ReferenceIdeal.defs _ _).mono (fun _ h c => (h c).2) (run (F := Ideal) m ρ)

end Cert.ReferenceIdeal.RefOut

end
-- ==== Proof.lean ====
/-
  Both programs compute two losses of a graph batch (128 graphs of 64 nodes, node features `h` of width 64).

  The edge loss.  For every ordered node pair (i, j) of every graph the two nodes' feature rows pass through a three-layer
  perceptron (silu, silu, softplus) to a predicted edge weight; the loss is the root of the mean, over all
  524288 = 128 · 64 · 64 pairs, of the squared masked difference to the target.  The reference gathers the two rows per
  pair (row numbers by integer division of the pair's number), sets them side by side and multiplies by the 128 × 64
  first-layer matrix; the kernel multiplies every node's row by the top and by the bottom half of that matrix once and
  adds the two products per pair — the 128-term sum split into its two halves.  The kernel handles eight graphs per grid
  point and writes one partial sum per point; sixteen partial sums are then added.  On the extended reals sums may be
  regrouped freely, the logistic function is 1 / (1 + exp (−x)), and a change of float format is the identity, so the
  two edge losses are the root of one and the same mean.

  The reconstruction loss (log-softmax of `x_hat`, one entry per node picked by `categories`, masked, summed, over 128) is
  the same chain of host operations in both programs.
-/
import proofs.«124486_j14688788152450_2_alg».proof.Defs
import proofs.«124486_j14688788152450_2_alg».proof.Proof.Gen.Kernel
import proofs.«124486_j14688788152450_2_alg».proof.Proof.Gen.Kernel.Frame
import proofs.«124486_j14688788152450_2_alg».proof.Proof.Gen.KernelIdeal
import proofs.«124486_j14688788152450_2_alg».proof.Proof.Gen.KernelIdeal.Frame
import proofs.«124486_j14688788152450_2_alg».proof.Proof.Gen.ReferenceIdeal
import proofs.«124486_j14688788152450_2_alg».proof.Proof.Gen.Pre_finite_inputs
import proofs.«124486_j14688788152450_2_alg».proof.Proof.KRun
import proofs.«124486_j14688788152450_2_alg».proof.Proof.KSum
import proofs.«124486_j14688788152450_2_alg».proof.Proof.RSum
import proofs.«124486_j14688788152450_2_alg».proof.Proof.RefOut
import Idealize.ShloMosaic.Adequacy
import Idealize.ShloMosaic.Init

noncomputable section

namespace Cert.Proof

open Idealize.ShloMosaic Idealize.SL.Sem

section Same

attribute [local irreducible] Host.reduce Host.reduceAdd Host.gather concatenate shapeCast

/-- The reconstruction loss is spelled with the same operations in both programs. -/
theorem recLoss_eq (x : FVec Ideal Cert.ReferenceIdeal.S8192x6 .f32) (nm : FVec Ideal Cert.ReferenceIdeal.S8192x1 .f32) (cats : IVec Cert.ReferenceIdeal.S128x64 32) :
    Cert.KernelIdeal.KTail.recLoss (F := Ideal) x nm cats = Cert.ReferenceIdeal.RefStages.recLoss (F := Ideal) x nm cats := rfl

/-- So is the pairing of the two losses. -/
theorem twoLosses_eq (a b : FVec Ideal Cert.ReferenceIdeal.S_ .f32) :
    Cert.KernelIdeal.KTail.twoLosses (F := Ideal) a b = Cert.ReferenceIdeal.RefStages.twoLosses (F := Ideal) a b := rfl

end Same

/-- The kernel program's result is the reference's function of the argument arrays: the two edge losses are the root of
    the same mean over all edges, the two reconstruction losses the same term. -/
theorem out_eq (m : (ℓ : Loc Cert.KernelIdeal.nD Cert.KernelIdeal.τ Cert.KernelIdeal.sig) → Buf (Elt Ideal) ℓ) (c : Dev Cert.KernelIdeal.nD) :
    Cert.KernelIdeal.KTail.kernelOut (F := Ideal) (Cert.KernelIdeal.KBlocks.partials (F := Ideal) m c) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.ReferenceIdeal.RefStages.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  have e : Cert.KernelIdeal.KTail.rootMean (F := Ideal) (Cert.KernelIdeal.KBlocks.partials (F := Ideal) m c)
      = Cert.ReferenceIdeal.RefStages.edgeLoss (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) :=
    funext fun j => by rw [Cert.KernelIdeal.KSum.edgeLoss_eq, Cert.ReferenceIdeal.RSum.edgeLoss_eq]
  unfold Cert.KernelIdeal.KTail.kernelOut Cert.ReferenceIdeal.RefStages.refOut
  rw [e, recLoss_eq, twoLosses_eq]

theorem frame_k : Cert.frame_Kernel := fun m ρ _ => Cert.Kernel.Gen.frame m ρ
theorem frame_ki : Cert.frame_KernelIdeal := fun m ρ _ => Cert.KernelIdeal.Gen.frame m ρ

/-- No operation of the kernel was rewritten for the ideal reading. -/
theorem preserves : Cert.preserves_Kernel_KernelIdeal := trivial

/-- From memories agreeing on the arguments both programs end with the same two losses. -/
theorem algebraic : Cert.algebraic_KernelIdeal_ReferenceIdeal := by
  intro m ρ m' ρ' _ hagree
  refine ⟨fun c => Cert.KernelIdeal.KTail.kernelOut (F := Ideal) (Cert.KernelIdeal.KBlocks.partials (F := Ideal) m c) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KRun.run (F := Ideal) m ρ, ?_⟩
  refine (θ_run Cert.ReferenceIdeal.defs _ _).mono (fun _ h c => ⟨(h c).1.trans ?_, (h c).2⟩) (Cert.ReferenceIdeal.RefOut.run (F := Ideal) m' ρ')
  obtain ⟨a0, a1, a2, a3, a4, a5, a6, a7, a8, a9, a10, a11⟩ := hagree c
  rw [a0, a1, a2, a3, a4, a5, a6, a7, a8, a9, a10, a11]
  exact (out_eq m c).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefOut.frame_ri, preserves, algebraic⟩

end Cert.Proof

end
